-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v125)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v125) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_

variable [Facts]

def fn_part2 {F : FTy → Type} [FloatOps F] (main_arg13 : FVec F S1 .f32) (main_v33 : IVec S_ 1) : IVec S_ 1 :=
  let main_v34 : FVec F S1 .f32 := Host.absf main_arg13
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg10 : FVec F S128 .f32) (main_arg11 : FVec F S128x128 .f32) (main_arg12 : FVec F S128 .f32) (main_arg13 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg10
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg11
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg12
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg13 main_v33

def fn {F : FTy → Type} [FloatOps F] (main_arg0 : FVec F S100000x128 .f32) (main_arg1 : IVec S1600000 32) (main_arg2 : IVec S1600000 32) (main_arg3 : IVec S1600000 32) (main_arg4 : IVec S1600000 32) (main_arg5 : IVec S1600000 32) (main_arg6 : IVec S1600000 32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg7
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg8
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg9
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg10 main_arg11 main_arg12 main_arg13 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1 : Shape := ⟨1, ![1]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S100000x3 : Shape := ⟨2, ![100000, 3]⟩
abbrev S1x128 : Shape := ⟨2, ![1, 128]⟩
abbrev S1x1 : Shape := ⟨2, ![1, 1]⟩
abbrev S4000x128 : Shape := ⟨2, ![4000, 128]⟩
abbrev S4000x3 : Shape := ⟨2, ![4000, 3]⟩
abbrev S4000x1 : Shape := ⟨2, ![4000, 1]⟩

abbrev nBuf : Space → Nat
  | .hbm => 194
  | .vmem => 15
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S1600000, .i32⟩
  | 4 => ⟨S1600000, .i32⟩
  | 5 => ⟨S1600000, .i32⟩
  | 6 => ⟨S1600000, .i32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S1, .f32⟩
  | 14 => ⟨S_, .f32⟩
  | 15 => ⟨S1600000, .f32⟩
  | 16 => ⟨S_, .f32⟩
  | 17 => ⟨S100000, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S100000, .f32⟩
  | 27 => ⟨S_, .f32⟩
  | 28 => ⟨S100000, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S100000, .f32⟩
  | 38 => ⟨S_, .f32⟩
  | 39 => ⟨S_, .f32⟩
  | 40 => ⟨S100000, .f32⟩
  | 41 => ⟨S100000, .f32⟩
  | 42 => ⟨S_, .f32⟩
  | 43 => ⟨S100000, .f32⟩
  | 44 => ⟨S100000, .f32⟩
  | 45 => ⟨S_, .f32⟩
  | 46 => ⟨S_, .f32⟩
  | 47 => ⟨S100000, .f32⟩
  | 48 => ⟨S100000, .f32⟩
  | 49 => ⟨S_, .f32⟩
  | 50 => ⟨S100000, .f32⟩
  | 51 => ⟨S100000, .f32⟩
  | 52 => ⟨S100000x1, .f32⟩
  | 53 => ⟨S100000x128, .f32⟩
  | 54 => ⟨S100000x128, .f32⟩
  | 55 => ⟨S100000x128, .bf16⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x128, .bf16⟩
  | 65 => ⟨S1600000x128, .f32⟩
  | 66 => ⟨S_, .f32⟩
  | 67 => ⟨S100000x128, .f32⟩
  | 68 => ⟨S1600000x1, .i32⟩
  | 69 => ⟨S100000x128, .f32⟩
  | 70 => ⟨S100000x128, .bf16⟩
  | 71 => ⟨S_, .f32⟩
  | 72 => ⟨S1600000, .f32⟩
  | 73 => ⟨S_, .f32⟩
  | 74 => ⟨S100000, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S100000, .f32⟩
  | 84 => ⟨S_, .f32⟩
  | 85 => ⟨S100000, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S100000, .f32⟩
  | 95 => ⟨S_, .f32⟩
  | 96 => ⟨S_, .f32⟩
  | 97 => ⟨S100000, .f32⟩
  | 98 => ⟨S100000, .f32⟩
  | 99 => ⟨S_, .f32⟩
  | 100 => ⟨S100000, .f32⟩
  | 101 => ⟨S100000, .f32⟩
  | 102 => ⟨S_, .f32⟩
  | 103 => ⟨S_, .f32⟩
  | 104 => ⟨S100000, .f32⟩
  | 105 => ⟨S100000, .f32⟩
  | 106 => ⟨S_, .f32⟩
  | 107 => ⟨S100000, .f32⟩
  | 108 => ⟨S100000, .f32⟩
  | 109 => ⟨S100000x1, .f32⟩
  | 110 => ⟨S100000x128, .f32⟩
  | 111 => ⟨S100000x128, .f32⟩
  | 112 => ⟨S100000x128, .bf16⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x128, .bf16⟩
  | 122 => ⟨S1600000x128, .f32⟩
  | 123 => ⟨S_, .f32⟩
  | 124 => ⟨S100000x128, .f32⟩
  | 125 => ⟨S1600000x1, .i32⟩
  | 126 => ⟨S100000x128, .f32⟩
  | 127 => ⟨S100000x128, .bf16⟩
  | _ => ⟨S100000x128, .f32⟩

abbrev hbmTy0_1 (i : Nat) : BufTy := match i % 128 with
  | 0 => ⟨S_, .f32⟩
  | 1 => ⟨S1600000, .f32⟩
  | 2 => ⟨S_, .f32⟩
  | 3 => ⟨S100000, .f32⟩
  | 4 => ⟨S_, .i32⟩
  | 5 => ⟨S1600000, .i32⟩
  | 6 => ⟨S1600000, .i1⟩
  | 7 => ⟨S_, .i32⟩
  | 8 => ⟨S1600000, .i32⟩
  | 9 => ⟨S1600000, .i32⟩
  | 10 => ⟨S1600000, .i32⟩
  | 11 => ⟨S1600000x1, .i32⟩
  | 12 => ⟨S100000, .f32⟩
  | 13 => ⟨S_, .f32⟩
  | 14 => ⟨S100000, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S100000, .f32⟩
  | 24 => ⟨S_, .f32⟩
  | 25 => ⟨S_, .f32⟩
  | 26 => ⟨S100000, .f32⟩
  | 27 => ⟨S100000, .f32⟩
  | 28 => ⟨S_, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .f32⟩
  | 36 => ⟨S100000, .f32⟩
  | 37 => ⟨S100000, .f32⟩
  | 38 => ⟨S100000x1, .f32⟩
  | 39 => ⟨S100000x128, .f32⟩
  | 40 => ⟨S100000x128, .f32⟩
  | 41 => ⟨S100000x128, .bf16⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x128, .bf16⟩
  | 51 => ⟨S1600000x128, .f32⟩
  | 52 => ⟨S_, .f32⟩
  | 53 => ⟨S100000x128, .f32⟩
  | 54 => ⟨S1600000x1, .i32⟩
  | 55 => ⟨S100000x128, .f32⟩
  | 56 => ⟨S100000x128, .bf16⟩
  | 57 => ⟨S100000x1, .f32⟩
  | 58 => ⟨S100000x1, .f32⟩
  | 59 => ⟨S100000x1, .f32⟩
  | 60 => ⟨S100000x3, .f32⟩
  | 61 => ⟨S128, .f32⟩
  | 62 => ⟨S128, .f32⟩
  | 63 => ⟨S1x128, .f32⟩
  | 64 => ⟨S1x1, .f32⟩
  | 65 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S4000x128, .bf16⟩
  | .local _ .vmem, ⟨5, _⟩ => ⟨S4000x128, .bf16⟩
  | .local _ .vmem, ⟨6, _⟩ => ⟨S4000x3, .f32⟩
  | .local _ .vmem, ⟨7, _⟩ => ⟨S4000x3, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S1x128, .f32⟩
  | .local _ .vmem, ⟨12, _⟩ => ⟨S1x1, .f32⟩
  | .local _ .vmem, ⟨13, _⟩ => ⟨S4000x128, .f32⟩
  | .local _ .vmem, ⟨14, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_c_1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_2 : Ref sig .tc := ⟨.hbm, 27, rfl⟩
abbrev main_v9 : Ref sig .tc := ⟨.hbm, 28, rfl⟩
abbrev main_c_3 : Ref sig .tc := ⟨.hbm, 29, rfl⟩
abbrev main_v10 : Ref sig .tc := ⟨.hbm, 30, rfl⟩
abbrev main_v11 : Ref sig .tc := ⟨.hbm, 31, rfl⟩
abbrev main_c_4 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_5 : Ref sig .tc := ⟨.hbm, 38, rfl⟩
abbrev main_call0_v0 : Ref sig .tc := ⟨.hbm, 39, rfl⟩
abbrev main_call0_v1 : Ref sig .tc := ⟨.hbm, 40, rfl⟩
abbrev main_v17 : Ref sig .tc := ⟨.hbm, 41, rfl⟩
abbrev main_cst_6 : Ref sig .tc := ⟨.hbm, 42, rfl⟩
abbrev main_v18 : Ref sig .tc := ⟨.hbm, 43, rfl⟩
abbrev main_v19 : Ref sig .tc := ⟨.hbm, 44, rfl⟩
abbrev main_cst_7 : Ref sig .tc := ⟨.hbm, 45, rfl⟩
abbrev main_call1_v0 : Ref sig .tc := ⟨.hbm, 46, rfl⟩
abbrev main_call1_v1 : Ref sig .tc := ⟨.hbm, 47, rfl⟩
abbrev main_v20 : Ref sig .tc := ⟨.hbm, 48, rfl⟩
abbrev main_cst_8 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_c_9 : Ref sig .tc := ⟨.hbm, 56, rfl⟩
abbrev main_v27 : Ref sig .tc := ⟨.hbm, 57, rfl⟩
abbrev main_v28 : Ref sig .tc := ⟨.hbm, 58, rfl⟩
abbrev main_c_10 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_11 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_12 : Ref sig .tc := ⟨.hbm, 71, rfl⟩
abbrev main_v39 : Ref sig .tc := ⟨.hbm, 72, rfl⟩
abbrev main_cst_13 : Ref sig .tc := ⟨.hbm, 73, rfl⟩
abbrev main_v40 : Ref sig .tc := ⟨.hbm, 74, rfl⟩
abbrev main_c_14 : Ref sig .tc := ⟨.hbm, 75, rfl⟩
abbrev main_v41 : Ref sig .tc := ⟨.hbm, 76, rfl⟩
abbrev main_v42 : Ref sig .tc := ⟨.hbm, 77, rfl⟩
abbrev main_c_15 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_cst_16 : Ref sig .tc := ⟨.hbm, 84, rfl⟩
abbrev main_v48 : Ref sig .tc := ⟨.hbm, 85, rfl⟩
abbrev main_c_17 : Ref sig .tc := ⟨.hbm, 86, rfl⟩
abbrev main_v49 : Ref sig .tc := ⟨.hbm, 87, rfl⟩
abbrev main_v50 : Ref sig .tc := ⟨.hbm, 88, rfl⟩
abbrev main_c_18 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_cst_19 : Ref sig .tc := ⟨.hbm, 95, rfl⟩
abbrev main_call2_v0 : Ref sig .tc := ⟨.hbm, 96, rfl⟩
abbrev main_call2_v1 : Ref sig .tc := ⟨.hbm, 97, rfl⟩
abbrev main_v56 : Ref sig .tc := ⟨.hbm, 98, rfl⟩
abbrev main_cst_20 : Ref sig .tc := ⟨.hbm, 99, rfl⟩
abbrev main_v57 : Ref sig .tc := ⟨.hbm, 100, rfl⟩
abbrev main_v58 : Ref sig .tc := ⟨.hbm, 101, rfl⟩
abbrev main_cst_21 : Ref sig .tc := ⟨.hbm, 102, rfl⟩
abbrev main_call3_v0 : Ref sig .tc := ⟨.hbm, 103, rfl⟩
abbrev main_call3_v1 : Ref sig .tc := ⟨.hbm, 104, rfl⟩
abbrev main_v59 : Ref sig .tc := ⟨.hbm, 105, rfl⟩
abbrev main_cst_22 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_c_23 : Ref sig .tc := ⟨.hbm, 113, rfl⟩
abbrev main_v66 : Ref sig .tc := ⟨.hbm, 114, rfl⟩
abbrev main_v67 : Ref sig .tc := ⟨.hbm, 115, rfl⟩
abbrev main_c_24 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_cst_25 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_cst_26 : Ref sig .tc := ⟨.hbm, 128, rfl⟩
abbrev main_v78 : Ref sig .tc := ⟨.hbm, 129, rfl⟩
abbrev main_cst_27 : Ref sig .tc := ⟨.hbm, 130, rfl⟩
abbrev main_v79 : Ref sig .tc := ⟨.hbm, 131, rfl⟩
abbrev main_c_28 : Ref sig .tc := ⟨.hbm, 132, rfl⟩
abbrev main_v80 : Ref sig .tc := ⟨.hbm, 133, rfl⟩
abbrev main_v81 : Ref sig .tc := ⟨.hbm, 134, rfl⟩
abbrev main_c_29 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_cst_30 : Ref sig .tc := ⟨.hbm, 141, rfl⟩
abbrev main_v87 : Ref sig .tc := ⟨.hbm, 142, rfl⟩
abbrev main_c_31 : Ref sig .tc := ⟨.hbm, 143, rfl⟩
abbrev main_v88 : Ref sig .tc := ⟨.hbm, 144, rfl⟩
abbrev main_v89 : Ref sig .tc := ⟨.hbm, 145, rfl⟩
abbrev main_c_32 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_cst_33 : Ref sig .tc := ⟨.hbm, 152, rfl⟩
abbrev main_call4_v0 : Ref sig .tc := ⟨.hbm, 153, rfl⟩
abbrev main_call4_v1 : Ref sig .tc := ⟨.hbm, 154, rfl⟩
abbrev main_v95 : Ref sig .tc := ⟨.hbm, 155, rfl⟩
abbrev main_cst_34 : Ref sig .tc := ⟨.hbm, 156, rfl⟩
abbrev main_v96 : Ref sig .tc := ⟨.hbm, 157, rfl⟩
abbrev main_v97 : Ref sig .tc := ⟨.hbm, 158, rfl⟩
abbrev main_cst_35 : Ref sig .tc := ⟨.hbm, 159, rfl⟩
abbrev main_call5_v0 : Ref sig .tc := ⟨.hbm, 160, rfl⟩
abbrev main_call5_v1 : Ref sig .tc := ⟨.hbm, 161, rfl⟩
abbrev main_v98 : Ref sig .tc := ⟨.hbm, 162, rfl⟩
abbrev main_cst_36 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_c_37 : Ref sig .tc := ⟨.hbm, 170, rfl⟩
abbrev main_v105 : Ref sig .tc := ⟨.hbm, 171, rfl⟩
abbrev main_v106 : Ref sig .tc := ⟨.hbm, 172, rfl⟩
abbrev main_c_38 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_cst_39 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bitsLt_bf16_f32 : FTy.bits .bf16 < FTy.bits .f32
  bcast_S_S100000x128 : S_.BroadcastsInDim S100000x128 (![] : Fin 0 → Fin S100000x128.rank)
  concatenates_S100000x1_S100000x1_S100000x1_S100000x3_d1 : Shape.Concatenates [S100000x1, S100000x1, S100000x1] S100000x3 1
  shapeCasts_S128_S1x128 : S128.ShapeCasts S1x128
  shapeCasts_S1_S1x1 : S1.ShapeCasts S1x1
  inb_S4000x3_S4000x1_0_0 : ∀ a, (![0, 0] : Fin 2 → Nat) a + S4000x1.size a ≤ S4000x3.size a
  h_S4000x1 : 0 < S4000x1.numel
  shapeCasts_S4000x1_S4000x1 : S4000x1.ShapeCasts S4000x1
  inb_S4000x3_S4000x1_0_1 : ∀ a, (![0, 1] : Fin 2 → Nat) a + S4000x1.size a ≤ S4000x3.size a
  inb_S4000x3_S4000x1_0_2 : ∀ a, (![0, 2] : Fin 2 → Nat) a + S4000x1.size a ≤ S4000x3.size a
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x128 : S1x1.Broadcasts S4000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .bf16 = 32 ∨ (Rect.block (s := S100000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .bf16 = 32 ∨ (Rect.block (s := S100000x128) S4000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .bf16 = 32 ∨ (Rect.block (s := S100000x128) S4000x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x3.size a ≤ S100000x3.size a
  hwx0_3 : ∀ i : grid0.Coords, EltTy.bits .f32 = 32 ∨ (Rect.block (s := S100000x3) S4000x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S100000x128.size a
  hwx0_9 : ∀ i : grid0.Coords, EltTy.bits .f32 = 32 ∨ (Rect.block (s := S100000x128) S4000x128.size (cc0_transform_9 i) (hinb0_9 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v38) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v77) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v116) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v120) S4000x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg11) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v123) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v124) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v125) S4000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1 : Shape := ⟨1, ![1]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S1x1 : Shape := ⟨2, ![1, 1]⟩

abbrev nBuf : Space → Nat
  | .hbm => 206
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S1600000, .i32⟩
  | 4 => ⟨S1600000, .i32⟩
  | 5 => ⟨S1600000, .i32⟩
  | 6 => ⟨S1600000, .i32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S1, .f32⟩
  | 14 => ⟨S_, .f32⟩
  | 15 => ⟨S1600000, .f32⟩
  | 16 => ⟨S_, .f32⟩
  | 17 => ⟨S100000, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S100000, .f32⟩
  | 27 => ⟨S_, .f32⟩
  | 28 => ⟨S100000, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S100000, .f32⟩
  | 38 => ⟨S_, .f32⟩
  | 39 => ⟨S_, .f32⟩
  | 40 => ⟨S100000, .f32⟩
  | 41 => ⟨S100000, .f32⟩
  | 42 => ⟨S_, .f32⟩
  | 43 => ⟨S100000, .f32⟩
  | 44 => ⟨S100000, .f32⟩
  | 45 => ⟨S_, .f32⟩
  | 46 => ⟨S_, .f32⟩
  | 47 => ⟨S100000, .f32⟩
  | 48 => ⟨S100000, .f32⟩
  | 49 => ⟨S_, .f32⟩
  | 50 => ⟨S100000, .f32⟩
  | 51 => ⟨S100000, .f32⟩
  | 52 => ⟨S100000x1, .f32⟩
  | 53 => ⟨S100000x128, .f32⟩
  | 54 => ⟨S100000x128, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x128, .f32⟩
  | 64 => ⟨S_, .f32⟩
  | 65 => ⟨S100000x128, .f32⟩
  | 66 => ⟨S1600000x1, .i32⟩
  | 67 => ⟨S100000x128, .f32⟩
  | 68 => ⟨S100000x1, .f32⟩
  | 69 => ⟨S100000x128, .f32⟩
  | 70 => ⟨S100000x128, .f32⟩
  | 71 => ⟨S100000x128, .f32⟩
  | 72 => ⟨S1x128, .f32⟩
  | 73 => ⟨S100000x128, .f32⟩
  | 74 => ⟨S100000x128, .f32⟩
  | 75 => ⟨S_, .f32⟩
  | 76 => ⟨S1600000, .f32⟩
  | 77 => ⟨S_, .f32⟩
  | 78 => ⟨S100000, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S100000, .f32⟩
  | 88 => ⟨S_, .f32⟩
  | 89 => ⟨S100000, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S100000, .f32⟩
  | 99 => ⟨S_, .f32⟩
  | 100 => ⟨S_, .f32⟩
  | 101 => ⟨S100000, .f32⟩
  | 102 => ⟨S100000, .f32⟩
  | 103 => ⟨S_, .f32⟩
  | 104 => ⟨S100000, .f32⟩
  | 105 => ⟨S100000, .f32⟩
  | 106 => ⟨S_, .f32⟩
  | 107 => ⟨S_, .f32⟩
  | 108 => ⟨S100000, .f32⟩
  | 109 => ⟨S100000, .f32⟩
  | 110 => ⟨S_, .f32⟩
  | 111 => ⟨S100000, .f32⟩
  | 112 => ⟨S100000, .f32⟩
  | 113 => ⟨S100000x1, .f32⟩
  | 114 => ⟨S100000x128, .f32⟩
  | 115 => ⟨S100000x128, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1600000x128, .f32⟩
  | 125 => ⟨S_, .f32⟩
  | 126 => ⟨S100000x128, .f32⟩
  | 127 => ⟨S1600000x1, .i32⟩
  | _ => ⟨S100000x128, .f32⟩

abbrev hbmTy0_1 (i : Nat) : BufTy := match i % 128 with
  | 0 => ⟨S100000x128, .f32⟩
  | 1 => ⟨S100000x1, .f32⟩
  | 2 => ⟨S100000x128, .f32⟩
  | 3 => ⟨S100000x128, .f32⟩
  | 4 => ⟨S100000x128, .f32⟩
  | 5 => ⟨S1x128, .f32⟩
  | 6 => ⟨S100000x128, .f32⟩
  | 7 => ⟨S100000x128, .f32⟩
  | 8 => ⟨S100000x128, .f32⟩
  | 9 => ⟨S_, .f32⟩
  | 10 => ⟨S1600000, .f32⟩
  | 11 => ⟨S_, .f32⟩
  | 12 => ⟨S100000, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S100000, .f32⟩
  | 22 => ⟨S_, .f32⟩
  | 23 => ⟨S100000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S100000, .f32⟩
  | 33 => ⟨S_, .f32⟩
  | 34 => ⟨S_, .f32⟩
  | 35 => ⟨S100000, .f32⟩
  | 36 => ⟨S100000, .f32⟩
  | 37 => ⟨S_, .f32⟩
  | 38 => ⟨S100000, .f32⟩
  | 39 => ⟨S100000, .f32⟩
  | 40 => ⟨S_, .f32⟩
  | 41 => ⟨S_, .f32⟩
  | 42 => ⟨S100000, .f32⟩
  | 43 => ⟨S100000, .f32⟩
  | 44 => ⟨S_, .f32⟩
  | 45 => ⟨S100000, .f32⟩
  | 46 => ⟨S100000, .f32⟩
  | 47 => ⟨S100000x1, .f32⟩
  | 48 => ⟨S100000x128, .f32⟩
  | 49 => ⟨S100000x128, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x128, .f32⟩
  | 59 => ⟨S_, .f32⟩
  | 60 => ⟨S100000x128, .f32⟩
  | 61 => ⟨S1600000x1, .i32⟩
  | 62 => ⟨S100000x128, .f32⟩
  | 63 => ⟨S100000x1, .f32⟩
  | 64 => ⟨S100000x128, .f32⟩
  | 65 => ⟨S100000x128, .f32⟩
  | 66 => ⟨S100000x128, .f32⟩
  | 67 => ⟨S1x128, .f32⟩
  | 68 => ⟨S100000x128, .f32⟩
  | 69 => ⟨S100000x128, .f32⟩
  | 70 => ⟨S100000x128, .f32⟩
  | 71 => ⟨S_, .f32⟩
  | 72 => ⟨S100000x128, .f32⟩
  | 73 => ⟨S100000x128, .i1⟩
  | 74 => ⟨S1x1, .f32⟩
  | 75 => ⟨S100000x128, .f32⟩
  | 76 => ⟨S100000x128, .f32⟩
  | 77 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_c_1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_2 : Ref sig .tc := ⟨.hbm, 27, rfl⟩
abbrev main_v9 : Ref sig .tc := ⟨.hbm, 28, rfl⟩
abbrev main_c_3 : Ref sig .tc := ⟨.hbm, 29, rfl⟩
abbrev main_v10 : Ref sig .tc := ⟨.hbm, 30, rfl⟩
abbrev main_v11 : Ref sig .tc := ⟨.hbm, 31, rfl⟩
abbrev main_c_4 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_5 : Ref sig .tc := ⟨.hbm, 38, rfl⟩
abbrev main_call0_v0 : Ref sig .tc := ⟨.hbm, 39, rfl⟩
abbrev main_call0_v1 : Ref sig .tc := ⟨.hbm, 40, rfl⟩
abbrev main_v17 : Ref sig .tc := ⟨.hbm, 41, rfl⟩
abbrev main_cst_6 : Ref sig .tc := ⟨.hbm, 42, rfl⟩
abbrev main_v18 : Ref sig .tc := ⟨.hbm, 43, rfl⟩
abbrev main_v19 : Ref sig .tc := ⟨.hbm, 44, rfl⟩
abbrev main_cst_7 : Ref sig .tc := ⟨.hbm, 45, rfl⟩
abbrev main_call1_v0 : Ref sig .tc := ⟨.hbm, 46, rfl⟩
abbrev main_call1_v1 : Ref sig .tc := ⟨.hbm, 47, rfl⟩
abbrev main_v20 : Ref sig .tc := ⟨.hbm, 48, rfl⟩
abbrev main_cst_8 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_c_9 : Ref sig .tc := ⟨.hbm, 55, rfl⟩
abbrev main_v26 : Ref sig .tc := ⟨.hbm, 56, rfl⟩
abbrev main_v27 : Ref sig .tc := ⟨.hbm, 57, rfl⟩
abbrev main_c_10 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_11 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_12 : Ref sig .tc := ⟨.hbm, 75, rfl⟩
abbrev main_v43 : Ref sig .tc := ⟨.hbm, 76, rfl⟩
abbrev main_cst_13 : Ref sig .tc := ⟨.hbm, 77, rfl⟩
abbrev main_v44 : Ref sig .tc := ⟨.hbm, 78, rfl⟩
abbrev main_c_14 : Ref sig .tc := ⟨.hbm, 79, rfl⟩
abbrev main_v45 : Ref sig .tc := ⟨.hbm, 80, rfl⟩
abbrev main_v46 : Ref sig .tc := ⟨.hbm, 81, rfl⟩
abbrev main_c_15 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_16 : Ref sig .tc := ⟨.hbm, 88, rfl⟩
abbrev main_v52 : Ref sig .tc := ⟨.hbm, 89, rfl⟩
abbrev main_c_17 : Ref sig .tc := ⟨.hbm, 90, rfl⟩
abbrev main_v53 : Ref sig .tc := ⟨.hbm, 91, rfl⟩
abbrev main_v54 : Ref sig .tc := ⟨.hbm, 92, rfl⟩
abbrev main_c_18 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_19 : Ref sig .tc := ⟨.hbm, 99, rfl⟩
abbrev main_call2_v0 : Ref sig .tc := ⟨.hbm, 100, rfl⟩
abbrev main_call2_v1 : Ref sig .tc := ⟨.hbm, 101, rfl⟩
abbrev main_v60 : Ref sig .tc := ⟨.hbm, 102, rfl⟩
abbrev main_cst_20 : Ref sig .tc := ⟨.hbm, 103, rfl⟩
abbrev main_v61 : Ref sig .tc := ⟨.hbm, 104, rfl⟩
abbrev main_v62 : Ref sig .tc := ⟨.hbm, 105, rfl⟩
abbrev main_cst_21 : Ref sig .tc := ⟨.hbm, 106, rfl⟩
abbrev main_call3_v0 : Ref sig .tc := ⟨.hbm, 107, rfl⟩
abbrev main_call3_v1 : Ref sig .tc := ⟨.hbm, 108, rfl⟩
abbrev main_v63 : Ref sig .tc := ⟨.hbm, 109, rfl⟩
abbrev main_cst_22 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_c_23 : Ref sig .tc := ⟨.hbm, 116, rfl⟩
abbrev main_v69 : Ref sig .tc := ⟨.hbm, 117, rfl⟩
abbrev main_v70 : Ref sig .tc := ⟨.hbm, 118, rfl⟩
abbrev main_c_24 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_cst_25 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_cst_26 : Ref sig .tc := ⟨.hbm, 137, rfl⟩
abbrev main_v87 : Ref sig .tc := ⟨.hbm, 138, rfl⟩
abbrev main_cst_27 : Ref sig .tc := ⟨.hbm, 139, rfl⟩
abbrev main_v88 : Ref sig .tc := ⟨.hbm, 140, rfl⟩
abbrev main_c_28 : Ref sig .tc := ⟨.hbm, 141, rfl⟩
abbrev main_v89 : Ref sig .tc := ⟨.hbm, 142, rfl⟩
abbrev main_v90 : Ref sig .tc := ⟨.hbm, 143, rfl⟩
abbrev main_c_29 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_cst_30 : Ref sig .tc := ⟨.hbm, 150, rfl⟩
abbrev main_v96 : Ref sig .tc := ⟨.hbm, 151, rfl⟩
abbrev main_c_31 : Ref sig .tc := ⟨.hbm, 152, rfl⟩
abbrev main_v97 : Ref sig .tc := ⟨.hbm, 153, rfl⟩
abbrev main_v98 : Ref sig .tc := ⟨.hbm, 154, rfl⟩
abbrev main_c_32 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_cst_33 : Ref sig .tc := ⟨.hbm, 161, rfl⟩
abbrev main_call4_v0 : Ref sig .tc := ⟨.hbm, 162, rfl⟩
abbrev main_call4_v1 : Ref sig .tc := ⟨.hbm, 163, rfl⟩
abbrev main_v104 : Ref sig .tc := ⟨.hbm, 164, rfl⟩
abbrev main_cst_34 : Ref sig .tc := ⟨.hbm, 165, rfl⟩
abbrev main_v105 : Ref sig .tc := ⟨.hbm, 166, rfl⟩
abbrev main_v106 : Ref sig .tc := ⟨.hbm, 167, rfl⟩
abbrev main_cst_35 : Ref sig .tc := ⟨.hbm, 168, rfl⟩
abbrev main_call5_v0 : Ref sig .tc := ⟨.hbm, 169, rfl⟩
abbrev main_call5_v1 : Ref sig .tc := ⟨.hbm, 170, rfl⟩
abbrev main_v107 : Ref sig .tc := ⟨.hbm, 171, rfl⟩
abbrev main_cst_36 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_c_37 : Ref sig .tc := ⟨.hbm, 178, rfl⟩
abbrev main_v113 : Ref sig .tc := ⟨.hbm, 179, rfl⟩
abbrev main_v114 : Ref sig .tc := ⟨.hbm, 180, rfl⟩
abbrev main_c_38 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_cst_39 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_cst_40 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x128_0_1 : S1x1.BroadcastsInDim S100000x128 (![0, 1] : Fin 2 → Fin S100000x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KFrameBits.lean ====
/-
  The frame of the program: its main function is thirteen lines of host operations (the degree counts, the
  normalisations, the gathers and scatter-adds of the three relations, the stacked destination norms, the summed
  bias) and then ONE kernel region over 25 blocks of 4000 rows. This module states what the region finds in every
  buffer (the contents after the thirteen lines, `V`), that no line writes an argument array, and what window
  `w`'s block at grid point `t` is (`iblk`); it holds at any float instance.
-/
import proofs.«144090_j74285754351670_2_alg».proof.Proof.Gen.Kernel.Launch
import proofs.«144090_j74285754351670_2_alg».proof.Proof.Gen.Kernel.Skeleton
import proofs.«144090_j74285754351670_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.KFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The main function up to the region -/

/-- The thirteen lines of host operations before the region, in order. -/
abbrev hostLines : List (List (HloOp τ sig (Elt F))) := [hostOps0, hostOps0_1, hostOps0_2, hostOps0_3, hostOps0_4, hostOps0_5, hostOps0_6, hostOps0_7, hostOps0_8, hostOps0_9, hostOps0_10, hostOps0_11, hostOps0_12]

/-- Core `c`'s buffers when the region is entered: the contents after the thirteen lines. -/
abbrev V (c : Dev nD) (b : Ref sig .tc) : Buf (Elt F) ((c : Thread nD τ).loc b) :=
  StableHlo.after (List.flatten (hostLines (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor

/-- The main function is the thirteen lines and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main hostLines
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh⟩) main_chain

/-- No host operation before the region writes `main_arg0`: the region finds it as the program was started with it. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes `main_arg1`: the region finds it as the program was started with it. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes `main_arg2`: the region finds it as the program was started with it. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes `main_arg3`: the region finds it as the program was started with it. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes `main_arg4`: the region finds it as the program was started with it. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes `main_arg5`: the region finds it as the program was started with it. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes `main_arg6`: the region finds it as the program was started with it. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes `main_arg7`: the region finds it as the program was started with it. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes `main_arg8`: the region finds it as the program was started with it. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes `main_arg9`: the region finds it as the program was started with it. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes `main_arg10`: the region finds it as the program was started with it. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes `main_arg11`: the region finds it as the program was started with it. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes `main_arg12`: the region finds it as the program was started with it. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes `main_arg13`: the region finds it as the program was started with it. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds its block at every grid point, whether the point fetches it or not (a
    window whose block index does not move is fetched once and kept). -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_in8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run to the region's post -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).1 4).trans (((dats 0 c).arrAt_in 4 rfl _).trans ((hA c 4).trans (V_main_arg7 m c))),
      ((h c).2 main_arg8 (Pipeline.mem_restRefs_of main_arg8 (by decide) (by decide))).trans (V_main_arg8 m c),
      ((h c).1 5).trans (((dats 0 c).arrAt_in 5 rfl _).trans ((hA c 5).trans (V_main_arg9 m c))),
      ((h c).2 main_arg10 (Pipeline.mem_restRefs_of main_arg10 (by decide) (by decide))).trans (V_main_arg10 m c),
      ((h c).1 6).trans (((dats 0 c).arrAt_in 6 rfl _).trans ((hA c 6).trans (V_main_arg11 m c))),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) h

/-! ## What the body reads and writes -/

/-- The whole 4000 × 128 block, the three unit columns of the 4000 × 3 block of norms, the whole weight block, the
    bias row and the slope cell: the rectangles of the body's loads and of its one store. -/
abbrev rAgg : Rect S4000x128 := Rect.unit (s := S4000x128) ![0, 0] S4000x128.size inb_S4000x128_S4000x128_0_0
abbrev rNorm0 : Rect S4000x3 := Rect.unit (s := S4000x3) ![0, 0] S4000x1.size inb_S4000x3_S4000x1_0_0
abbrev rNorm1 : Rect S4000x3 := Rect.unit (s := S4000x3) ![0, 1] S4000x1.size inb_S4000x3_S4000x1_0_1
abbrev rNorm2 : Rect S4000x3 := Rect.unit (s := S4000x3) ![0, 2] S4000x1.size inb_S4000x3_S4000x1_0_2
abbrev rW : Rect S128x128 := Rect.unit (s := S128x128) ![0, 0] S128x128.size inb_S128x128_S128x128_0_0
abbrev rBias : Rect S1x128 := Rect.unit (s := S1x128) ![0, 0] S1x128.size inb_S1x128_S1x128_0_0
abbrev rSlope : Rect S1x1 := Rect.unit (s := S1x1) ![0, 0] S1x1.size inb_S1x1_S1x1_0_0

/-- The output block after the body, from the nine input blocks: ONE store of the whole block, whose value is the
    slope-rectified sum of the three scaled products and the bias row. -/
def outBlock (x1 : Vec F S4000x128 .bf16) (x2 : Vec F S4000x128 .bf16) (x3 : Vec F S4000x128 .bf16) (x4 : Vec F S4000x3 .f32) (x5 : Vec F S128x128 .f32) (x6 : Vec F S128x128 .f32) (x7 : Vec F S128x128 .f32) (x8 : Vec F S1x128 .f32) (x9 : Vec F S1x1 .f32) : Vec F S4000x128 .f32 :=
  View.canon [⟨rAgg, k0_pay1 (k0_pay2 (View.ld x4 rNorm0) (View.ld x4 rNorm1) (View.ld x4 rNorm2) (View.ld x1 rAgg) (View.ld x2 rAgg) (View.ld x3 rAgg) (View.ld x5 rW) (View.ld x6 rW) (View.ld x7 rW)) (View.ld x8 rBias) (View.ld x9 rSlope)⟩]

/-- The one store covers the block. -/
theorem cover_out (p0 : Vec F S4000x128 .f32) (y : S4000x128.Idx) :
    ∃ pc ∈ ([⟨rAgg, p0⟩] : List (View.Piece (Elt F) S4000x128 .f32)), y ∈ pc.1.set :=
  View.cover_of_tiled [⟨rAgg, p0⟩] S4000x128.size (by rfl) y

/-! ## The body's triple -/

set_option maxHeartbeats 4000000 in
/-- The body, on whole staging buffers holding the nine input blocks and anything in the output's, runs to the
    continuation with the inputs as they were and the output's buffer at `outBlock` of them. -/
theorem sound_kernel (c : Dev nD) (E : Set ℕ) (i : grid0.Coords) (arg1 : Memref sig .tc .vmem S4000x128 .bf16) (harg1 : arg1.IsWhole) (arg2 : Memref sig .tc .vmem S4000x128 .bf16) (harg2 : arg2.IsWhole) (arg3 : Memref sig .tc .vmem S4000x128 .bf16) (harg3 : arg3.IsWhole) (arg4 : Memref sig .tc .vmem S4000x3 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x1 .f32) (harg9 : arg9.IsWhole) (arg10 : Memref sig .tc .vmem S4000x128 .f32) (harg10 : arg10.IsWhole)
    (x1 : Vec F S4000x128 .bf16) (x2 : Vec F S4000x128 .bf16) (x3 : Vec F S4000x128 .bf16) (x4 : Vec F S4000x3 .f32) (x5 : Vec F S128x128 .f32) (x6 : Vec F S128x128 .f32) (x7 : Vec F S128x128 .f32) (x8 : Vec F S1x128 .f32) (x9 : Vec F S1x1 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (outBlock x1 x2 x3 x4 x5 x6 x7 x8 x9)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K := by
  simp only [cc0__fused_kernel_eq_skeleton]; unfold cc0__fused_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf1; subst hf2; subst hf3; subst hf4; subst hf5; subst hf6; subst hf7; subst hf8; subst hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover_out _)

/-! ## The proof data of the region -/

/-- The arrays as the region finds them; after the body at point `t` each input's buffer still at its block and the
    output's at `outBlock` of the input blocks; the rest of the core untouched; nothing owed; whole shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlock (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = outBlock (iblk m c 0 t) (iblk m c 1 t) (iblk m c 2 t) (iblk m c 3 t) (iblk m c 4 t) (iblk m c 5 t) (iblk m c 6 t) (iblk m c 7 t) (iblk m c 8 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d
theorem before5 (c : Dev nD) (t : Fin cfg0.N) (d) : (dats m 0 c).before 5 t d = iblk m c 5 t :=
  before_in5_of m (dats m 0 c) (A_eq m c 5) (after5 m c) t d
theorem before6 (c : Dev nD) (t : Fin cfg0.N) (d) : (dats m 0 c).before 6 t d = iblk m c 6 t :=
  before_in6_of m (dats m 0 c) (A_eq m c 6) (after6 m c) t d
theorem before7 (c : Dev nD) (t : Fin cfg0.N) (d) : (dats m 0 c).before 7 t d = iblk m c 7 t :=
  before_in7_of m (dats m 0 c) (A_eq m c 7) (after7 m c) t d
theorem before8 (c : Dev nD) (t : Fin cfg0.N) (d) : (dats m 0 c).before 8 t d = iblk m c 8 t :=
  before_in8_of m (dats m 0 c) (A_eq m c 8) (after8 m c) t d

/-! ## The body obligation at a grid point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, G0⟩, ⟨%d1, G1⟩, ⟨%d2, G2⟩, ⟨%d3, G3⟩, ⟨%d4, G4⟩, ⟨%d5, G5⟩, ⟨%d6, G6⟩, ⟨%d7, G7⟩, ⟨%d8, G8⟩, ⟨%d9, G9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexists _; iexact G9
  iintro ⟨G0, G1, G2, G3, G4, G5, G6, G7, G8, G9⟩
  isplitl [HΦ]; · iexact HΦ
  isplitl [Ho]; · iexact Ho
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  iexact G9

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the main function terminates, and in every final state every windowed array holds
    what the proof data computes and every other buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its fourteen argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.Kernel.KFrame

end
-- ==== Proof.KFrame.lean ====
/-
  The frame of the program: its main function is thirteen lines of host operations (the degree counts, the
  normalisations, the gathers and scatter-adds of the three relations, the stacked destination norms, the summed
  bias) and then ONE kernel region over 25 blocks of 4000 rows. This module states what the region finds in every
  buffer (the contents after the thirteen lines, `V`), that no line writes an argument array, and what window
  `w`'s block at grid point `t` is (`iblk`); it holds at any float instance.
-/
import proofs.«144090_j74285754351670_2_alg».proof.Proof.Gen.KernelIdeal.Launch
import proofs.«144090_j74285754351670_2_alg».proof.Proof.Gen.KernelIdeal.Skeleton
import proofs.«144090_j74285754351670_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.KFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The main function up to the region -/

/-- The thirteen lines of host operations before the region, in order. -/
abbrev hostLines : List (List (HloOp τ sig (Elt F))) := [hostOps0, hostOps0_1, hostOps0_2, hostOps0_3, hostOps0_4, hostOps0_5, hostOps0_6, hostOps0_7, hostOps0_8, hostOps0_9, hostOps0_10, hostOps0_11, hostOps0_12]

/-- Core `c`'s buffers when the region is entered: the contents after the thirteen lines. -/
abbrev V (c : Dev nD) (b : Ref sig .tc) : Buf (Elt F) ((c : Thread nD τ).loc b) :=
  StableHlo.after (List.flatten (hostLines (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor

/-- The main function is the thirteen lines and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main hostLines
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh⟩) main_chain

/-- No host operation before the region writes `main_arg0`: the region finds it as the program was started with it. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes `main_arg1`: the region finds it as the program was started with it. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes `main_arg2`: the region finds it as the program was started with it. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes `main_arg3`: the region finds it as the program was started with it. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes `main_arg4`: the region finds it as the program was started with it. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes `main_arg5`: the region finds it as the program was started with it. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes `main_arg6`: the region finds it as the program was started with it. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes `main_arg7`: the region finds it as the program was started with it. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes `main_arg8`: the region finds it as the program was started with it. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes `main_arg9`: the region finds it as the program was started with it. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes `main_arg10`: the region finds it as the program was started with it. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes `main_arg11`: the region finds it as the program was started with it. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes `main_arg12`: the region finds it as the program was started with it. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes `main_arg13`: the region finds it as the program was started with it. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds its block at every grid point, whether the point fetches it or not (a
    window whose block index does not move is fetched once and kept). -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_in8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run to the region's post -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).1 4).trans (((dats 0 c).arrAt_in 4 rfl _).trans ((hA c 4).trans (V_main_arg7 m c))),
      ((h c).2 main_arg8 (Pipeline.mem_restRefs_of main_arg8 (by decide) (by decide))).trans (V_main_arg8 m c),
      ((h c).1 5).trans (((dats 0 c).arrAt_in 5 rfl _).trans ((hA c 5).trans (V_main_arg9 m c))),
      ((h c).2 main_arg10 (Pipeline.mem_restRefs_of main_arg10 (by decide) (by decide))).trans (V_main_arg10 m c),
      ((h c).1 6).trans (((dats 0 c).arrAt_in 6 rfl _).trans ((hA c 6).trans (V_main_arg11 m c))),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) h

/-! ## What the body reads and writes -/

/-- The whole 4000 × 128 block, the three unit columns of the 4000 × 3 block of norms, the whole weight block, the
    bias row and the slope cell: the rectangles of the body's loads and of its one store. -/
abbrev rAgg : Rect S4000x128 := Rect.unit (s := S4000x128) ![0, 0] S4000x128.size inb_S4000x128_S4000x128_0_0
abbrev rNorm0 : Rect S4000x3 := Rect.unit (s := S4000x3) ![0, 0] S4000x1.size inb_S4000x3_S4000x1_0_0
abbrev rNorm1 : Rect S4000x3 := Rect.unit (s := S4000x3) ![0, 1] S4000x1.size inb_S4000x3_S4000x1_0_1
abbrev rNorm2 : Rect S4000x3 := Rect.unit (s := S4000x3) ![0, 2] S4000x1.size inb_S4000x3_S4000x1_0_2
abbrev rW : Rect S128x128 := Rect.unit (s := S128x128) ![0, 0] S128x128.size inb_S128x128_S128x128_0_0
abbrev rBias : Rect S1x128 := Rect.unit (s := S1x128) ![0, 0] S1x128.size inb_S1x128_S1x128_0_0
abbrev rSlope : Rect S1x1 := Rect.unit (s := S1x1) ![0, 0] S1x1.size inb_S1x1_S1x1_0_0

/-- The output block after the body, from the nine input blocks: ONE store of the whole block, whose value is the
    slope-rectified sum of the three scaled products and the bias row. -/
def outBlock (x1 : Vec F S4000x128 .bf16) (x2 : Vec F S4000x128 .bf16) (x3 : Vec F S4000x128 .bf16) (x4 : Vec F S4000x3 .f32) (x5 : Vec F S128x128 .f32) (x6 : Vec F S128x128 .f32) (x7 : Vec F S128x128 .f32) (x8 : Vec F S1x128 .f32) (x9 : Vec F S1x1 .f32) : Vec F S4000x128 .f32 :=
  View.canon [⟨rAgg, k0_pay1 (k0_pay2 (View.ld x4 rNorm0) (View.ld x4 rNorm1) (View.ld x4 rNorm2) (View.ld x1 rAgg) (View.ld x2 rAgg) (View.ld x3 rAgg) (View.ld x5 rW) (View.ld x6 rW) (View.ld x7 rW)) (View.ld x8 rBias) (View.ld x9 rSlope)⟩]

/-- The one store covers the block. -/
theorem cover_out (p0 : Vec F S4000x128 .f32) (y : S4000x128.Idx) :
    ∃ pc ∈ ([⟨rAgg, p0⟩] : List (View.Piece (Elt F) S4000x128 .f32)), y ∈ pc.1.set :=
  View.cover_of_tiled [⟨rAgg, p0⟩] S4000x128.size (by rfl) y

/-! ## The body's triple -/

set_option maxHeartbeats 4000000 in
/-- The body, on whole staging buffers holding the nine input blocks and anything in the output's, runs to the
    continuation with the inputs as they were and the output's buffer at `outBlock` of them. -/
theorem sound_kernel (c : Dev nD) (E : Set ℕ) (i : grid0.Coords) (arg1 : Memref sig .tc .vmem S4000x128 .bf16) (harg1 : arg1.IsWhole) (arg2 : Memref sig .tc .vmem S4000x128 .bf16) (harg2 : arg2.IsWhole) (arg3 : Memref sig .tc .vmem S4000x128 .bf16) (harg3 : arg3.IsWhole) (arg4 : Memref sig .tc .vmem S4000x3 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x1 .f32) (harg9 : arg9.IsWhole) (arg10 : Memref sig .tc .vmem S4000x128 .f32) (harg10 : arg10.IsWhole)
    (x1 : Vec F S4000x128 .bf16) (x2 : Vec F S4000x128 .bf16) (x3 : Vec F S4000x128 .bf16) (x4 : Vec F S4000x3 .f32) (x5 : Vec F S128x128 .f32) (x6 : Vec F S128x128 .f32) (x7 : Vec F S128x128 .f32) (x8 : Vec F S1x128 .f32) (x9 : Vec F S1x1 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (outBlock x1 x2 x3 x4 x5 x6 x7 x8 x9)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K := by
  simp only [cc0__fused_kernel_eq_skeleton]; unfold cc0__fused_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf1; subst hf2; subst hf3; subst hf4; subst hf5; subst hf6; subst hf7; subst hf8; subst hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover_out _)

/-! ## The proof data of the region -/

/-- The arrays as the region finds them; after the body at point `t` each input's buffer still at its block and the
    output's at `outBlock` of the input blocks; the rest of the core untouched; nothing owed; whole shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlock (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = outBlock (iblk m c 0 t) (iblk m c 1 t) (iblk m c 2 t) (iblk m c 3 t) (iblk m c 4 t) (iblk m c 5 t) (iblk m c 6 t) (iblk m c 7 t) (iblk m c 8 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d
theorem before5 (c : Dev nD) (t : Fin cfg0.N) (d) : (dats m 0 c).before 5 t d = iblk m c 5 t :=
  before_in5_of m (dats m 0 c) (A_eq m c 5) (after5 m c) t d
theorem before6 (c : Dev nD) (t : Fin cfg0.N) (d) : (dats m 0 c).before 6 t d = iblk m c 6 t :=
  before_in6_of m (dats m 0 c) (A_eq m c 6) (after6 m c) t d
theorem before7 (c : Dev nD) (t : Fin cfg0.N) (d) : (dats m 0 c).before 7 t d = iblk m c 7 t :=
  before_in7_of m (dats m 0 c) (A_eq m c 7) (after7 m c) t d
theorem before8 (c : Dev nD) (t : Fin cfg0.N) (d) : (dats m 0 c).before 8 t d = iblk m c 8 t :=
  before_in8_of m (dats m 0 c) (A_eq m c 8) (after8 m c) t d

/-! ## The body obligation at a grid point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, G0⟩, ⟨%d1, G1⟩, ⟨%d2, G2⟩, ⟨%d3, G3⟩, ⟨%d4, G4⟩, ⟨%d5, G5⟩, ⟨%d6, G6⟩, ⟨%d7, G7⟩, ⟨%d8, G8⟩, ⟨%d9, G9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexists _; iexact G9
  iintro ⟨G0, G1, G2, G3, G4, G5, G6, G7, G8, G9⟩
  isplitl [HΦ]; · iexact HΦ
  isplitl [Ho]; · iexact Ho
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  iexact G9

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the main function terminates, and in every final state every windowed array holds
    what the proof data computes and every other buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its fourteen argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.KernelIdeal.KFrame

end
-- ==== Proof.LibMatProd.lean ====
/-
  GENERAL LEMMAS: a plain matrix product, written two ways, read at the ideal values.

  The product of an `R × K` matrix `X` with a `K × N` matrix `W` has entry `(r, q)` equal to
  `∑ k, X (r, k) · W (k, q)`, a sum of `K` products of extended reals (`matProd`).
  Both ways a program can write that product read, at `Ideal`, as this same sum:

  * a matrix unit's `matmul` accumulated into a zero splat (`matmul_zero_eq`), and
  * the host's `dot_general` (`dotGeneral_eq`),

  for ANY dimension record that contracts the left operand's axis 1 with the right operand's axis 0 and keeps
  the other two axes in order, whatever the operands' float formats, precision and schedule. That the record does
  so is stated as four equations of coordinate values (`Contracts`), which a literal record proves by unfolding
  (two by `DotDims.lhsIdx_val_of_single` / `rhsIdx_val_of_single`, two by `dif_neg` / `dif_pos` on its literal
  axis lists). Nothing here needs a finiteness hypothesis: the two sides are the same sum of the same products,
  term by term. Imports the library only.
-/
import Idealize.ShloMosaic.PureOps.Ideal.Laws
import Idealize.ShloMosaic.Lib.ValueIdx

noncomputable section

open scoped BigOperators

namespace Cert.Linear

open Idealize.ShloMosaic Idealize.ShloMosaic.ValueIdx

/-- The shape of a matrix of `a` rows and `b` columns. -/
abbrev Mat (a b : Nat) : Shape := ⟨2, ![a, b]⟩

/-- `X · W`, entry by entry: row `r` of `X` against column `q` of `W`. -/
def matProd {R K N : Nat} (X : (Mat R K).Idx → EReal) (W : (Mat K N).Idx → EReal) : (Mat R N).Idx → EReal :=
  fun i => ∑ k : Fin K, X (ix2 (n0 := R) (n1 := K) (i 0) k) * W (ix2 (n0 := K) (n1 := N) k (i 1))

/-- A dimension record for `[R,K] × [K,N] → [R,N]` that contracts the left operand's columns with the right
    operand's rows: one contracted axis of extent `K`, and at result index `i` and contraction index `q` the left
    operand is read at `(i 0, q)` and the right one at `(q, i 1)`. -/
structure Contracts {R K N : Nat} (d : DotDims (Mat R K) (Mat K N) (Mat R N)) : Prop where
  rank : d.contr.rank = 1
  size : d.contr.size ⟨0, by omega⟩ = K
  lhs0 : ∀ (i : (Mat R N).Idx) (q : d.contr.Idx), (d.lhsIdx i q 0).val = (i 0).val
  lhs1 : ∀ (i : (Mat R N).Idx) (q : d.contr.Idx), (d.lhsIdx i q 1).val = (q ⟨0, by omega⟩).val
  rhs0 : ∀ (i : (Mat R N).Idx) (q : d.contr.Idx), (d.rhsIdx i q 0).val = (q ⟨0, by omega⟩).val
  rhs1 : ∀ (i : (Mat R N).Idx) (q : d.contr.Idx), (d.rhsIdx i q 1).val = (i 1).val

/-- The sum over such a record's contraction index of the operands' products is the sum over `k < K` of
    `X (i 0, k) · W (k, i 1)`: the contraction index is its one coordinate. -/
theorem contraction_sum {R K N : Nat} {d : DotDims (Mat R K) (Mat K N) (Mat R N)} (h : Contracts d)
    (X : (Mat R K).Idx → EReal) (W : (Mat K N).Idx → EReal) (i : (Mat R N).Idx) :
    ∑ q : d.contr.Idx, X (d.lhsIdx i q) * W (d.rhsIdx i q) = matProd X W i := by
  unfold matProd
  rw [← Equiv.sum_comp (contrEquiv1 d K h.rank h.size).symm]
  refine Finset.sum_congr rfl fun k _ => ?_
  have hk := contrEquiv1_symm_val d K h.rank h.size k
  have el : d.lhsIdx i ((contrEquiv1 d K h.rank h.size).symm k) = ix2 (n0 := R) (n1 := K) (i 0) k :=
    funext fun a => Fin.ext (by
      match a with
      | ⟨0, _⟩ => exact h.lhs0 _ _
      | ⟨1, _⟩ => exact (h.lhs1 _ _).trans hk)
  have er : d.rhsIdx i ((contrEquiv1 d K h.rank h.size).symm k) = ix2 (n0 := K) (n1 := N) k (i 1) :=
    funext fun a => Fin.ext (by
      match a with
      | ⟨0, _⟩ => exact (h.rhs0 _ _).trans hk
      | ⟨1, _⟩ => exact h.rhs1 _ _)
  rw [el, er]

/-- A matrix unit's product accumulated into the zero splat is `X · W`, whatever the operands' float formats. -/
theorem matmul_zero_eq {R K N : Nat} {φ₁ φ₂ : FTy} {d : DotDims (Mat R K) (Mat K N) (Mat R N)} (h : Contracts d)
    (prec : Option ContractPrecision) (X : FVec Ideal (Mat R K) φ₁) (W : FVec Ideal (Mat K N) φ₂) :
    FloatOps.matmul d prec X W (constant (F := Ideal) (Mat R N) .f32 0x00000000#32) = matProd X W :=
  funext fun i => (Ideal.matmul_constant_zero_apply d prec X W i).trans (contraction_sum h X W i)

/-- The host's `dot_general` is `X · W`, whatever its precision and schedule. -/
theorem dotGeneral_eq {R K N : Nat} {φ₁ φ₂ : FTy} {d : DotDims (Mat R K) (Mat K N) (Mat R N)} (h : Contracts d)
    (prec : Option ContractPrecision) (sched : HostSchedule) (X : FVec Ideal (Mat R K) φ₁) (W : FVec Ideal (Mat K N) φ₂) :
    FloatOps.dotGeneral d prec sched X W = matProd X W :=
  funext fun i => (Ideal.dotGeneral_apply d prec sched X W i).trans (contraction_sum h X W i)

end Cert.Linear

end
-- ==== Proof.Spec.lean ====
/-
  The mathematics both programs compute, over the extended reals.

  For each of the three relations r there is an aggregate matrix A_r (rows = nodes, 128 columns), a vector n_r of
  destination norms (one per node), a 128 × 128 weight matrix W_r and a bias vector b_r. The layer's pre-activation
  at node p and feature q is the sum over the relations of  Σ_k (A_r(p,k) · n_r(p)) · W_r(k,q) + b_r(q),  and the
  result is that number when it is positive and the slope times it otherwise.

  The reference adds the bias of each relation to its product before summing the three; the kernel sums the three
  products first and adds the sum of the three biases at the end. The two groupings agree because addition of
  extended reals is commutative and associative (no finiteness is needed: nothing is cancelled or distributed).
-/
import proofs.«144090_j74285754351670_2_alg».proof.Proof.LibMatProd

noncomputable section

namespace Cert.GraphConv

open Idealize.ShloMosaic Idealize.ShloMosaic.ValueIdx Cert.Linear

variable {R K N : Nat}

/-- Row p of A multiplied by the p-th norm. -/
def scaleRows (A : (Mat R K).Idx → EReal) (n : Fin R → EReal) : (Mat R K).Idx → EReal :=
  fun i => A i * n (i 0)

/-- The pre-activation with each relation's bias added to its own product (the reference's grouping). -/
def preRef (A0 A1 A2 : (Mat R K).Idx → EReal) (n0 n1 n2 : Fin R → EReal) (W0 W1 W2 : (Mat K N).Idx → EReal)
    (b0 b1 b2 : Fin N → EReal) : (Mat R N).Idx → EReal :=
  fun i => ((matProd (scaleRows A0 n0) W0 i + b0 (i 1)) + (matProd (scaleRows A1 n1) W1 i + b1 (i 1)))
    + (matProd (scaleRows A2 n2) W2 i + b2 (i 1))

/-- The pre-activation with the three products summed first and ONE bias vector added last (the kernel's grouping,
    its bias vector being the sum of the three). -/
def preSum (A0 A1 A2 : (Mat R K).Idx → EReal) (n0 n1 n2 : Fin R → EReal) (W0 W1 W2 : (Mat K N).Idx → EReal)
    (b : Fin N → EReal) : (Mat R N).Idx → EReal :=
  fun i => ((matProd (scaleRows A0 n0) W0 i + matProd (scaleRows A1 n1) W1 i) + matProd (scaleRows A2 n2) W2 i) + b (i 1)

/-- The two groupings are one function when the kernel's bias vector is the sum of the three. -/
theorem preSum_eq_preRef (A0 A1 A2 : (Mat R K).Idx → EReal) (n0 n1 n2 : Fin R → EReal) (W0 W1 W2 : (Mat K N).Idx → EReal)
    (b0 b1 b2 : Fin N → EReal) :
    preSum A0 A1 A2 n0 n1 n2 W0 W1 W2 (fun q => (b0 q + b1 q) + b2 q) = preRef A0 A1 A2 n0 n1 n2 W0 W1 W2 b0 b1 b2 := by
  funext i
  unfold preSum preRef
  exact (add_add_add_comm _ _ _ _).trans (congrArg (· + _) (add_add_add_comm _ _ _ _))

/-- The slope-rectifier at one entry: h when h is positive, the slope times h otherwise, spelled with the float
    comparison and selection both programs use. -/
def rectify (s : EReal) (H : (Mat R N).Idx → EReal) : (Mat R N).Idx → EReal :=
  fun i => Scalar.select (FloatOps.cmpf (F := Ideal) (φ := .f32) .ogt (H i) (Ideal.ofBits .f32 0x00000000#32)) (H i) (s * H i)

/-- The rectifier at two entries with equal slope and equal pre-activation. -/
theorem rectify_congr {R' : Nat} (s s' : EReal) (H : (Mat R N).Idx → EReal) (H' : (Mat R' N).Idx → EReal)
    (i : (Mat R N).Idx) (i' : (Mat R' N).Idx) (hs : s = s') (hH : H i = H' i') : rectify s H i = rectify s' H' i' := by
  unfold rectify
  rw [hs, hH]

/-- The summed pre-activation at an entry of a block of rows is the one at the corresponding entry of the whole
    arrays: the entry depends on ONE row of each aggregate, that row's three norms, ONE column of each weight matrix
    and one bias entry. -/
theorem preSum_of_rows {R' : Nat} (a0 a1 a2 : (Mat R K).Idx → EReal) (n0 n1 n2 : Fin R → EReal) (w0 w1 w2 : (Mat K N).Idx → EReal)
    (b : Fin N → EReal) (A0 A1 A2 : (Mat R' K).Idx → EReal) (M0 M1 M2 : Fin R' → EReal) (W0 W1 W2 : (Mat K N).Idx → EReal)
    (B : Fin N → EReal) (j : (Mat R N).Idx) (i : (Mat R' N).Idx)
    (h0 : ∀ k : Fin K, a0 (ix2 (j 0) k) = A0 (ix2 (i 0) k)) (h1 : ∀ k : Fin K, a1 (ix2 (j 0) k) = A1 (ix2 (i 0) k))
    (h2 : ∀ k : Fin K, a2 (ix2 (j 0) k) = A2 (ix2 (i 0) k))
    (g0 : n0 (j 0) = M0 (i 0)) (g1 : n1 (j 0) = M1 (i 0)) (g2 : n2 (j 0) = M2 (i 0))
    (e0 : ∀ k : Fin K, w0 (ix2 k (j 1)) = W0 (ix2 k (i 1))) (e1 : ∀ k : Fin K, w1 (ix2 k (j 1)) = W1 (ix2 k (i 1)))
    (e2 : ∀ k : Fin K, w2 (ix2 k (j 1)) = W2 (ix2 k (i 1))) (hb : b (j 1) = B (i 1)) :
    preSum a0 a1 a2 n0 n1 n2 w0 w1 w2 b j = preSum A0 A1 A2 M0 M1 M2 W0 W1 W2 B i := by
  unfold preSum matProd scaleRows
  rw [hb]
  refine congrArg (· + B (i 1)) ?_
  refine congrArg₂ (· + ·) (congrArg₂ (· + ·) ?_ ?_) ?_
  · exact Finset.sum_congr rfl fun k _ => by
      show a0 (ix2 (j 0) k) * n0 (j 0) * w0 (ix2 k (j 1)) = A0 (ix2 (i 0) k) * M0 (i 0) * W0 (ix2 k (i 1))
      rw [h0 k, g0, e0 k]
  · exact Finset.sum_congr rfl fun k _ => by
      show a1 (ix2 (j 0) k) * n1 (j 0) * w1 (ix2 k (j 1)) = A1 (ix2 (i 0) k) * M1 (i 0) * W1 (ix2 k (i 1))
      rw [h1 k, g1, e1 k]
  · exact Finset.sum_congr rfl fun k _ => by
      show a2 (ix2 (j 0) k) * n2 (j 0) * w2 (ix2 k (j 1)) = A2 (ix2 (i 0) k) * M2 (i 0) * W2 (ix2 k (i 1))
      rw [h2 k, g2, e2 k]

end Cert.GraphConv

end
-- ==== Proof.LibDotLists.lean ====
/-
  GENERAL LEMMA: a dimension record whose axis lists are those of a plain matrix product contracts the left operand's
  columns with the right operand's rows.

  A dimension record for `[R,K] × [K,N] → [R,N]` carries six lists of axes. When they are the plain product's — the left
  operand's axis 1 contracted with the right operand's axis 0, the left operand's axis 0 and the right operand's axis 1
  kept in this order, no batch axis — the record reads, at result index `i` and contraction index `q`, the left
  operand at `(i 0, q)` and the right operand at `(q, i 1)`: the four coordinate equations (`Contracts`) under which a
  matrix unit's product into a zero accumulator and the host's `dot_general` are both the plain sum of products
  `matProd`. A record written out with literal lists meets the six hypotheses by `rfl`.
-/
import proofs.«144090_j74285754351670_2_alg».proof.Proof.LibMatProd
import Idealize.ShloMosaic.Lib.Pipeline.Value
import Idealize.ShloMosaic.Lib.ValueIdx

noncomputable section

namespace Cert.Linear

open Idealize.ShloMosaic Idealize.ShloMosaic.ValueIdx

/-- A dimension record whose axis lists are those of a plain product — the left operand's columns contracted with the
    right operand's rows, the left operand's rows and the right operand's columns kept in this order, no batch axis —
    reads its operands at `(i 0, q)` and `(q, i 1)`. -/
theorem contracts_of_lists {R K N : Nat} (d : DotDims (Mat R K) (Mat K N) (Mat R N))
    (h1 : d.lhsContracting = [1]) (h2 : d.rhsContracting = [0]) (h3 : d.lhsNonContracting = [0])
    (h4 : d.rhsNonContracting = [1]) (h5 : d.lhsBatch = []) (h6 : d.rhsBatch = []) : Contracts d where
  rank := by rw [d.rank_contr, h1]; rfl
  size := by
    rw [d.size_contr 0 (by rw [h1]; exact Nat.one_pos), List.getElem_of_eq h1]
    rfl
  lhs0 := fun i q => by
    unfold DotDims.lhsIdx
    rw [dif_neg (by rw [h5]; exact List.not_mem_nil), dif_pos (by rw [h3]; exact List.mem_singleton.mpr rfl)]
    simp only [Fin.val_cast]
    have key : ∀ (p r : Nat) (hp : p < (Mat R N).rank) (hr : r < (Mat R N).rank), p = r → (i ⟨p, hp⟩).val = (i ⟨r, hr⟩).val :=
      fun p r hp hr h => by subst h; rfl
    exact key _ _ _ _ (by simp [h5, h3])
  lhs1 := fun i q => d.lhsIdx_val_of_single h1 i q
  rhs0 := fun i q => d.rhsIdx_val_of_single h2 i q
  rhs1 := fun i q => by
    unfold DotDims.rhsIdx
    rw [dif_neg (by rw [h6]; exact List.not_mem_nil), dif_pos (by rw [h4]; exact List.mem_singleton.mpr rfl)]
    simp only [Fin.val_cast]
    have key : ∀ (p r : Nat) (hp : p < (Mat R N).rank) (hr : r < (Mat R N).rank), p = r → (i ⟨p, hp⟩).val = (i ⟨r, hr⟩).val :=
      fun p r hp hr h => by subst h; rfl
    exact key _ _ _ _ (by simp [h5, h3, h4])

end Cert.Linear

end
-- ==== Proof.LibKeepdims.lean ====
/-
  Layout operations of a `keepdims` reduction, read at an index given by coordinates, and a rank-2 float sum along one
  axis read at the extended reals.

  A vector of `a` entries viewed as an `a × 1` column holds entry `i` at `(i, 0)`; an `a × 1` column broadcast to
  `a × b` holds, at `(p, c)`, the column's entry `(p, 0)`; the sum of an `a × b` array along its second axis is, at
  row `r`, the sum over the `b` columns of the entries of that row, and along its first axis, at column `c`, the sum
  over the `a` rows of the entries of that column.  Indices are written with the literal-size constructors
  `ix1`, `ix2`, so that each lemma applies to a printed operation by unification.
-/
import Idealize.ShloMosaic.Lib.Pipeline.Value
import Idealize.ShloMosaic.Lib.ValueIdx
import Idealize.ShloMosaic.PureOps.Ideal.Laws

open scoped BigOperators

namespace Cert.LibKeepdims

open Idealize.ShloMosaic Idealize.ShloMosaic.ValueIdx

variable {α : Type}

/-- A vector cast to a column, `[a] → [a, 1]`, reads entry `i` at `(i, 0)`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along its unit axis, `[a, 1] → [a, b]`, reads at `(p, c)` the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

variable {φ : FTy}

/-- ROW SUMS. At the extended reals the float sum of an `a × b` array along its second axis is, at row `r`, the sum
    over the columns `c` of the entries `(r, c)`. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) := by
  refine (Ideal.multiReduction_add_single src acc h hφ hacc (ix1 r)).trans ?_
  refine Finset.sum_congr rfl fun c _ => congrArg src (funext fun ax => Fin.ext ?_)
  rw [h.lift_val]
  unfold Shape.Reduces.liftVal
  match ax with
  | ⟨0, _⟩ => rfl
  | ⟨1, _⟩ => rfl

/-- COLUMN SUMS. Along its first axis the sum is, at column `c`, the sum over the rows `r` of the entries `(r, c)`. -/
theorem multiReduction_add_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src (funext fun ax => Fin.ext ?_)
  rw [h.lift_val]
  unfold Shape.Reduces.liftVal
  match ax with
  | ⟨0, _⟩ => rfl
  | ⟨1, _⟩ => rfl

end Cert.LibKeepdims
-- ==== Proof.KBlock.lean ====
/-
  What the kernel's body leaves in one output block, over the extended reals.

  At a grid point the body holds three 4000 × 128 blocks of aggregates, the 4000 × 3 block of destination norms,
  the three 128 × 128 weight matrices, the 1 × 128 row of summed biases and the 1 × 1 slope. It scales row p of
  the r-th aggregate block by column r of the norms, multiplies by the r-th weight matrix, sums the three products,
  adds the bias row to every row and rectifies with the slope. Changes of float format are the identity here, and
  a product accumulated from the zero matrix is the plain matrix product.
-/
import proofs.«144090_j74285754351670_2_alg».proof.Proof.KFrame
import proofs.«144090_j74285754351670_2_alg».proof.Proof.Spec
import proofs.«144090_j74285754351670_2_alg».proof.Proof.LibDotLists
import proofs.«144090_j74285754351670_2_alg».proof.Proof.LibKeepdims
import Idealize.ShloMosaic.Lib.ValueIdx
import Idealize.ShloMosaic.Lib.Pipeline.Value
import Idealize.ShloMosaic.Lib.ValueLayout

noncomputable section

namespace Cert.KernelIdeal.KBlock

open Idealize.ShloMosaic Idealize.ShloMosaic.ValueIdx
open Cert.KernelIdeal Cert.KernelIdeal.Gen Cert.KernelIdeal.KFrame Cert.Linear Cert.GraphConv

/-- The body's matrix products contract the left operand's columns with the right operand's rows. -/
theorem contracts_dot : Contracts dot_S4000x128_S128x128_S4000x128_1_0_0_1_n_n :=
  contracts_of_lists _ rfl rfl rfl rfl rfl rfl

/-- A block of aggregates times a broadcast column of norms, through the two changes of float format, is the block
    with row p scaled by the column's p-th entry. -/
theorem scaled_eq (v0 : Vec Ideal S4000x1 .f32) (v6 : Vec Ideal S4000x128 .bf16) :
    (truncf .bf16 (mulf (extf .f32 (shapeCast S4000x128 v6 shapeCasts_S4000x128_S4000x128) bitsLt_bf16_f32)
      (broadcastTo S4000x128 (shapeCast S4000x1 v0 shapeCasts_S4000x1_S4000x1) broadcasts_S4000x1_S4000x128)) bitsLt_bf16_f32 : FVec Ideal S4000x128 .bf16)
    = scaleRows v6 (fun p => v0 (ix2 p 0)) := by
  funext i
  obtain ⟨p, q, rfl⟩ : ∃ (p : Fin 4000) (q : Fin 128), i = ix2 p q := ⟨i 0, i 1, eq_ix2 i⟩
  unfold scaleRows
  rw [truncf_apply, mulf_apply, extf_apply, shapeCast_self, shapeCast_self, Cert.LibKeepdims.broadcastTo_a1_ab_apply]

/-- A weight matrix narrowed to the matrix unit's format is itself. -/
theorem narrowed_eq (w : Vec Ideal S128x128 .f32) : (truncf .bf16 w bitsLt_bf16_f32 : FVec Ideal S128x128 .bf16) = w := rfl

/-- The sum of the three scaled products, from the loaded blocks. -/
theorem products_eq (v0 v2 v4 : Vec Ideal S4000x1 .f32) (v6 v12 v18 : Vec Ideal S4000x128 .bf16) (v24 v26 v28 : Vec Ideal S128x128 .f32) :
    k0_pay2 (F := Ideal) v0 v2 v4 v6 v12 v18 v24 v26 v28
      = fun j => (matProd (scaleRows v6 (fun p => v0 (ix2 p 0))) v24 j + matProd (scaleRows v12 (fun p => v2 (ix2 p 0))) v26 j)
          + matProd (scaleRows v18 (fun p => v4 (ix2 p 0))) v28 j := by
  unfold k0_pay2
  dsimp only
  rw [scaled_eq, scaled_eq, scaled_eq, narrowed_eq, narrowed_eq, narrowed_eq]
  have e : ∀ (X : FVec Ideal S4000x128 .bf16) (W : FVec Ideal S128x128 .bf16),
      matmul dot_S4000x128_S128x128_S4000x128_1_0_0_1_n_n none X W (constant S4000x128 .f32 0x00000000#32) = matProd X W :=
    fun X W => matmul_zero_eq contracts_dot none X W
  rw [e, e, e]
  rfl

/-- A 1 × 1 array broadcast over a block reads its one entry everywhere. -/
theorem broadcastTo_11_ab_apply {α : Type} {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The stored value: the bias row added to every row of the summed products, then the slope-rectifier. -/
theorem stored_eq (v34 : FVec Ideal S4000x128 .f32) (v35 : Vec Ideal S1x128 .f32) (v39 : Vec Ideal S1x1 .f32) :
    k0_pay1 (F := Ideal) v34 v35 v39
      = rectify (v39 (ix2 0 0)) (fun j => v34 j + v35 (ix2 0 (j 1))) := by
  funext i
  obtain ⟨p, q, rfl⟩ : ∃ (p : Fin 4000) (q : Fin 128), i = ix2 p q := ⟨i 0, i 1, eq_ix2 i⟩
  unfold k0_pay1 rectify
  dsimp only
  rw [select_apply, cmpf_apply, mulf_apply, addf_apply, broadcast_apply, shapeCast_self, shapeCast_self,
    broadcastTo_1b_ab_apply, broadcastTo_11_ab_apply]
  rfl

theorem offsets_zero : (![0, 0] : Fin 2 → Nat) = fun _ => 0 := funext fun a => by fin_cases a <;> rfl

/-- Column c of the 4000 × 3 block of norms, as the body loads it (a 4000 × 1 rectangle at column offset c). -/
theorem normCol0 (x4 : Vec Ideal S4000x3 .f32) (p : Fin 4000) : View.ld x4 rNorm0 (ix2 p 0) = x4 (ix2 p 0) :=
  congrArg x4 (funext fun a => Fin.ext (by
    match a with
    | ⟨0, _⟩ => show 0 + 1 * p.val = p.val; omega
    | ⟨1, _⟩ => show 0 + 1 * 0 = 0; rfl))
theorem normCol1 (x4 : Vec Ideal S4000x3 .f32) (p : Fin 4000) : View.ld x4 rNorm1 (ix2 p 0) = x4 (ix2 p 1) :=
  congrArg x4 (funext fun a => Fin.ext (by
    match a with
    | ⟨0, _⟩ => show 0 + 1 * p.val = p.val; omega
    | ⟨1, _⟩ => show 1 + 1 * 0 = 1; rfl))
theorem normCol2 (x4 : Vec Ideal S4000x3 .f32) (p : Fin 4000) : View.ld x4 rNorm2 (ix2 p 0) = x4 (ix2 p 2) :=
  congrArg x4 (funext fun a => Fin.ext (by
    match a with
    | ⟨0, _⟩ => show 0 + 1 * p.val = p.val; omega
    | ⟨1, _⟩ => show 2 + 1 * 0 = 2; rfl))

/-- The output block after the body is the rectified pre-activation of the nine input blocks. -/
theorem outBlock_eq (x1 x2 x3 : Vec Ideal S4000x128 .bf16) (x4 : Vec Ideal S4000x3 .f32) (x5 x6 x7 : Vec Ideal S128x128 .f32)
    (x8 : Vec Ideal S1x128 .f32) (x9 : Vec Ideal S1x1 .f32) :
    outBlock (F := Ideal) x1 x2 x3 x4 x5 x6 x7 x8 x9
      = rectify (x9 (ix2 0 0)) (preSum x1 x2 x3 (fun p => x4 (ix2 p 0)) (fun p => x4 (ix2 p 1)) (fun p => x4 (ix2 p 2))
          x5 x6 x7 (fun q => x8 (ix2 0 q))) := by
  unfold outBlock
  rw [View.canon_unit_zero offsets_zero]
  simp only [View.ld_unit_zero (S := S4000x128) offsets_zero, View.ld_unit_zero (S := S128x128) offsets_zero,
    View.ld_unit_zero (S := S1x128) offsets_zero, View.ld_unit_zero (S := S1x1) offsets_zero]
  rw [products_eq, stored_eq]
  have h0 : (fun p : Fin 4000 => View.ld x4 rNorm0 (ix2 p 0)) = fun p => x4 (ix2 p 0) := funext (normCol0 x4)
  have h1 : (fun p : Fin 4000 => View.ld x4 rNorm1 (ix2 p 0)) = fun p => x4 (ix2 p 1) := funext (normCol1 x4)
  have h2 : (fun p : Fin 4000 => View.ld x4 rNorm2 (ix2 p 0)) = fun p => x4 (ix2 p 2) := funext (normCol2 x4)
  rw [h0, h1, h2]
  rfl

end Cert.KernelIdeal.KBlock

end
-- ==== Proof.KArray.lean ====
/-
  From blocks to the array: the kernel's output array after the run.

  Grid point t handles rows 4000·t … 4000·t + 3999: its aggregate blocks and its block of norms are those rows of
  the whole arrays, the weight matrices, the bias row and the slope are the same at every point, and it writes back
  rows 4000·t … of the output. So what point t writes back is block t of ONE function of the whole arrays — the
  rectified summed pre-activation — and the 25 blocks tile the 100000 rows.
-/
import proofs.«144090_j74285754351670_2_alg».proof.Proof.KBlock

set_option maxRecDepth 16384

noncomputable section

namespace Cert.KernelIdeal.KArray

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.KFrame Cert.KernelIdeal.KBlock Cert.Linear Cert.GraphConv

variable (m : (ℓ : Loc nD τ sig) → Buf (Elt Ideal) ℓ) (ρ : Dev nD → PrngReg)

/-- The output array as one function of the arrays the region finds: the aggregates, the stacked norms, the weight
    matrices, the bias row and the slope. -/
def outArray (a0 a1 a2 : S100000x128.Idx → Elt Ideal .bf16) (nm : S100000x3.Idx → Elt Ideal .f32)
    (w0 w1 w2 : S128x128.Idx → Elt Ideal .f32) (bs : S1x128.Idx → Elt Ideal .f32) (sl : S1x1.Idx → Elt Ideal .f32) :
    S100000x128.Idx → Elt Ideal .f32 :=
  rectify (R := 100000) (N := 128) (sl (ix2 0 0))
    (preSum (R := 100000) (K := 128) (N := 128) a0 a1 a2 (fun p => nm (ix2 p 0)) (fun p => nm (ix2 p 1)) (fun p => nm (ix2 p 2))
      w0 w1 w2 (fun q => bs (ix2 0 q)))

/-- The printed index maps, decided over the 25 grid points: the row-blocked windows (the three aggregates, the
    norms, the output) are at block (t, 0), the others at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- The grid has 25 points. -/
theorem point_lt (t : Fin cfg0.N) : t.val < 25 := by
  exact lt_of_lt_of_eq t.isLt N_0

/-- Row p of block t is row 4000·t + p of the array. -/
def row (t : Fin cfg0.N) (p : Fin 4000) : Fin 100000 :=
  ⟨t.val * 4000 + p.val, by have := point_lt t; have := p.isLt; omega⟩

/-! A window's block read at an entry is its array read at the corresponding entry: for the row-blocked windows row
    p of block t is row 4000·t + p, for the others the block is the whole array. -/
theorem read0 (X : S100000x128.Idx → Elt Ideal .bf16) (t : Fin cfg0.N) (p : Fin 4000) (q : Fin 128) :
    ((cfg0.win 0).blk t).view.read (Elt Ideal) X (ix2 p q) = X (ix2 (row t p) q) := by
  obtain ⟨f00, f01, f10, f11, f20, f21, f30, f31, f40, f41, f50, f51, f60, f61, f70, f71, f80, f81, f90, f91⟩ := index_facts t
  show X (((cfg0.win 0).blk t).view.emb (ix2 p q)) = X (ix2 (row t p) q)
  refine congrArg X (funext fun a => Fin.ext ?_)
  match a with
  | ⟨0, _⟩ => show win0_0.index t (0 : Fin 2) * 4000 + 1 * p.val = t.val * 4000 + p.val; omega
  | ⟨1, _⟩ => show win0_0.index t (1 : Fin 2) * 128 + 1 * q.val = q.val; omega

theorem read1 (X : S100000x128.Idx → Elt Ideal .bf16) (t : Fin cfg0.N) (p : Fin 4000) (q : Fin 128) :
    ((cfg0.win 1).blk t).view.read (Elt Ideal) X (ix2 p q) = X (ix2 (row t p) q) := by
  obtain ⟨f00, f01, f10, f11, f20, f21, f30, f31, f40, f41, f50, f51, f60, f61, f70, f71, f80, f81, f90, f91⟩ := index_facts t
  show X (((cfg0.win 1).blk t).view.emb (ix2 p q)) = X (ix2 (row t p) q)
  refine congrArg X (funext fun a => Fin.ext ?_)
  match a with
  | ⟨0, _⟩ => show win0_1.index t (0 : Fin 2) * 4000 + 1 * p.val = t.val * 4000 + p.val; omega
  | ⟨1, _⟩ => show win0_1.index t (1 : Fin 2) * 128 + 1 * q.val = q.val; omega

theorem read2 (X : S100000x128.Idx → Elt Ideal .bf16) (t : Fin cfg0.N) (p : Fin 4000) (q : Fin 128) :
    ((cfg0.win 2).blk t).view.read (Elt Ideal) X (ix2 p q) = X (ix2 (row t p) q) := by
  obtain ⟨f00, f01, f10, f11, f20, f21, f30, f31, f40, f41, f50, f51, f60, f61, f70, f71, f80, f81, f90, f91⟩ := index_facts t
  show X (((cfg0.win 2).blk t).view.emb (ix2 p q)) = X (ix2 (row t p) q)
  refine congrArg X (funext fun a => Fin.ext ?_)
  match a with
  | ⟨0, _⟩ => show win0_2.index t (0 : Fin 2) * 4000 + 1 * p.val = t.val * 4000 + p.val; omega
  | ⟨1, _⟩ => show win0_2.index t (1 : Fin 2) * 128 + 1 * q.val = q.val; omega

theorem read3 (X : S100000x3.Idx → Elt Ideal .f32) (t : Fin cfg0.N) (p : Fin 4000) (q : Fin 3) :
    ((cfg0.win 3).blk t).view.read (Elt Ideal) X (ix2 p q) = X (ix2 (row t p) q) := by
  obtain ⟨f00, f01, f10, f11, f20, f21, f30, f31, f40, f41, f50, f51, f60, f61, f70, f71, f80, f81, f90, f91⟩ := index_facts t
  show X (((cfg0.win 3).blk t).view.emb (ix2 p q)) = X (ix2 (row t p) q)
  refine congrArg X (funext fun a => Fin.ext ?_)
  match a with
  | ⟨0, _⟩ => show win0_3.index t (0 : Fin 2) * 4000 + 1 * p.val = t.val * 4000 + p.val; omega
  | ⟨1, _⟩ => show win0_3.index t (1 : Fin 2) * 3 + 1 * q.val = q.val; omega

theorem read4 (X : S128x128.Idx → Elt Ideal .f32) (t : Fin cfg0.N) (p : Fin 128) (q : Fin 128) :
    ((cfg0.win 4).blk t).view.read (Elt Ideal) X (ix2 p q) = X (ix2 p q) := by
  obtain ⟨f00, f01, f10, f11, f20, f21, f30, f31, f40, f41, f50, f51, f60, f61, f70, f71, f80, f81, f90, f91⟩ := index_facts t
  show X (((cfg0.win 4).blk t).view.emb (ix2 p q)) = X (ix2 p q)
  refine congrArg X (funext fun a => Fin.ext ?_)
  match a with
  | ⟨0, _⟩ => show win0_4.index t (0 : Fin 2) * 128 + 1 * p.val = p.val; omega
  | ⟨1, _⟩ => show win0_4.index t (1 : Fin 2) * 128 + 1 * q.val = q.val; omega

theorem read5 (X : S128x128.Idx → Elt Ideal .f32) (t : Fin cfg0.N) (p : Fin 128) (q : Fin 128) :
    ((cfg0.win 5).blk t).view.read (Elt Ideal) X (ix2 p q) = X (ix2 p q) := by
  obtain ⟨f00, f01, f10, f11, f20, f21, f30, f31, f40, f41, f50, f51, f60, f61, f70, f71, f80, f81, f90, f91⟩ := index_facts t
  show X (((cfg0.win 5).blk t).view.emb (ix2 p q)) = X (ix2 p q)
  refine congrArg X (funext fun a => Fin.ext ?_)
  match a with
  | ⟨0, _⟩ => show win0_5.index t (0 : Fin 2) * 128 + 1 * p.val = p.val; omega
  | ⟨1, _⟩ => show win0_5.index t (1 : Fin 2) * 128 + 1 * q.val = q.val; omega

theorem read6 (X : S128x128.Idx → Elt Ideal .f32) (t : Fin cfg0.N) (p : Fin 128) (q : Fin 128) :
    ((cfg0.win 6).blk t).view.read (Elt Ideal) X (ix2 p q) = X (ix2 p q) := by
  obtain ⟨f00, f01, f10, f11, f20, f21, f30, f31, f40, f41, f50, f51, f60, f61, f70, f71, f80, f81, f90, f91⟩ := index_facts t
  show X (((cfg0.win 6).blk t).view.emb (ix2 p q)) = X (ix2 p q)
  refine congrArg X (funext fun a => Fin.ext ?_)
  match a with
  | ⟨0, _⟩ => show win0_6.index t (0 : Fin 2) * 128 + 1 * p.val = p.val; omega
  | ⟨1, _⟩ => show win0_6.index t (1 : Fin 2) * 128 + 1 * q.val = q.val; omega

theorem read7 (X : S1x128.Idx → Elt Ideal .f32) (t : Fin cfg0.N) (p : Fin 1) (q : Fin 128) :
    ((cfg0.win 7).blk t).view.read (Elt Ideal) X (ix2 p q) = X (ix2 p q) := by
  obtain ⟨f00, f01, f10, f11, f20, f21, f30, f31, f40, f41, f50, f51, f60, f61, f70, f71, f80, f81, f90, f91⟩ := index_facts t
  show X (((cfg0.win 7).blk t).view.emb (ix2 p q)) = X (ix2 p q)
  refine congrArg X (funext fun a => Fin.ext ?_)
  match a with
  | ⟨0, _⟩ => show win0_7.index t (0 : Fin 2) * 1 + 1 * p.val = p.val; omega
  | ⟨1, _⟩ => show win0_7.index t (1 : Fin 2) * 128 + 1 * q.val = q.val; omega

theorem read8 (X : S1x1.Idx → Elt Ideal .f32) (t : Fin cfg0.N) (p : Fin 1) (q : Fin 1) :
    ((cfg0.win 8).blk t).view.read (Elt Ideal) X (ix2 p q) = X (ix2 p q) := by
  obtain ⟨f00, f01, f10, f11, f20, f21, f30, f31, f40, f41, f50, f51, f60, f61, f70, f71, f80, f81, f90, f91⟩ := index_facts t
  show X (((cfg0.win 8).blk t).view.emb (ix2 p q)) = X (ix2 p q)
  refine congrArg X (funext fun a => Fin.ext ?_)
  match a with
  | ⟨0, _⟩ => show win0_8.index t (0 : Fin 2) * 1 + 1 * p.val = p.val; omega
  | ⟨1, _⟩ => show win0_8.index t (1 : Fin 2) * 1 + 1 * q.val = q.val; omega

theorem read9 (X : S100000x128.Idx → Elt Ideal .f32) (t : Fin cfg0.N) (p : Fin 4000) (q : Fin 128) :
    ((cfg0.win 9).blk t).view.read (Elt Ideal) X (ix2 p q) = X (ix2 (row t p) q) := by
  obtain ⟨f00, f01, f10, f11, f20, f21, f30, f31, f40, f41, f50, f51, f60, f61, f70, f71, f80, f81, f90, f91⟩ := index_facts t
  show X (((cfg0.win 9).blk t).view.emb (ix2 p q)) = X (ix2 (row t p) q)
  refine congrArg X (funext fun a => Fin.ext ?_)
  match a with
  | ⟨0, _⟩ => show win0_9.index t (0 : Fin 2) * 4000 + 1 * p.val = t.val * 4000 + p.val; omega
  | ⟨1, _⟩ => show win0_9.index t (1 : Fin 2) * 128 + 1 * q.val = q.val; omega

/-- WHAT POINT t WRITES BACK is block t of `outArray` of the arrays the region finds. -/
theorem flushed_eq (c : Dev nD) (t : Fin cfg0.N) :
    (dats m 0 c).flushed 9 t = ((cfg0.win 9).blk t).view.read (Elt Ideal)
      (outArray (V m c main_v38) (V m c main_v77) (V m c main_v116) (V m c main_v120) (V m c main_arg7) (V m c main_arg9)
        (V m c main_arg11) (V m c main_v123) (V m c main_v124)) := by
  show (cfg0.win 9).cut (grid0.coords t) ((dats m 0 c).after 9 t) = _
  rw [after9, outBlock_eq]
  funext j
  obtain ⟨p, q, rfl⟩ : ∃ (p : Fin 4000) (q : Fin 128), j = ix2 p q := ⟨j 0, j 1, eq_ix2 j⟩
  rw [read9]
  unfold outArray iblk
  refine rectify_congr _ _ _ _ (ix2 p q) (ix2 (row t p) q) ?_ ?_
  · exact read8 _ t 0 0
  · refine preSum_of_rows _ _ _ _ _ _ _ _ _ _ _ _ _ _ _ _ _ _ _ _ (ix2 p q) (ix2 (row t p) q) ?_ ?_ ?_ ?_ ?_ ?_ ?_ ?_ ?_ ?_
    · exact fun k => read0 _ t p k
    · exact fun k => read1 _ t p k
    · exact fun k => read2 _ t p k
    · exact read3 _ t p 0
    · exact read3 _ t p 1
    · exact read3 _ t p 2
    · exact fun k => read4 _ t k q
    · exact fun k => read5 _ t k q
    · exact fun k => read6 _ t k q
    · exact read7 _ t 0 q

/-- An entry of the array is in point t's block iff each coordinate is in the block's range on its axis. -/
theorem mem_blk (t : Fin cfg0.N) (i : S100000x128.Idx) :
    i ∈ ((cfg0.win 9).blk t).view.set ↔ ∀ a : Fin 2, win0_9.index t a * S4000x128.size a ≤ (i a).val ∧ (i a).val < win0_9.index t a * S4000x128.size a + S4000x128.size a := by
  show i ∈ ((View.whole main_v125).slice (win0_9.rect t)).set ↔ _
  rw [View.set_slice_whole, Rect.mem_set_unit]
  exact Iff.rfl

/-- The 25 blocks tile the array: row r is in the block of point r / 4000. -/
theorem cover (i : S100000x128.Idx) :
    ∃ t : Fin cfg0.N, (cfg0.win 9).flush t = true ∧ i ∈ ((cfg0.win 9).blk t).view.set := by
  have hi0 : (i 0).val < 100000 := (i 0).isLt
  have hi1 : (i 1).val < 128 := (i 1).isLt
  have hN : (i 0).val / 4000 < cfg0.N := lt_of_lt_of_eq (by omega : (i 0).val / 4000 < 25) N_0.symm
  obtain ⟨f00, f01, f10, f11, f20, f21, f30, f31, f40, f41, f50, f51, f60, f61, f70, f71, f80, f81, f90, f91⟩ :=
    index_facts ⟨(i 0).val / 4000, hN⟩
  refine ⟨⟨(i 0).val / 4000, hN⟩, flush0_9 _, ?_⟩
  rw [mem_blk]
  intro a
  have ht : (⟨(i 0).val / 4000, hN⟩ : Fin cfg0.N).val = (i 0).val / 4000 := rfl
  match a with
  | ⟨0, _⟩ =>
    show win0_9.index ⟨(i 0).val / 4000, hN⟩ (0 : Fin 2) * 4000 ≤ (i 0).val ∧ (i 0).val < win0_9.index ⟨(i 0).val / 4000, hN⟩ (0 : Fin 2) * 4000 + 4000
    omega
  | ⟨1, _⟩ =>
    show win0_9.index ⟨(i 0).val / 4000, hN⟩ (1 : Fin 2) * 128 ≤ (i 1).val ∧ (i 1).val < win0_9.index ⟨(i 0).val / 4000, hN⟩ (1 : Fin 2) * 128 + 128
    omega

/-- THE ARRAY after the run is `outArray` of the arrays the region finds. -/
theorem final (c : Dev nD) : (dats m 0 c).arrAt 9 cfg0.N
    = outArray (V m c main_v38) (V m c main_v77) (V m c main_v116) (V m c main_v120) (V m c main_arg7) (V m c main_arg9)
        (V m c main_arg11) (V m c main_v123) (V m c main_v124) :=
  (dats m 0 c).arrAt_eq_of_cover 9 _ (fun t _ => flushed_eq m c t) cover

/-- The run, read: the result array ends at `outArray` of the arrays the region finds, the arguments unchanged. -/
theorem run : θ_run defs (onTc (τ := τ) (main (F := Ideal))) ⟨m, fun _ => 0, ρ⟩ fun r => ∀ c : Dev nD,
      r.2.mem ((c.tc : Thread nD τ).loc main_v125)
        = outArray (V m c main_v38) (V m c main_v77) (V m c main_v116) (V m c main_v120) (V m c main_arg7) (V m c main_arg9)
            (V m c main_arg11) (V m c main_v123) (V m c main_v124)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨((h c).1 9).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).1 4).trans (((dats m 0 c).arrAt_in 4 rfl _).trans ((A_eq m c 4).trans (V_main_arg7 m c))),
      ((h c).2 main_arg8 (Pipeline.mem_restRefs_of main_arg8 (by decide) (by decide))).trans (V_main_arg8 m c),
      ((h c).1 5).trans (((dats m 0 c).arrAt_in 5 rfl _).trans ((A_eq m c 5).trans (V_main_arg9 m c))),
      ((h c).2 main_arg10 (Pipeline.mem_restRefs_of main_arg10 (by decide) (by decide))).trans (V_main_arg10 m c),
      ((h c).1 6).trans (((dats m 0 c).arrAt_in 6 rfl _).trans ((A_eq m c 6).trans (V_main_arg11 m c))),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) (run_main m ρ)

end Cert.KernelIdeal.KArray

end
-- ==== Proof.LibAfter.lean ====
/-
  Two facts about a straight line of host operations, for running a long line in segments.

  The contents of the buffers after a line of operations is a fold over the line (each operation rewrites the buffers
  it writes and leaves the rest), so the contents after a concatenation of two lines are the contents after the second
  line, started from the contents after the first (`after_append`). And the side condition "no operation of the line
  allocates a buffer", which a run of the line asks for every member of the list, follows from the same condition
  stated as one conjunction over the list (`fresh_of_forall`), which splits along a concatenation (`forall_append`)
  and which, for a list written out operation by operation, holds by computation (`all_fresh`).
-/
import Idealize.ShloMosaic.Lib.StableHlo.Run

namespace Cert.LibAfter

open Idealize.ShloMosaic Idealize.ShloMosaic.StableHlo

variable {τ : Topo} {sig : RefSig} {Val : EltTy → Type}

/-- The buffer contents after a concatenation of two lines of operations are the contents after the second line,
    started from the contents after the first. -/
theorem after_append (a b : List (HloOp τ sig Val)) (V : Valuation τ sig Val) :
    after (a ++ b) V = after b (after a V) := by
  induction a generalizing V with
  | nil => rfl
  | cons op a ih => rw [List.cons_append, after_cons, after_cons, ih]

/-- A property of every operation of a concatenation is the property of every operation of each part. -/
theorem forall_append {α : Type} (p : α → Prop) (a b : List α) :
    (a ++ b).Forall p ↔ a.Forall p ∧ b.Forall p :=
  List.forall_append

/-- The property of each part gives the property of the concatenation. -/
theorem Forall.append {α : Type} {p : α → Prop} {a b : List α} (ha : a.Forall p) (hb : b.Forall p) :
    (a ++ b).Forall p :=
  (forall_append p a b).mpr ⟨ha, hb⟩

/-- "No operation allocates a buffer", stated as one conjunction over the list, gives it for every member. -/
theorem fresh_of_forall {ops : List (HloOp τ sig Val)} (h : ops.Forall fun op => op.fresh = ∅) :
    ∀ op ∈ ops, op.fresh = ∅ :=
  List.forall_iff_forall_mem.mp h

/-- The same for a family of lines, one per device: the form a run of the line asks for. -/
theorem fresh_of_forall_dev {ι : Type} {ops : ι → List (HloOp τ sig Val)}
    (h : ∀ d, (ops d).Forall fun op => op.fresh = ∅) : ∀ d, ∀ op ∈ ops d, op.fresh = ∅ :=
  fun d => fresh_of_forall (h d)

/-- `all_fresh ops` proves `ops.Forall fun op => op.fresh = ∅` for a list `ops` written out operation by operation
    (under a name, which is unfolded first): the conjunction over the list is split, and each operation built by a
    non-allocating builder has the empty set of fresh buffers by computation. -/
macro "all_fresh " ops:ident : tactic =>
  `(tactic| (first | simp only [$ops:ident, List.Forall] | simp only [List.Forall]
             repeat' constructor))

end Cert.LibAfter
-- ==== Proof.KVals.lean ====
/-
  The kernel's host prefix read as values.

  Before its one grid region the kernel's @main runs a straight line of host operations, cut into thirteen consecutive
  lists. This module names the values that line computes from the launch arguments — the degree of every row under an
  index vector, its clipped inverse square root, the scaled features rounded to the narrow format, the gathered rows
  summed per destination row, the three normalisation columns side by side, the summed bias as a row, the slope as a
  1×1 array — and proves that the buffers the region reads hold exactly these values after the whole line, from ANY
  starting contents, and that no argument buffer is written.

  The line is run list by list: for each list, what it leaves in the few buffers a later list (or the region) reads,
  as a function of the contents it starts from; a buffer a list does not write keeps its contents through it; the
  thirteen facts are then chained.
-/
import proofs.«144090_j74285754351670_2_alg».proof.Proof.Gen.KernelIdeal.Launch
import Idealize.ShloMosaic.Lib.StableHlo.Run
import proofs.«144090_j74285754351670_2_alg».proof.Proof.LibAfter

set_option maxRecDepth 4096

noncomputable section

namespace Cert.KernelIdeal.KVals

open Idealize.ShloMosaic Idealize.ShloMosaic.StableHlo Cert.KernelIdeal Cert.KernelIdeal.Gen Cert.LibAfter

variable {F : FTy → Type} [FloatOps F]

local notation:max "⟪" r "⟫" => Proc.devRef (τ := τ) (sig := sig) Proc.tc r

/-! ## The values -/

/-- The scalar one. -/
def oneK : (⟨S_, .f32⟩ : BufTy).Contents (Elt F) := constant S_ .f32 0x3F800000#32

/-- An index vector with its negative entries moved up by the number of rows. -/
def wrapK (i : (⟨S1600000, .i32⟩ : BufTy).Contents (Elt F)) : (⟨S1600000, .i32⟩ : BufTy).Contents (Elt F) :=
  select (cmpi .slt i (broadcastInDim S1600000 ![] bcast_S_S1600000 (constantI S_ 32 0#32 : (⟨S_, .i32⟩ : BufTy).Contents (Elt F))))
    (addi i (broadcastInDim S1600000 ![] bcast_S_S1600000 (constantI S_ 32 100000#32 : (⟨S_, .i32⟩ : BufTy).Contents (Elt F)))) i

/-- The degree of every row under an index vector: from zero, a one added at each (wrapped) entry. -/
def degK (i : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32 : (⟨S_, .f32⟩ : BufTy).Contents (Elt F)))
    (broadcastInDim S1600000x1 ![0] bcast_S1600000_S1600000x1_0 (wrapK (F := F) i))
    (broadcastInDim S1600000 ![] bcast_S_S1600000 (constant S_ .f32 0x3F800000#32 : (⟨S_, .f32⟩ : BufTy).Contents (Elt F)))

/-- A degree vector bounded below by the scalar `one` (read from a buffer, hence a parameter). -/
def clipK (one : (⟨S_, .f32⟩ : BufTy).Contents (Elt F)) (d : (⟨S100000, .f32⟩ : BufTy).Contents (Elt F)) : (⟨S100000, .f32⟩ : BufTy).Contents (Elt F) :=
  maximumf (broadcastInDim S100000 ![] bcast_S_S100000 one) d

/-- The power minus one half of every entry. -/
def rsqrtK (d : (⟨S100000, .f32⟩ : BufTy).Contents (Elt F)) : (⟨S100000, .f32⟩ : BufTy).Contents (Elt F) :=
  Host.powf d (broadcastInDim S100000 ![] bcast_S_S100000 (constant S_ .f32 0xBF000000#32 : (⟨S_, .f32⟩ : BufTy).Contents (Elt F)))

/-- The normalisation vector of an index vector: the degree, bounded below by one, to the power minus one half. -/
def normK (i : (⟨S1600000, .i32⟩ : BufTy).Contents (Elt F)) : (⟨S100000, .f32⟩ : BufTy).Contents (Elt F) :=
  rsqrtK (clipK (oneK (F := F)) (degK i))

/-- The destination side's normalisation vector is the same function of the destination index vector. -/
abbrev normDstK (i : (⟨S1600000, .i32⟩ : BufTy).Contents (Elt F)) : FVec F S100000 .f32 := normK (F := F) i

/-- The features scaled row by row by a vector, rounded to the narrow format. -/
def scaledK (x : (⟨S100000x128, .f32⟩ : BufTy).Contents (Elt F)) (n : (⟨S100000, .f32⟩ : BufTy).Contents (Elt F)) : (⟨S100000x128, .bf16⟩ : BufTy).Contents (Elt F) :=
  truncf .bf16 (mulf x (broadcastInDim S100000x128 ![0, 1] bcast_S100000x1_S100000x128_0_1
    (broadcastInDim S100000x1 ![0] bcast_S100000_S100000x1_0 n))) bitsLt_bf16_f32

/-- The rows of `xs` gathered at the (wrapped) source entries, widened, summed into the destination rows from zero,
    and rounded to the narrow format. -/
def aggOfK (xs : (⟨S100000x128, .bf16⟩ : BufTy).Contents (Elt F)) (src dst : (⟨S1600000, .i32⟩ : BufTy).Contents (Elt F)) : (⟨S100000x128, .bf16⟩ : BufTy).Contents (Elt F) :=
  truncf .bf16 (Host.scatterAdd scatter_S100000x128_S1600000x1_S1600000x128_1_0_0_1
    (broadcastInDim S100000x128 ![] bcast_S_S100000x128 (constant S_ .f32 0x00000000#32 : (⟨S_, .f32⟩ : BufTy).Contents (Elt F)))
    (broadcastInDim S1600000x1 ![0] bcast_S1600000_S1600000x1_0 dst)
    (extf .f32 (Host.gather gather_S100000x128_S1600000x1_S1600000x128_1_0_n_n_0_1_1128 xs
      (broadcastInDim S1600000x1 ![0] bcast_S1600000_S1600000x1_0 (wrapK (F := F) src))) bitsLt_bf16_f32)) bitsLt_bf16_f32

/-- One relation's aggregate: the features scaled by the source side's normalisation, gathered along the sources and
    summed along the destinations. -/
def aggK (x : (⟨S100000x128, .f32⟩ : BufTy).Contents (Elt F)) (src dst : (⟨S1600000, .i32⟩ : BufTy).Contents (Elt F)) : (⟨S100000x128, .bf16⟩ : BufTy).Contents (Elt F) :=
  aggOfK (scaledK x (normK (F := F) src)) src dst

/-- Three vectors as the three columns of one array. -/
def normsK (n0 n1 n2 : (⟨S100000, .f32⟩ : BufTy).Contents (Elt F)) : (⟨S100000x3, .f32⟩ : BufTy).Contents (Elt F) :=
  concatenate S100000x3 1
    [⟨S100000x1, broadcastInDim S100000x1 ![0] bcast_S100000_S100000x1_0 n0⟩,
     ⟨S100000x1, broadcastInDim S100000x1 ![0] bcast_S100000_S100000x1_0 n1⟩,
     ⟨S100000x1, broadcastInDim S100000x1 ![0] bcast_S100000_S100000x1_0 n2⟩]
    concatenates_S100000x1_S100000x1_S100000x1_S100000x3_d1

/-- The three biases summed, left to right, as a row. -/
def biasK (b0 b1 b2 : (⟨S128, .f32⟩ : BufTy).Contents (Elt F)) : (⟨S1x128, .f32⟩ : BufTy).Contents (Elt F) :=
  shapeCast S1x128 (addf (addf b0 b1) b2) shapeCasts_S128_S1x128

/-- The slope as a 1×1 array. -/
def aK (a : (⟨S1, .f32⟩ : BufTy).Contents (Elt F)) : (⟨S1x1, .f32⟩ : BufTy).Contents (Elt F) :=
  shapeCast S1x1 a shapeCasts_S1_S1x1

/-! ## What each list writes, and what it therefore keeps -/

/-- A concatenate of three operands at literal references reads each operand at its own reference. -/
theorem nary3_result' {x a b y : Ref sig .tc} {Val : EltTy → Type}
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) := by
  rw [nary_result]; congr 1; funext k; fin_cases k <;> rfl

/-- The references list 0 writes. -/
abbrev wr0 : List (Ref sig .tc) :=
  [main_cst, main_v0, main_cst_0, main_v1, main_c, main_v2, main_v3, main_c_1, main_v4, main_v5, main_v6, main_v7, main_v8, main_cst_2, main_v9, main_c_3, main_v10, main_v11, main_c_4, main_v12, main_v13, main_v14, main_v15, main_v16, main_cst_5]
theorem writes0 : (hostOps0 : List (HloOp τ sig (Elt F))).Forall fun op =>
    op.writes ⊆ ((wr0).map (Proc.devRef (τ := τ) .tc)).toFinset := by
  simp only [hostOps0, List.Forall]
  repeat' apply And.intro
  all_goals
    simp only [StableHlo.nullary_writes, StableHlo.unary_writes, StableHlo.binary_writes, StableHlo.ternary_writes, StableHlo.reshape_writes, StableHlo.nary_writes, Finset.singleton_subset_iff, List.mem_toFinset]
    exact List.mem_map_of_mem (by decide)
/-- A buffer list 0 does not write keeps its contents through it. -/
theorem keep0 (V : Valuation τ sig (Elt F)) (r : Ref sig .tc) (h : r ∉ wr0) :
    after (hostOps0 (F := F)) V ⟪r⟫ = V ⟪r⟫ :=
  after_of_writes_sub hostOps0 V writes0 h

/-- The references list 1 writes. -/
abbrev wr1 : List (Ref sig .tc) :=
  [main_call0_v0, main_call0_v1, main_v17]
theorem writes1 : (hostOps0_1 : List (HloOp τ sig (Elt F))).Forall fun op =>
    op.writes ⊆ ((wr1).map (Proc.devRef (τ := τ) .tc)).toFinset := by
  simp only [hostOps0_1, List.Forall]
  repeat' apply And.intro
  all_goals
    simp only [StableHlo.nullary_writes, StableHlo.unary_writes, StableHlo.binary_writes, StableHlo.ternary_writes, StableHlo.reshape_writes, StableHlo.nary_writes, Finset.singleton_subset_iff, List.mem_toFinset]
    exact List.mem_map_of_mem (by decide)
/-- A buffer list 1 does not write keeps its contents through it. -/
theorem keep1 (V : Valuation τ sig (Elt F)) (r : Ref sig .tc) (h : r ∉ wr1) :
    after (hostOps0_1 (F := F)) V ⟪r⟫ = V ⟪r⟫ :=
  after_of_writes_sub hostOps0_1 V writes1 h

/-- The references list 2 writes. -/
abbrev wr2 : List (Ref sig .tc) :=
  [main_cst_6, main_v18, main_v19, main_cst_7]
theorem writes2 : (hostOps0_2 : List (HloOp τ sig (Elt F))).Forall fun op =>
    op.writes ⊆ ((wr2).map (Proc.devRef (τ := τ) .tc)).toFinset := by
  simp only [hostOps0_2, List.Forall]
  repeat' apply And.intro
  all_goals
    simp only [StableHlo.nullary_writes, StableHlo.unary_writes, StableHlo.binary_writes, StableHlo.ternary_writes, StableHlo.reshape_writes, StableHlo.nary_writes, Finset.singleton_subset_iff, List.mem_toFinset]
    exact List.mem_map_of_mem (by decide)
/-- A buffer list 2 does not write keeps its contents through it. -/
theorem keep2 (V : Valuation τ sig (Elt F)) (r : Ref sig .tc) (h : r ∉ wr2) :
    after (hostOps0_2 (F := F)) V ⟪r⟫ = V ⟪r⟫ :=
  after_of_writes_sub hostOps0_2 V writes2 h

/-- The references list 3 writes. -/
abbrev wr3 : List (Ref sig .tc) :=
  [main_call1_v0, main_call1_v1, main_v20]
theorem writes3 : (hostOps0_3 : List (HloOp τ sig (Elt F))).Forall fun op =>
    op.writes ⊆ ((wr3).map (Proc.devRef (τ := τ) .tc)).toFinset := by
  simp only [hostOps0_3, List.Forall]
  repeat' apply And.intro
  all_goals
    simp only [StableHlo.nullary_writes, StableHlo.unary_writes, StableHlo.binary_writes, StableHlo.ternary_writes, StableHlo.reshape_writes, StableHlo.nary_writes, Finset.singleton_subset_iff, List.mem_toFinset]
    exact List.mem_map_of_mem (by decide)
/-- A buffer list 3 does not write keeps its contents through it. -/
theorem keep3 (V : Valuation τ sig (Elt F)) (r : Ref sig .tc) (h : r ∉ wr3) :
    after (hostOps0_3 (F := F)) V ⟪r⟫ = V ⟪r⟫ :=
  after_of_writes_sub hostOps0_3 V writes3 h

/-- The references list 4 writes. -/
abbrev wr4 : List (Ref sig .tc) :=
  [main_cst_8, main_v21, main_v22, main_v23, main_v24, main_v25, main_v26, main_c_9, main_v27, main_v28, main_c_10, main_v29, main_v30, main_v31, main_v32, main_v33, main_v34, main_cst_11, main_v35, main_v36, main_v37, main_v38, main_cst_12, main_v39, main_cst_13, main_v40, main_c_14, main_v41, main_v42, main_c_15, main_v43, main_v44, main_v45, main_v46, main_v47, main_cst_16, main_v48, main_c_17, main_v49, main_v50, main_c_18, main_v51, main_v52, main_v53, main_v54, main_v55, main_cst_19]
theorem writes4 : (hostOps0_4 : List (HloOp τ sig (Elt F))).Forall fun op =>
    op.writes ⊆ ((wr4).map (Proc.devRef (τ := τ) .tc)).toFinset := by
  simp only [hostOps0_4, List.Forall]
  repeat' apply And.intro
  all_goals
    simp only [StableHlo.nullary_writes, StableHlo.unary_writes, StableHlo.binary_writes, StableHlo.ternary_writes, StableHlo.reshape_writes, StableHlo.nary_writes, Finset.singleton_subset_iff, List.mem_toFinset]
    exact List.mem_map_of_mem (by decide)
/-- A buffer list 4 does not write keeps its contents through it. -/
theorem keep4 (V : Valuation τ sig (Elt F)) (r : Ref sig .tc) (h : r ∉ wr4) :
    after (hostOps0_4 (F := F)) V ⟪r⟫ = V ⟪r⟫ :=
  after_of_writes_sub hostOps0_4 V writes4 h

/-- The references list 5 writes. -/
abbrev wr5 : List (Ref sig .tc) :=
  [main_call2_v0, main_call2_v1, main_v56]
theorem writes5 : (hostOps0_5 : List (HloOp τ sig (Elt F))).Forall fun op =>
    op.writes ⊆ ((wr5).map (Proc.devRef (τ := τ) .tc)).toFinset := by
  simp only [hostOps0_5, List.Forall]
  repeat' apply And.intro
  all_goals
    simp only [StableHlo.nullary_writes, StableHlo.unary_writes, StableHlo.binary_writes, StableHlo.ternary_writes, StableHlo.reshape_writes, StableHlo.nary_writes, Finset.singleton_subset_iff, List.mem_toFinset]
    exact List.mem_map_of_mem (by decide)
/-- A buffer list 5 does not write keeps its contents through it. -/
theorem keep5 (V : Valuation τ sig (Elt F)) (r : Ref sig .tc) (h : r ∉ wr5) :
    after (hostOps0_5 (F := F)) V ⟪r⟫ = V ⟪r⟫ :=
  after_of_writes_sub hostOps0_5 V writes5 h

/-- The references list 6 writes. -/
abbrev wr6 : List (Ref sig .tc) :=
  [main_cst_20, main_v57, main_v58, main_cst_21]
theorem writes6 : (hostOps0_6 : List (HloOp τ sig (Elt F))).Forall fun op =>
    op.writes ⊆ ((wr6).map (Proc.devRef (τ := τ) .tc)).toFinset := by
  simp only [hostOps0_6, List.Forall]
  repeat' apply And.intro
  all_goals
    simp only [StableHlo.nullary_writes, StableHlo.unary_writes, StableHlo.binary_writes, StableHlo.ternary_writes, StableHlo.reshape_writes, StableHlo.nary_writes, Finset.singleton_subset_iff, List.mem_toFinset]
    exact List.mem_map_of_mem (by decide)
/-- A buffer list 6 does not write keeps its contents through it. -/
theorem keep6 (V : Valuation τ sig (Elt F)) (r : Ref sig .tc) (h : r ∉ wr6) :
    after (hostOps0_6 (F := F)) V ⟪r⟫ = V ⟪r⟫ :=
  after_of_writes_sub hostOps0_6 V writes6 h

/-- The references list 7 writes. -/
abbrev wr7 : List (Ref sig .tc) :=
  [main_call3_v0, main_call3_v1, main_v59]
theorem writes7 : (hostOps0_7 : List (HloOp τ sig (Elt F))).Forall fun op =>
    op.writes ⊆ ((wr7).map (Proc.devRef (τ := τ) .tc)).toFinset := by
  simp only [hostOps0_7, List.Forall]
  repeat' apply And.intro
  all_goals
    simp only [StableHlo.nullary_writes, StableHlo.unary_writes, StableHlo.binary_writes, StableHlo.ternary_writes, StableHlo.reshape_writes, StableHlo.nary_writes, Finset.singleton_subset_iff, List.mem_toFinset]
    exact List.mem_map_of_mem (by decide)
/-- A buffer list 7 does not write keeps its contents through it. -/
theorem keep7 (V : Valuation τ sig (Elt F)) (r : Ref sig .tc) (h : r ∉ wr7) :
    after (hostOps0_7 (F := F)) V ⟪r⟫ = V ⟪r⟫ :=
  after_of_writes_sub hostOps0_7 V writes7 h

/-- The references list 8 writes. -/
abbrev wr8 : List (Ref sig .tc) :=
  [main_cst_22, main_v60, main_v61, main_v62, main_v63, main_v64, main_v65, main_c_23, main_v66, main_v67, main_c_24, main_v68, main_v69, main_v70, main_v71, main_v72, main_v73, main_cst_25, main_v74, main_v75, main_v76, main_v77, main_cst_26, main_v78, main_cst_27, main_v79, main_c_28, main_v80, main_v81, main_c_29, main_v82, main_v83, main_v84, main_v85, main_v86, main_cst_30, main_v87, main_c_31, main_v88, main_v89, main_c_32, main_v90, main_v91, main_v92, main_v93, main_v94, main_cst_33]
theorem writes8 : (hostOps0_8 : List (HloOp τ sig (Elt F))).Forall fun op =>
    op.writes ⊆ ((wr8).map (Proc.devRef (τ := τ) .tc)).toFinset := by
  simp only [hostOps0_8, List.Forall]
  repeat' apply And.intro
  all_goals
    simp only [StableHlo.nullary_writes, StableHlo.unary_writes, StableHlo.binary_writes, StableHlo.ternary_writes, StableHlo.reshape_writes, StableHlo.nary_writes, Finset.singleton_subset_iff, List.mem_toFinset]
    exact List.mem_map_of_mem (by decide)
/-- A buffer list 8 does not write keeps its contents through it. -/
theorem keep8 (V : Valuation τ sig (Elt F)) (r : Ref sig .tc) (h : r ∉ wr8) :
    after (hostOps0_8 (F := F)) V ⟪r⟫ = V ⟪r⟫ :=
  after_of_writes_sub hostOps0_8 V writes8 h

/-- The references list 9 writes. -/
abbrev wr9 : List (Ref sig .tc) :=
  [main_call4_v0, main_call4_v1, main_v95]
theorem writes9 : (hostOps0_9 : List (HloOp τ sig (Elt F))).Forall fun op =>
    op.writes ⊆ ((wr9).map (Proc.devRef (τ := τ) .tc)).toFinset := by
  simp only [hostOps0_9, List.Forall]
  repeat' apply And.intro
  all_goals
    simp only [StableHlo.nullary_writes, StableHlo.unary_writes, StableHlo.binary_writes, StableHlo.ternary_writes, StableHlo.reshape_writes, StableHlo.nary_writes, Finset.singleton_subset_iff, List.mem_toFinset]
    exact List.mem_map_of_mem (by decide)
/-- A buffer list 9 does not write keeps its contents through it. -/
theorem keep9 (V : Valuation τ sig (Elt F)) (r : Ref sig .tc) (h : r ∉ wr9) :
    after (hostOps0_9 (F := F)) V ⟪r⟫ = V ⟪r⟫ :=
  after_of_writes_sub hostOps0_9 V writes9 h

/-- The references list 10 writes. -/
abbrev wr10 : List (Ref sig .tc) :=
  [main_cst_34, main_v96, main_v97, main_cst_35]
theorem writes10 : (hostOps0_10 : List (HloOp τ sig (Elt F))).Forall fun op =>
    op.writes ⊆ ((wr10).map (Proc.devRef (τ := τ) .tc)).toFinset := by
  simp only [hostOps0_10, List.Forall]
  repeat' apply And.intro
  all_goals
    simp only [StableHlo.nullary_writes, StableHlo.unary_writes, StableHlo.binary_writes, StableHlo.ternary_writes, StableHlo.reshape_writes, StableHlo.nary_writes, Finset.singleton_subset_iff, List.mem_toFinset]
    exact List.mem_map_of_mem (by decide)
/-- A buffer list 10 does not write keeps its contents through it. -/
theorem keep10 (V : Valuation τ sig (Elt F)) (r : Ref sig .tc) (h : r ∉ wr10) :
    after (hostOps0_10 (F := F)) V ⟪r⟫ = V ⟪r⟫ :=
  after_of_writes_sub hostOps0_10 V writes10 h

/-- The references list 11 writes. -/
abbrev wr11 : List (Ref sig .tc) :=
  [main_call5_v0, main_call5_v1, main_v98]
theorem writes11 : (hostOps0_11 : List (HloOp τ sig (Elt F))).Forall fun op =>
    op.writes ⊆ ((wr11).map (Proc.devRef (τ := τ) .tc)).toFinset := by
  simp only [hostOps0_11, List.Forall]
  repeat' apply And.intro
  all_goals
    simp only [StableHlo.nullary_writes, StableHlo.unary_writes, StableHlo.binary_writes, StableHlo.ternary_writes, StableHlo.reshape_writes, StableHlo.nary_writes, Finset.singleton_subset_iff, List.mem_toFinset]
    exact List.mem_map_of_mem (by decide)
/-- A buffer list 11 does not write keeps its contents through it. -/
theorem keep11 (V : Valuation τ sig (Elt F)) (r : Ref sig .tc) (h : r ∉ wr11) :
    after (hostOps0_11 (F := F)) V ⟪r⟫ = V ⟪r⟫ :=
  after_of_writes_sub hostOps0_11 V writes11 h

/-- The references list 12 writes. -/
abbrev wr12 : List (Ref sig .tc) :=
  [main_cst_36, main_v99, main_v100, main_v101, main_v102, main_v103, main_v104, main_c_37, main_v105, main_v106, main_c_38, main_v107, main_v108, main_v109, main_v110, main_v111, main_v112, main_cst_39, main_v113, main_v114, main_v115, main_v116, main_v117, main_v118, main_v119, main_v120, main_v121, main_v122, main_v123, main_v124]
theorem writes12 : (hostOps0_12 : List (HloOp τ sig (Elt F))).Forall fun op =>
    op.writes ⊆ ((wr12).map (Proc.devRef (τ := τ) .tc)).toFinset := by
  simp only [hostOps0_12, List.Forall]
  repeat' apply And.intro
  all_goals
    simp only [StableHlo.nullary_writes, StableHlo.unary_writes, StableHlo.binary_writes, StableHlo.ternary_writes, StableHlo.reshape_writes, StableHlo.nary_writes, Finset.singleton_subset_iff, List.mem_toFinset]
    exact List.mem_map_of_mem (by decide)
/-- A buffer list 12 does not write keeps its contents through it. -/
theorem keep12 (V : Valuation τ sig (Elt F)) (r : Ref sig .tc) (h : r ∉ wr12) :
    after (hostOps0_12 (F := F)) V ⟪r⟫ = V ⟪r⟫ :=
  after_of_writes_sub hostOps0_12 V writes12 h

/-! ## What each list leaves in the buffers read later, from any contents -/

theorem seg0_v8 (V : Valuation τ sig (Elt F)) :
    after (hostOps0 (F := F)) V ⟪main_v8⟫ = degK (F := F) (V ⟪main_arg1⟫) := by
  after_results_simp
  rfl

theorem seg0_v16 (V : Valuation τ sig (Elt F)) :
    after (hostOps0 (F := F)) V ⟪main_v16⟫ = degK (F := F) (V ⟪main_arg2⟫) := by
  after_results_simp
  rfl

theorem seg0_cst_5 (V : Valuation τ sig (Elt F)) :
    after (hostOps0 (F := F)) V ⟪main_cst_5⟫ = oneK (F := F) := by
  after_results_simp
  rfl

theorem seg1_v17 (V : Valuation τ sig (Elt F)) :
    after (hostOps0_1 (F := F)) V ⟪main_v17⟫ = clipK (V ⟪main_cst_5⟫) (V ⟪main_v8⟫) := by
  after_results_simp
  simp only [TRef.toBuf, TRef.ofBuf, cast_eq]
  rfl

theorem seg2_v19 (V : Valuation τ sig (Elt F)) :
    after (hostOps0_2 (F := F)) V ⟪main_v19⟫ = rsqrtK (V ⟪main_v17⟫) := by
  after_results_simp
  rfl
theorem seg2_cst_7 (V : Valuation τ sig (Elt F)) :
    after (hostOps0_2 (F := F)) V ⟪main_cst_7⟫ = oneK (F := F) := by
  after_results_simp
  rfl

theorem seg3_v20 (V : Valuation τ sig (Elt F)) :
    after (hostOps0_3 (F := F)) V ⟪main_v20⟫ = clipK (V ⟪main_cst_7⟫) (V ⟪main_v16⟫) := by
  after_results_simp
  simp only [TRef.toBuf, TRef.ofBuf, cast_eq]
  rfl

theorem seg4_v22 (V : Valuation τ sig (Elt F)) :
    after (hostOps0_4 (F := F)) V ⟪main_v22⟫ = rsqrtK (V ⟪main_v20⟫) := by
  after_results_simp
  rfl

theorem seg4_v38 (V : Valuation τ sig (Elt F)) :
    after (hostOps0_4 (F := F)) V ⟪main_v38⟫ = aggOfK (scaledK (V ⟪main_arg0⟫) (V ⟪main_v19⟫)) (V ⟪main_arg1⟫) (V ⟪main_arg2⟫) := by
  after_results_simp
  rfl

theorem seg4_v47 (V : Valuation τ sig (Elt F)) :
    after (hostOps0_4 (F := F)) V ⟪main_v47⟫ = degK (F := F) (V ⟪main_arg3⟫) := by
  after_results_simp
  rfl

theorem seg4_v55 (V : Valuation τ sig (Elt F)) :
    after (hostOps0_4 (F := F)) V ⟪main_v55⟫ = degK (F := F) (V ⟪main_arg4⟫) := by
  after_results_simp
  rfl

theorem seg4_cst_19 (V : Valuation τ sig (Elt F)) :
    after (hostOps0_4 (F := F)) V ⟪main_cst_19⟫ = oneK (F := F) := by
  after_results_simp
  rfl

theorem seg5_v56 (V : Valuation τ sig (Elt F)) :
    after (hostOps0_5 (F := F)) V ⟪main_v56⟫ = clipK (V ⟪main_cst_19⟫) (V ⟪main_v47⟫) := by
  after_results_simp
  simp only [TRef.toBuf, TRef.ofBuf, cast_eq]
  rfl

theorem seg6_v58 (V : Valuation τ sig (Elt F)) :
    after (hostOps0_6 (F := F)) V ⟪main_v58⟫ = rsqrtK (V ⟪main_v56⟫) := by
  after_results_simp
  rfl
theorem seg6_cst_21 (V : Valuation τ sig (Elt F)) :
    after (hostOps0_6 (F := F)) V ⟪main_cst_21⟫ = oneK (F := F) := by
  after_results_simp
  rfl

theorem seg7_v59 (V : Valuation τ sig (Elt F)) :
    after (hostOps0_7 (F := F)) V ⟪main_v59⟫ = clipK (V ⟪main_cst_21⟫) (V ⟪main_v55⟫) := by
  after_results_simp
  simp only [TRef.toBuf, TRef.ofBuf, cast_eq]
  rfl

theorem seg8_v61 (V : Valuation τ sig (Elt F)) :
    after (hostOps0_8 (F := F)) V ⟪main_v61⟫ = rsqrtK (V ⟪main_v59⟫) := by
  after_results_simp
  rfl

theorem seg8_v77 (V : Valuation τ sig (Elt F)) :
    after (hostOps0_8 (F := F)) V ⟪main_v77⟫ = aggOfK (scaledK (V ⟪main_arg0⟫) (V ⟪main_v58⟫)) (V ⟪main_arg3⟫) (V ⟪main_arg4⟫) := by
  after_results_simp
  rfl

theorem seg8_v86 (V : Valuation τ sig (Elt F)) :
    after (hostOps0_8 (F := F)) V ⟪main_v86⟫ = degK (F := F) (V ⟪main_arg5⟫) := by
  after_results_simp
  rfl

theorem seg8_v94 (V : Valuation τ sig (Elt F)) :
    after (hostOps0_8 (F := F)) V ⟪main_v94⟫ = degK (F := F) (V ⟪main_arg6⟫) := by
  after_results_simp
  rfl

theorem seg8_cst_33 (V : Valuation τ sig (Elt F)) :
    after (hostOps0_8 (F := F)) V ⟪main_cst_33⟫ = oneK (F := F) := by
  after_results_simp
  rfl

theorem seg9_v95 (V : Valuation τ sig (Elt F)) :
    after (hostOps0_9 (F := F)) V ⟪main_v95⟫ = clipK (V ⟪main_cst_33⟫) (V ⟪main_v86⟫) := by
  after_results_simp
  simp only [TRef.toBuf, TRef.ofBuf, cast_eq]
  rfl

theorem seg10_v97 (V : Valuation τ sig (Elt F)) :
    after (hostOps0_10 (F := F)) V ⟪main_v97⟫ = rsqrtK (V ⟪main_v95⟫) := by
  after_results_simp
  rfl
theorem seg10_cst_35 (V : Valuation τ sig (Elt F)) :
    after (hostOps0_10 (F := F)) V ⟪main_cst_35⟫ = oneK (F := F) := by
  after_results_simp
  rfl

theorem seg11_v98 (V : Valuation τ sig (Elt F)) :
    after (hostOps0_11 (F := F)) V ⟪main_v98⟫ = clipK (V ⟪main_cst_35⟫) (V ⟪main_v94⟫) := by
  after_results_simp
  simp only [TRef.toBuf, TRef.ofBuf, cast_eq]
  rfl

theorem seg12_v116 (V : Valuation τ sig (Elt F)) :
    after (hostOps0_12 (F := F)) V ⟪main_v116⟫ = aggOfK (scaledK (V ⟪main_arg0⟫) (V ⟪main_v97⟫)) (V ⟪main_arg5⟫) (V ⟪main_arg6⟫) := by
  after_results_simp
  rfl

theorem seg12_v120 (V : Valuation τ sig (Elt F)) :
    after (hostOps0_12 (F := F)) V ⟪main_v120⟫ = normsK (V ⟪main_v22⟫) (V ⟪main_v61⟫) (rsqrtK (V ⟪main_v98⟫)) := by
  simp (disch := decide) only [after_cons, after_nil,
    nullary_result', unary_result', binary_result', ternary_result', reshape_result', nary3_result',
    nullary_result_ne', unary_result_ne', binary_result_ne', ternary_result_ne', reshape_result_ne', nary_result_ne']
  rfl

theorem seg12_v123 (V : Valuation τ sig (Elt F)) :
    after (hostOps0_12 (F := F)) V ⟪main_v123⟫ = biasK (V ⟪main_arg8⟫) (V ⟪main_arg10⟫) (V ⟪main_arg12⟫) := by
  after_results_simp
  rfl

theorem seg12_v124 (V : Valuation τ sig (Elt F)) :
    after (hostOps0_12 (F := F)) V ⟪main_v124⟫ = aK (V ⟪main_arg13⟫) := by
  after_results_simp
  rfl

/-! ## The line as thirteen lists in turn -/

/-- The contents after the first list, and so on: `Wk v` is what the buffers hold after lists 0 … k from `v`. -/
def W0 (v : Valuation τ sig (Elt F)) : Valuation τ sig (Elt F) := after (hostOps0 (F := F)) v
/-- The references lists 0 … k write. -/
abbrev cw0 : List (Ref sig .tc) := wr0
theorem W0_keep (v : Valuation τ sig (Elt F)) (r : Ref sig .tc) (h : r ∉ cw0) : W0 v ⟪r⟫ = v ⟪r⟫ := keep0 v r h

def W1 (v : Valuation τ sig (Elt F)) : Valuation τ sig (Elt F) := after (hostOps0_1 (F := F)) (W0 v)
abbrev cw1 : List (Ref sig .tc) := cw0 ++ wr1
theorem W1_keep (v : Valuation τ sig (Elt F)) (r : Ref sig .tc) (h : r ∉ cw1) : W1 v ⟪r⟫ = v ⟪r⟫ :=
  (keep1 _ r fun m => h (List.mem_append_right _ m)).trans (W0_keep v r fun m => h (List.mem_append_left _ m))

def W2 (v : Valuation τ sig (Elt F)) : Valuation τ sig (Elt F) := after (hostOps0_2 (F := F)) (W1 v)
abbrev cw2 : List (Ref sig .tc) := cw1 ++ wr2
theorem W2_keep (v : Valuation τ sig (Elt F)) (r : Ref sig .tc) (h : r ∉ cw2) : W2 v ⟪r⟫ = v ⟪r⟫ :=
  (keep2 _ r fun m => h (List.mem_append_right _ m)).trans (W1_keep v r fun m => h (List.mem_append_left _ m))

def W3 (v : Valuation τ sig (Elt F)) : Valuation τ sig (Elt F) := after (hostOps0_3 (F := F)) (W2 v)
abbrev cw3 : List (Ref sig .tc) := cw2 ++ wr3
theorem W3_keep (v : Valuation τ sig (Elt F)) (r : Ref sig .tc) (h : r ∉ cw3) : W3 v ⟪r⟫ = v ⟪r⟫ :=
  (keep3 _ r fun m => h (List.mem_append_right _ m)).trans (W2_keep v r fun m => h (List.mem_append_left _ m))

def W4 (v : Valuation τ sig (Elt F)) : Valuation τ sig (Elt F) := after (hostOps0_4 (F := F)) (W3 v)
abbrev cw4 : List (Ref sig .tc) := cw3 ++ wr4
theorem W4_keep (v : Valuation τ sig (Elt F)) (r : Ref sig .tc) (h : r ∉ cw4) : W4 v ⟪r⟫ = v ⟪r⟫ :=
  (keep4 _ r fun m => h (List.mem_append_right _ m)).trans (W3_keep v r fun m => h (List.mem_append_left _ m))

def W5 (v : Valuation τ sig (Elt F)) : Valuation τ sig (Elt F) := after (hostOps0_5 (F := F)) (W4 v)
abbrev cw5 : List (Ref sig .tc) := cw4 ++ wr5
theorem W5_keep (v : Valuation τ sig (Elt F)) (r : Ref sig .tc) (h : r ∉ cw5) : W5 v ⟪r⟫ = v ⟪r⟫ :=
  (keep5 _ r fun m => h (List.mem_append_right _ m)).trans (W4_keep v r fun m => h (List.mem_append_left _ m))

def W6 (v : Valuation τ sig (Elt F)) : Valuation τ sig (Elt F) := after (hostOps0_6 (F := F)) (W5 v)
abbrev cw6 : List (Ref sig .tc) := cw5 ++ wr6
theorem W6_keep (v : Valuation τ sig (Elt F)) (r : Ref sig .tc) (h : r ∉ cw6) : W6 v ⟪r⟫ = v ⟪r⟫ :=
  (keep6 _ r fun m => h (List.mem_append_right _ m)).trans (W5_keep v r fun m => h (List.mem_append_left _ m))

def W7 (v : Valuation τ sig (Elt F)) : Valuation τ sig (Elt F) := after (hostOps0_7 (F := F)) (W6 v)
abbrev cw7 : List (Ref sig .tc) := cw6 ++ wr7
theorem W7_keep (v : Valuation τ sig (Elt F)) (r : Ref sig .tc) (h : r ∉ cw7) : W7 v ⟪r⟫ = v ⟪r⟫ :=
  (keep7 _ r fun m => h (List.mem_append_right _ m)).trans (W6_keep v r fun m => h (List.mem_append_left _ m))

def W8 (v : Valuation τ sig (Elt F)) : Valuation τ sig (Elt F) := after (hostOps0_8 (F := F)) (W7 v)
abbrev cw8 : List (Ref sig .tc) := cw7 ++ wr8
theorem W8_keep (v : Valuation τ sig (Elt F)) (r : Ref sig .tc) (h : r ∉ cw8) : W8 v ⟪r⟫ = v ⟪r⟫ :=
  (keep8 _ r fun m => h (List.mem_append_right _ m)).trans (W7_keep v r fun m => h (List.mem_append_left _ m))

def W9 (v : Valuation τ sig (Elt F)) : Valuation τ sig (Elt F) := after (hostOps0_9 (F := F)) (W8 v)
abbrev cw9 : List (Ref sig .tc) := cw8 ++ wr9
theorem W9_keep (v : Valuation τ sig (Elt F)) (r : Ref sig .tc) (h : r ∉ cw9) : W9 v ⟪r⟫ = v ⟪r⟫ :=
  (keep9 _ r fun m => h (List.mem_append_right _ m)).trans (W8_keep v r fun m => h (List.mem_append_left _ m))

def W10 (v : Valuation τ sig (Elt F)) : Valuation τ sig (Elt F) := after (hostOps0_10 (F := F)) (W9 v)
abbrev cw10 : List (Ref sig .tc) := cw9 ++ wr10
theorem W10_keep (v : Valuation τ sig (Elt F)) (r : Ref sig .tc) (h : r ∉ cw10) : W10 v ⟪r⟫ = v ⟪r⟫ :=
  (keep10 _ r fun m => h (List.mem_append_right _ m)).trans (W9_keep v r fun m => h (List.mem_append_left _ m))

def W11 (v : Valuation τ sig (Elt F)) : Valuation τ sig (Elt F) := after (hostOps0_11 (F := F)) (W10 v)
abbrev cw11 : List (Ref sig .tc) := cw10 ++ wr11
theorem W11_keep (v : Valuation τ sig (Elt F)) (r : Ref sig .tc) (h : r ∉ cw11) : W11 v ⟪r⟫ = v ⟪r⟫ :=
  (keep11 _ r fun m => h (List.mem_append_right _ m)).trans (W10_keep v r fun m => h (List.mem_append_left _ m))

def W12 (v : Valuation τ sig (Elt F)) : Valuation τ sig (Elt F) := after (hostOps0_12 (F := F)) (W11 v)
abbrev cw12 : List (Ref sig .tc) := cw11 ++ wr12
theorem W12_keep (v : Valuation τ sig (Elt F)) (r : Ref sig .tc) (h : r ∉ cw12) : W12 v ⟪r⟫ = v ⟪r⟫ :=
  (keep12 _ r fun m => h (List.mem_append_right _ m)).trans (W11_keep v r fun m => h (List.mem_append_left _ m))

/-- The whole line is the thirteen lists in turn. -/
theorem after_all (v : Valuation τ sig (Elt F)) :
    after (List.flatten [hostOps0 (F := F), hostOps0_1, hostOps0_2, hostOps0_3, hostOps0_4, hostOps0_5, hostOps0_6,
      hostOps0_7, hostOps0_8, hostOps0_9, hostOps0_10, hostOps0_11, hostOps0_12]) v = W12 v := by
  simp only [List.flatten_cons, List.flatten_nil, List.append_nil, after_append]
  rfl

/-! ## The chain: what the buffers read later hold after lists 0 … k, in the launch arguments -/

theorem W0_v8 (v : Valuation τ sig (Elt F)) : W0 v ⟪main_v8⟫ = degK (F := F) (v ⟪main_arg1⟫) := seg0_v8 v
theorem W0_v16 (v : Valuation τ sig (Elt F)) : W0 v ⟪main_v16⟫ = degK (F := F) (v ⟪main_arg2⟫) := seg0_v16 v
theorem W0_cst_5 (v : Valuation τ sig (Elt F)) : W0 v ⟪main_cst_5⟫ = oneK (F := F) := seg0_cst_5 v
theorem W1_v17 (v : Valuation τ sig (Elt F)) : W1 v ⟪main_v17⟫ = clipK (oneK (F := F)) (degK (F := F) (v ⟪main_arg1⟫)) := by
  rw [W1, seg1_v17, W0_cst_5, W0_v8]
theorem W1_v16 (v : Valuation τ sig (Elt F)) : W1 v ⟪main_v16⟫ = degK (F := F) (v ⟪main_arg2⟫) := (keep1 _ main_v16 (by decide)).trans (W0_v16 v)
theorem W2_v19 (v : Valuation τ sig (Elt F)) : W2 v ⟪main_v19⟫ = normK (F := F) (v ⟪main_arg1⟫) := by
  rw [W2, seg2_v19, W1_v17]; rfl
theorem W2_cst_7 (v : Valuation τ sig (Elt F)) : W2 v ⟪main_cst_7⟫ = oneK (F := F) := seg2_cst_7 _
theorem W2_v16 (v : Valuation τ sig (Elt F)) : W2 v ⟪main_v16⟫ = degK (F := F) (v ⟪main_arg2⟫) := (keep2 _ main_v16 (by decide)).trans (W1_v16 v)
theorem W3_v20 (v : Valuation τ sig (Elt F)) : W3 v ⟪main_v20⟫ = clipK (oneK (F := F)) (degK (F := F) (v ⟪main_arg2⟫)) := by
  rw [W3, seg3_v20, W2_cst_7, W2_v16]
theorem W3_v19 (v : Valuation τ sig (Elt F)) : W3 v ⟪main_v19⟫ = normK (F := F) (v ⟪main_arg1⟫) := (keep3 _ main_v19 (by decide)).trans (W2_v19 v)
theorem W4_v22 (v : Valuation τ sig (Elt F)) : W4 v ⟪main_v22⟫ = normK (F := F) (v ⟪main_arg2⟫) := by
  rw [W4, seg4_v22, W3_v20]; rfl
theorem W4_v38 (v : Valuation τ sig (Elt F)) : W4 v ⟪main_v38⟫ = aggK (v ⟪main_arg0⟫) (v ⟪main_arg1⟫) (v ⟪main_arg2⟫) := by
  rw [W4, seg4_v38, W3_v19, W3_keep v main_arg0 (by decide), W3_keep v main_arg1 (by decide), W3_keep v main_arg2 (by decide)]; rfl
theorem W4_v47 (v : Valuation τ sig (Elt F)) : W4 v ⟪main_v47⟫ = degK (F := F) (v ⟪main_arg3⟫) := by
  rw [W4, seg4_v47, W3_keep v main_arg3 (by decide)]
theorem W4_v55 (v : Valuation τ sig (Elt F)) : W4 v ⟪main_v55⟫ = degK (F := F) (v ⟪main_arg4⟫) := by
  rw [W4, seg4_v55, W3_keep v main_arg4 (by decide)]
theorem W4_cst_19 (v : Valuation τ sig (Elt F)) : W4 v ⟪main_cst_19⟫ = oneK (F := F) := seg4_cst_19 _
theorem W5_v56 (v : Valuation τ sig (Elt F)) : W5 v ⟪main_v56⟫ = clipK (oneK (F := F)) (degK (F := F) (v ⟪main_arg3⟫)) := by
  rw [W5, seg5_v56, W4_cst_19, W4_v47]
theorem W5_v22 (v : Valuation τ sig (Elt F)) : W5 v ⟪main_v22⟫ = normK (F := F) (v ⟪main_arg2⟫) := (keep5 _ main_v22 (by decide)).trans (W4_v22 v)
theorem W5_v38 (v : Valuation τ sig (Elt F)) : W5 v ⟪main_v38⟫ = aggK (v ⟪main_arg0⟫) (v ⟪main_arg1⟫) (v ⟪main_arg2⟫) := (keep5 _ main_v38 (by decide)).trans (W4_v38 v)
theorem W5_v55 (v : Valuation τ sig (Elt F)) : W5 v ⟪main_v55⟫ = degK (F := F) (v ⟪main_arg4⟫) := (keep5 _ main_v55 (by decide)).trans (W4_v55 v)
theorem W6_v58 (v : Valuation τ sig (Elt F)) : W6 v ⟪main_v58⟫ = normK (F := F) (v ⟪main_arg3⟫) := by
  rw [W6, seg6_v58, W5_v56]; rfl
theorem W6_cst_21 (v : Valuation τ sig (Elt F)) : W6 v ⟪main_cst_21⟫ = oneK (F := F) := seg6_cst_21 _
theorem W6_v22 (v : Valuation τ sig (Elt F)) : W6 v ⟪main_v22⟫ = normK (F := F) (v ⟪main_arg2⟫) := (keep6 _ main_v22 (by decide)).trans (W5_v22 v)
theorem W6_v38 (v : Valuation τ sig (Elt F)) : W6 v ⟪main_v38⟫ = aggK (v ⟪main_arg0⟫) (v ⟪main_arg1⟫) (v ⟪main_arg2⟫) := (keep6 _ main_v38 (by decide)).trans (W5_v38 v)
theorem W6_v55 (v : Valuation τ sig (Elt F)) : W6 v ⟪main_v55⟫ = degK (F := F) (v ⟪main_arg4⟫) := (keep6 _ main_v55 (by decide)).trans (W5_v55 v)
theorem W7_v59 (v : Valuation τ sig (Elt F)) : W7 v ⟪main_v59⟫ = clipK (oneK (F := F)) (degK (F := F) (v ⟪main_arg4⟫)) := by
  rw [W7, seg7_v59, W6_cst_21, W6_v55]
theorem W7_v22 (v : Valuation τ sig (Elt F)) : W7 v ⟪main_v22⟫ = normK (F := F) (v ⟪main_arg2⟫) := (keep7 _ main_v22 (by decide)).trans (W6_v22 v)
theorem W7_v38 (v : Valuation τ sig (Elt F)) : W7 v ⟪main_v38⟫ = aggK (v ⟪main_arg0⟫) (v ⟪main_arg1⟫) (v ⟪main_arg2⟫) := (keep7 _ main_v38 (by decide)).trans (W6_v38 v)
theorem W7_v58 (v : Valuation τ sig (Elt F)) : W7 v ⟪main_v58⟫ = normK (F := F) (v ⟪main_arg3⟫) := (keep7 _ main_v58 (by decide)).trans (W6_v58 v)
theorem W8_v61 (v : Valuation τ sig (Elt F)) : W8 v ⟪main_v61⟫ = normK (F := F) (v ⟪main_arg4⟫) := by
  rw [W8, seg8_v61, W7_v59]; rfl
theorem W8_v77 (v : Valuation τ sig (Elt F)) : W8 v ⟪main_v77⟫ = aggK (v ⟪main_arg0⟫) (v ⟪main_arg3⟫) (v ⟪main_arg4⟫) := by
  rw [W8, seg8_v77, W7_v58, W7_keep v main_arg0 (by decide), W7_keep v main_arg3 (by decide), W7_keep v main_arg4 (by decide)]; rfl
theorem W8_v86 (v : Valuation τ sig (Elt F)) : W8 v ⟪main_v86⟫ = degK (F := F) (v ⟪main_arg5⟫) := by
  rw [W8, seg8_v86, W7_keep v main_arg5 (by decide)]
theorem W8_v94 (v : Valuation τ sig (Elt F)) : W8 v ⟪main_v94⟫ = degK (F := F) (v ⟪main_arg6⟫) := by
  rw [W8, seg8_v94, W7_keep v main_arg6 (by decide)]
theorem W8_cst_33 (v : Valuation τ sig (Elt F)) : W8 v ⟪main_cst_33⟫ = oneK (F := F) := seg8_cst_33 _
theorem W8_v22 (v : Valuation τ sig (Elt F)) : W8 v ⟪main_v22⟫ = normK (F := F) (v ⟪main_arg2⟫) := (keep8 _ main_v22 (by decide)).trans (W7_v22 v)
theorem W8_v38 (v : Valuation τ sig (Elt F)) : W8 v ⟪main_v38⟫ = aggK (v ⟪main_arg0⟫) (v ⟪main_arg1⟫) (v ⟪main_arg2⟫) := (keep8 _ main_v38 (by decide)).trans (W7_v38 v)
theorem W9_v95 (v : Valuation τ sig (Elt F)) : W9 v ⟪main_v95⟫ = clipK (oneK (F := F)) (degK (F := F) (v ⟪main_arg5⟫)) := by
  rw [W9, seg9_v95, W8_cst_33, W8_v86]
theorem W9_v22 (v : Valuation τ sig (Elt F)) : W9 v ⟪main_v22⟫ = normK (F := F) (v ⟪main_arg2⟫) := (keep9 _ main_v22 (by decide)).trans (W8_v22 v)
theorem W9_v38 (v : Valuation τ sig (Elt F)) : W9 v ⟪main_v38⟫ = aggK (v ⟪main_arg0⟫) (v ⟪main_arg1⟫) (v ⟪main_arg2⟫) := (keep9 _ main_v38 (by decide)).trans (W8_v38 v)
theorem W9_v61 (v : Valuation τ sig (Elt F)) : W9 v ⟪main_v61⟫ = normK (F := F) (v ⟪main_arg4⟫) := (keep9 _ main_v61 (by decide)).trans (W8_v61 v)
theorem W9_v77 (v : Valuation τ sig (Elt F)) : W9 v ⟪main_v77⟫ = aggK (v ⟪main_arg0⟫) (v ⟪main_arg3⟫) (v ⟪main_arg4⟫) := (keep9 _ main_v77 (by decide)).trans (W8_v77 v)
theorem W9_v94 (v : Valuation τ sig (Elt F)) : W9 v ⟪main_v94⟫ = degK (F := F) (v ⟪main_arg6⟫) := (keep9 _ main_v94 (by decide)).trans (W8_v94 v)
theorem W10_v97 (v : Valuation τ sig (Elt F)) : W10 v ⟪main_v97⟫ = normK (F := F) (v ⟪main_arg5⟫) := by
  rw [W10, seg10_v97, W9_v95]; rfl
theorem W10_cst_35 (v : Valuation τ sig (Elt F)) : W10 v ⟪main_cst_35⟫ = oneK (F := F) := seg10_cst_35 _
theorem W10_v22 (v : Valuation τ sig (Elt F)) : W10 v ⟪main_v22⟫ = normK (F := F) (v ⟪main_arg2⟫) := (keep10 _ main_v22 (by decide)).trans (W9_v22 v)
theorem W10_v38 (v : Valuation τ sig (Elt F)) : W10 v ⟪main_v38⟫ = aggK (v ⟪main_arg0⟫) (v ⟪main_arg1⟫) (v ⟪main_arg2⟫) := (keep10 _ main_v38 (by decide)).trans (W9_v38 v)
theorem W10_v61 (v : Valuation τ sig (Elt F)) : W10 v ⟪main_v61⟫ = normK (F := F) (v ⟪main_arg4⟫) := (keep10 _ main_v61 (by decide)).trans (W9_v61 v)
theorem W10_v77 (v : Valuation τ sig (Elt F)) : W10 v ⟪main_v77⟫ = aggK (v ⟪main_arg0⟫) (v ⟪main_arg3⟫) (v ⟪main_arg4⟫) := (keep10 _ main_v77 (by decide)).trans (W9_v77 v)
theorem W10_v94 (v : Valuation τ sig (Elt F)) : W10 v ⟪main_v94⟫ = degK (F := F) (v ⟪main_arg6⟫) := (keep10 _ main_v94 (by decide)).trans (W9_v94 v)
theorem W11_v98 (v : Valuation τ sig (Elt F)) : W11 v ⟪main_v98⟫ = clipK (oneK (F := F)) (degK (F := F) (v ⟪main_arg6⟫)) := by
  rw [W11, seg11_v98, W10_cst_35, W10_v94]
theorem W11_v22 (v : Valuation τ sig (Elt F)) : W11 v ⟪main_v22⟫ = normK (F := F) (v ⟪main_arg2⟫) := (keep11 _ main_v22 (by decide)).trans (W10_v22 v)
theorem W11_v38 (v : Valuation τ sig (Elt F)) : W11 v ⟪main_v38⟫ = aggK (v ⟪main_arg0⟫) (v ⟪main_arg1⟫) (v ⟪main_arg2⟫) := (keep11 _ main_v38 (by decide)).trans (W10_v38 v)
theorem W11_v61 (v : Valuation τ sig (Elt F)) : W11 v ⟪main_v61⟫ = normK (F := F) (v ⟪main_arg4⟫) := (keep11 _ main_v61 (by decide)).trans (W10_v61 v)
theorem W11_v77 (v : Valuation τ sig (Elt F)) : W11 v ⟪main_v77⟫ = aggK (v ⟪main_arg0⟫) (v ⟪main_arg3⟫) (v ⟪main_arg4⟫) := (keep11 _ main_v77 (by decide)).trans (W10_v77 v)
theorem W11_v97 (v : Valuation τ sig (Elt F)) : W11 v ⟪main_v97⟫ = normK (F := F) (v ⟪main_arg5⟫) := (keep11 _ main_v97 (by decide)).trans (W10_v97 v)
theorem W12_v116 (v : Valuation τ sig (Elt F)) : W12 v ⟪main_v116⟫ = aggK (v ⟪main_arg0⟫) (v ⟪main_arg5⟫) (v ⟪main_arg6⟫) := by
  rw [W12, seg12_v116, W11_v97, W11_keep v main_arg0 (by decide), W11_keep v main_arg5 (by decide), W11_keep v main_arg6 (by decide)]; rfl
theorem W12_v120 (v : Valuation τ sig (Elt F)) : W12 v ⟪main_v120⟫ = normsK (normDstK (v ⟪main_arg2⟫)) (normDstK (v ⟪main_arg4⟫)) (normDstK (v ⟪main_arg6⟫)) := by
  rw [W12, seg12_v120, W11_v22, W11_v61, W11_v98]; rfl
theorem W12_v123 (v : Valuation τ sig (Elt F)) : W12 v ⟪main_v123⟫ = biasK (v ⟪main_arg8⟫) (v ⟪main_arg10⟫) (v ⟪main_arg12⟫) := by
  rw [W12, seg12_v123, W11_keep v main_arg8 (by decide), W11_keep v main_arg10 (by decide), W11_keep v main_arg12 (by decide)]
theorem W12_v124 (v : Valuation τ sig (Elt F)) : W12 v ⟪main_v124⟫ = aK (v ⟪main_arg13⟫) := by
  rw [W12, seg12_v124, W11_keep v main_arg13 (by decide)]
theorem W12_v38 (v : Valuation τ sig (Elt F)) : W12 v ⟪main_v38⟫ = aggK (v ⟪main_arg0⟫) (v ⟪main_arg1⟫) (v ⟪main_arg2⟫) := (keep12 _ main_v38 (by decide)).trans (W11_v38 v)
theorem W12_v77 (v : Valuation τ sig (Elt F)) : W12 v ⟪main_v77⟫ = aggK (v ⟪main_arg0⟫) (v ⟪main_arg3⟫) (v ⟪main_arg4⟫) := (keep12 _ main_v77 (by decide)).trans (W11_v77 v)

/-! ## The buffers the region reads, after the whole line -/

/-- The whole line of host operations before the region. -/
abbrev allOps : List (HloOp τ sig (Elt F)) :=
  List.flatten [hostOps0 (F := F), hostOps0_1, hostOps0_2, hostOps0_3, hostOps0_4, hostOps0_5, hostOps0_6,
    hostOps0_7, hostOps0_8, hostOps0_9, hostOps0_10, hostOps0_11, hostOps0_12]

/-- The first relation's aggregate is what the region finds at the first aggregate window's array. -/
theorem after_main_v38 (v : Valuation τ sig (Elt F)) :
    after (allOps (F := F)) v ⟪main_v38⟫ = aggK (v ⟪main_arg0⟫) (v ⟪main_arg1⟫) (v ⟪main_arg2⟫) := by
  rw [after_all]; exact W12_v38 v
/-- The second relation's. -/
theorem after_main_v77 (v : Valuation τ sig (Elt F)) :
    after (allOps (F := F)) v ⟪main_v77⟫ = aggK (v ⟪main_arg0⟫) (v ⟪main_arg3⟫) (v ⟪main_arg4⟫) := by
  rw [after_all]; exact W12_v77 v
/-- The third relation's. -/
theorem after_main_v116 (v : Valuation τ sig (Elt F)) :
    after (allOps (F := F)) v ⟪main_v116⟫ = aggK (v ⟪main_arg0⟫) (v ⟪main_arg5⟫) (v ⟪main_arg6⟫) := by
  rw [after_all]; exact W12_v116 v
/-- The three destination-side normalisation vectors, as columns. -/
theorem after_main_v120 (v : Valuation τ sig (Elt F)) :
    after (allOps (F := F)) v ⟪main_v120⟫
      = normsK (normDstK (v ⟪main_arg2⟫)) (normDstK (v ⟪main_arg4⟫)) (normDstK (v ⟪main_arg6⟫)) := by
  rw [after_all]; exact W12_v120 v
/-- The summed bias, as a row. -/
theorem after_main_v123 (v : Valuation τ sig (Elt F)) :
    after (allOps (F := F)) v ⟪main_v123⟫ = biasK (v ⟪main_arg8⟫) (v ⟪main_arg10⟫) (v ⟪main_arg12⟫) := by
  rw [after_all]; exact W12_v123 v
/-- The slope, as a 1×1 array. -/
theorem after_main_v124 (v : Valuation τ sig (Elt F)) :
    after (allOps (F := F)) v ⟪main_v124⟫ = aK (v ⟪main_arg13⟫) := by
  rw [after_all]; exact W12_v124 v

/-- A buffer no list writes — every launch argument among them — is as launched. -/
theorem after_keep (v : Valuation τ sig (Elt F)) (r : Ref sig .tc) (h : r ∉ cw12) :
    after (allOps (F := F)) v ⟪r⟫ = v ⟪r⟫ := by
  rw [after_all]; exact W12_keep v r h
theorem after_main_arg0 (v : Valuation τ sig (Elt F)) : after (allOps (F := F)) v ⟪main_arg0⟫ = v ⟪main_arg0⟫ :=
  after_keep v main_arg0 (by decide)
theorem after_main_arg1 (v : Valuation τ sig (Elt F)) : after (allOps (F := F)) v ⟪main_arg1⟫ = v ⟪main_arg1⟫ :=
  after_keep v main_arg1 (by decide)
theorem after_main_arg2 (v : Valuation τ sig (Elt F)) : after (allOps (F := F)) v ⟪main_arg2⟫ = v ⟪main_arg2⟫ :=
  after_keep v main_arg2 (by decide)
theorem after_main_arg3 (v : Valuation τ sig (Elt F)) : after (allOps (F := F)) v ⟪main_arg3⟫ = v ⟪main_arg3⟫ :=
  after_keep v main_arg3 (by decide)
theorem after_main_arg4 (v : Valuation τ sig (Elt F)) : after (allOps (F := F)) v ⟪main_arg4⟫ = v ⟪main_arg4⟫ :=
  after_keep v main_arg4 (by decide)
theorem after_main_arg5 (v : Valuation τ sig (Elt F)) : after (allOps (F := F)) v ⟪main_arg5⟫ = v ⟪main_arg5⟫ :=
  after_keep v main_arg5 (by decide)
theorem after_main_arg6 (v : Valuation τ sig (Elt F)) : after (allOps (F := F)) v ⟪main_arg6⟫ = v ⟪main_arg6⟫ :=
  after_keep v main_arg6 (by decide)
theorem after_main_arg7 (v : Valuation τ sig (Elt F)) : after (allOps (F := F)) v ⟪main_arg7⟫ = v ⟪main_arg7⟫ :=
  after_keep v main_arg7 (by decide)
theorem after_main_arg8 (v : Valuation τ sig (Elt F)) : after (allOps (F := F)) v ⟪main_arg8⟫ = v ⟪main_arg8⟫ :=
  after_keep v main_arg8 (by decide)
theorem after_main_arg9 (v : Valuation τ sig (Elt F)) : after (allOps (F := F)) v ⟪main_arg9⟫ = v ⟪main_arg9⟫ :=
  after_keep v main_arg9 (by decide)
theorem after_main_arg10 (v : Valuation τ sig (Elt F)) : after (allOps (F := F)) v ⟪main_arg10⟫ = v ⟪main_arg10⟫ :=
  after_keep v main_arg10 (by decide)
theorem after_main_arg11 (v : Valuation τ sig (Elt F)) : after (allOps (F := F)) v ⟪main_arg11⟫ = v ⟪main_arg11⟫ :=
  after_keep v main_arg11 (by decide)
theorem after_main_arg12 (v : Valuation τ sig (Elt F)) : after (allOps (F := F)) v ⟪main_arg12⟫ = v ⟪main_arg12⟫ :=
  after_keep v main_arg12 (by decide)
theorem after_main_arg13 (v : Valuation τ sig (Elt F)) : after (allOps (F := F)) v ⟪main_arg13⟫ = v ⟪main_arg13⟫ :=
  after_keep v main_arg13 (by decide)

end Cert.KernelIdeal.KVals
-- ==== Proof.RefValue.lean ====
/-
  The reference's result, named through its stages.

  The reference is a sum of three graph convolutions followed by a parametric ReLU. One convolution, for an edge
  list (src, dst), a weight W and a bias b, is  D_in^{-1/2} A D_out^{-1/2} x W + b : the rows of x are scaled by the
  source normalisation, gathered along src, summed into the rows dst names (`aggR`), scaled by the destination
  normalisation, multiplied by W and shifted by b (`convR`). A normalisation is the degree vector of an index list —
  a sum of ones into the entries the list names, negative entries counted from the end — clamped below by one and
  raised to the power -1/2 (`normR`). The three convolutions are added left to right (`preR`), and the result keeps the
  positive entries and scales the others by the slope (`outR`).

  The definitions spell each stage with the operations of the reference's own text, so that the composed term of
  the reference's run is `outR` of the argument arrays by unfolding alone.
-/
import proofs.«144090_j74285754351670_2_alg».proof.Proof.Gen.ReferenceIdeal

noncomputable section

namespace Cert.ReferenceIdeal.RefValue

open Cert.ReferenceIdeal Cert.ReferenceIdeal.Gen Idealize.ShloMosaic Idealize.ShloMosaic.StableHlo

variable {F : FTy → Type} [FloatOps F]

/-- An index list with its negative entries counted from the end (the number of rows added), as a column. -/
def wrapCol (s : Vec F S1600000 .i32) : Vec F S1600000x1 .i32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The normalisation of an index list: its degree vector (ones summed into the entries the list names), clamped
    below by one, to the power -1/2. -/
def normR (s : Vec F S1600000 .i32) : FVec F S100000 .f32 :=
  Host.powf
    (maximumf (broadcastInDim S100000 ![] bcast_S_S100000 (id (constant S_ .f32 0x3F800000#32)))
      (Host.scatterAdd scatter_S100000_S1600000x1_S1600000_n_0_0_1
        (broadcastInDim S100000 ![] bcast_S_S100000 (constant S_ .f32 0x00000000#32))
        (wrapCol (F := F) s)
        (broadcastInDim S1600000 ![] bcast_S_S1600000 (constant S_ .f32 0x3F800000#32))))
    (broadcastInDim S100000 ![] bcast_S_S100000 (constant S_ .f32 0xBF000000#32))

/-- The destination normalisation is the normalisation of the destination list. -/
abbrev normDstR (dst : Vec F S1600000 .i32) : FVec F S100000 .f32 := normR dst

/-- A vector over the rows, repeated along every row. -/
def rowB (v : FVec F S100000 .f32) : FVec F S100000x128 .f32 :=
  broadcastInDim S100000x128 ![0, 1] bcast_S100000x1_S100000x128_0_1
    (broadcastInDim S100000x1 ![0] bcast_S100000_S100000x1_0 v)

/-- The aggregation: the rows of x scaled by the source normalisation, gathered along src, summed into the rows
    dst names. -/
def aggR (x : FVec F S100000x128 .f32) (src dst : Vec F S1600000 .i32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128
      (mulf x (rowB (normR src))) (wrapCol (F := F) src))

/-- One convolution: the aggregation scaled by the destination normalisation, times W, plus b along every row. -/
def convR (x : FVec F S100000x128 .f32) (src dst : Vec F S1600000 .i32) (W : FVec F S128x128 .f32) (b : FVec F S128 .f32) :
    FVec F S100000x128 .f32 :=
  addf
    (Host.dotGeneral dot_S100000x128_S128x128_S100000x128_1_0_0_1_n_n none (mulf (aggR x src dst) (rowB (normDstR dst))) W)
    (broadcastInDim S100000x128 ![0, 1] bcast_S1x128_S100000x128_0_1 (broadcastInDim S1x128 ![1] bcast_S128_S1x128_1 b))

/-- The three convolutions, added left to right. -/
def preR (x : FVec F S100000x128 .f32) (s0 d0 s1 d1 s2 d2 : Vec F S1600000 .i32)
    (W0 : FVec F S128x128 .f32) (b0 : FVec F S128 .f32) (W1 : FVec F S128x128 .f32) (b1 : FVec F S128 .f32)
    (W2 : FVec F S128x128 .f32) (b2 : FVec F S128 .f32) : FVec F S100000x128 .f32 :=
  addf (addf (convR x s0 d0 W0 b0) (convR x s1 d1 W1 b1)) (convR x s2 d2 W2 b2)

/-- The all-zero array the activation compares with. -/
def zerosR : FVec F S100000x128 .f32 :=
  broadcastInDim S100000x128 ![] bcast_S_S100000x128 (constant S_ .f32 0x00000000#32)

/-- The slope, repeated over the whole array. -/
def slopeR (a : FVec F S1 .f32) : FVec F S100000x128 .f32 :=
  broadcastInDim S100000x128 ![0, 1] bcast_S1x1_S100000x128_0_1 (broadcastInDim S1x1 ![1] bcast_S1_S1x1_1 a)

/-- The activation with slope `a` of an array `h`: `h` where it is positive, the slope times `h` elsewhere. -/
def actR (a : FVec F S1 .f32) (h : FVec F S100000x128 .f32) : FVec F S100000x128 .f32 :=
  select (cmpf .ogt h (zerosR (F := F))) h (mulf (slopeR a) h)

/-- The result: the activation of the sum of the three convolutions. -/
def outR (x : FVec F S100000x128 .f32) (s0 d0 s1 d1 s2 d2 : Vec F S1600000 .i32)
    (W0 : FVec F S128x128 .f32) (b0 : FVec F S128 .f32) (W1 : FVec F S128x128 .f32) (b1 : FVec F S128 .f32)
    (W2 : FVec F S128x128 .f32) (b2 : FVec F S128 .f32) (a : FVec F S1 .f32) : FVec F S100000x128 .f32 :=
  actR a (preR x s0 d0 s1 d1 s2 d2 W0 b0 W1 b1 W2 b2)

/-- The sum of the three convolutions spelled with the operations of the reference's text: each convolution is the product with its
    weight of the aggregation scaled by the destination normalisation, plus its bias along every row. -/
theorem preR_eq (x : FVec F S100000x128 .f32) (s0 d0 s1 d1 s2 d2 : Vec F S1600000 .i32)
    (W0 : FVec F S128x128 .f32) (b0 : FVec F S128 .f32) (W1 : FVec F S128x128 .f32) (b1 : FVec F S128 .f32)
    (W2 : FVec F S128x128 .f32) (b2 : FVec F S128 .f32) :
    preR x s0 d0 s1 d1 s2 d2 W0 b0 W1 b1 W2 b2 =
      addf (addf
        (addf (Host.dotGeneral dot_S100000x128_S128x128_S100000x128_1_0_0_1_n_n none
          (mulf (aggR x s0 d0) (broadcastInDim S100000x128 ![0, 1] bcast_S100000x1_S100000x128_0_1
            (broadcastInDim S100000x1 ![0] bcast_S100000_S100000x1_0 (normDstR d0)))) W0)
        (broadcastInDim S100000x128 ![0, 1] bcast_S1x128_S100000x128_0_1 (broadcastInDim S1x128 ![1] bcast_S128_S1x128_1 b0)))
        (addf (Host.dotGeneral dot_S100000x128_S128x128_S100000x128_1_0_0_1_n_n none
          (mulf (aggR x s1 d1) (broadcastInDim S100000x128 ![0, 1] bcast_S100000x1_S100000x128_0_1
            (broadcastInDim S100000x1 ![0] bcast_S100000_S100000x1_0 (normDstR d1)))) W1)
        (broadcastInDim S100000x128 ![0, 1] bcast_S1x128_S100000x128_0_1 (broadcastInDim S1x128 ![1] bcast_S128_S1x128_1 b1))))
        (addf (Host.dotGeneral dot_S100000x128_S128x128_S100000x128_1_0_0_1_n_n none
          (mulf (aggR x s2 d2) (broadcastInDim S100000x128 ![0, 1] bcast_S100000x1_S100000x128_0_1
            (broadcastInDim S100000x1 ![0] bcast_S100000_S100000x1_0 (normDstR d2)))) W2)
        (broadcastInDim S100000x128 ![0, 1] bcast_S1x128_S100000x128_0_1 (broadcastInDim S1x128 ![1] bcast_S128_S1x128_1 b2))) := rfl

/-- The activation spelled with the operations of the reference's text. -/
theorem actR_eq (a : FVec F S1 .f32) (h : FVec F S100000x128 .f32) :
    actR a h = select (cmpf .ogt h (broadcastInDim S100000x128 ![] bcast_S_S100000x128 (constant S_ .f32 0x00000000#32))) h
      (mulf (broadcastInDim S100000x128 ![0, 1] bcast_S1x1_S100000x128_0_1 (broadcastInDim S1x1 ![1] bcast_S1_S1x1_1 a)) h) := rfl

/-- The result is the activation of the sum of the three convolutions. -/
theorem outR_def (x : FVec F S100000x128 .f32) (s0 d0 s1 d1 s2 d2 : Vec F S1600000 .i32)
    (W0 : FVec F S128x128 .f32) (b0 : FVec F S128 .f32) (W1 : FVec F S128x128 .f32) (b1 : FVec F S128 .f32)
    (W2 : FVec F S128x128 .f32) (b2 : FVec F S128 .f32) (a : FVec F S1 .f32) :
    outR x s0 d0 s1 d1 s2 d2 W0 b0 W1 b1 W2 b2 a = actR a (preR x s0 d0 s1 d1 s2 d2 W0 b0 W1 b1 W2 b2) := rfl

/-- The result spelled with the operations of the reference's text over the sum `H` of the three convolutions. -/
theorem outR_eq (x : FVec F S100000x128 .f32) (s0 d0 s1 d1 s2 d2 : Vec F S1600000 .i32)
    (W0 : FVec F S128x128 .f32) (b0 : FVec F S128 .f32) (W1 : FVec F S128x128 .f32) (b1 : FVec F S128 .f32)
    (W2 : FVec F S128x128 .f32) (b2 : FVec F S128 .f32) (a : FVec F S1 .f32) :
    outR x s0 d0 s1 d1 s2 d2 W0 b0 W1 b1 W2 b2 a =
      select
        (cmpf .ogt
          (addf (addf
            (addf (Host.dotGeneral dot_S100000x128_S128x128_S100000x128_1_0_0_1_n_n none
                (mulf (aggR x s0 d0) (broadcastInDim S100000x128 ![0, 1] bcast_S100000x1_S100000x128_0_1
                  (broadcastInDim S100000x1 ![0] bcast_S100000_S100000x1_0 (normDstR d0)))) W0)
              (broadcastInDim S100000x128 ![0, 1] bcast_S1x128_S100000x128_0_1 (broadcastInDim S1x128 ![1] bcast_S128_S1x128_1 b0)))
            (addf (Host.dotGeneral dot_S100000x128_S128x128_S100000x128_1_0_0_1_n_n none
                (mulf (aggR x s1 d1) (broadcastInDim S100000x128 ![0, 1] bcast_S100000x1_S100000x128_0_1
                  (broadcastInDim S100000x1 ![0] bcast_S100000_S100000x1_0 (normDstR d1)))) W1)
              (broadcastInDim S100000x128 ![0, 1] bcast_S1x128_S100000x128_0_1 (broadcastInDim S1x128 ![1] bcast_S128_S1x128_1 b1))))
            (addf (Host.dotGeneral dot_S100000x128_S128x128_S100000x128_1_0_0_1_n_n none
                (mulf (aggR x s2 d2) (broadcastInDim S100000x128 ![0, 1] bcast_S100000x1_S100000x128_0_1
                  (broadcastInDim S100000x1 ![0] bcast_S100000_S100000x1_0 (normDstR d2)))) W2)
              (broadcastInDim S100000x128 ![0, 1] bcast_S1x128_S100000x128_0_1 (broadcastInDim S1x128 ![1] bcast_S128_S1x128_1 b2))))
          (broadcastInDim S100000x128 ![] bcast_S_S100000x128 (constant S_ .f32 0x00000000#32)))
        (preR x s0 d0 s1 d1 s2 d2 W0 b0 W1 b1 W2 b2)
        (mulf (broadcastInDim S100000x128 ![0, 1] bcast_S1x1_S100000x128_0_1 (broadcastInDim S1x1 ![1] bcast_S1_S1x1_1 a))
          (preR x s0 d0 s1 d1 s2 d2 W0 b0 W1 b1 W2 b2)) := rfl

end Cert.ReferenceIdeal.RefValue

end
-- ==== Proof.LibConcat3.lean ====
/-
  Three arrays of ONE shape laid side by side, read at an index.

  Joining `x0`, `x1`, `x2` of shape `[R, C]` along the column axis gives an array of shape `[R, T]` (with
  `T = 3 · C`) whose entry at row `k` and column `n · C + j` (`n` = 0, 1, 2 and `j < C`) is entry `(k, j)` of piece
  `n`; likewise three vectors of length `C` joined end to end. The index read is any index whose coordinates
  have those values, so the lemmas apply to an index however it was composed. Each is the general
  reading of a concatenation at the piece whose span holds the joined coordinate, with the extents before
  that piece summed: `0`, `C`, `C + C`.
-/
import Idealize.ShloMosaic.Lib.Pipeline.Value
import Idealize.ShloMosaic.Lib.ValueIdx

namespace Cert.Lib.Concat3

open Idealize.ShloMosaic Idealize.ShloMosaic.ValueIdx

variable {α : Type}

/-! ## Three `[R, C]` arrays joined along the columns -/

/-- A column in the FIRST piece's span: entry `(k, j)` of `x0`. -/
theorem cols_first {R C T : Nat} (x0 x1 x2 : (⟨2, ![R, C]⟩ : Shape).Idx → α)
    (h : Shape.Concatenates (([⟨⟨2, ![R, C]⟩, x0⟩, ⟨⟨2, ![R, C]⟩, x1⟩, ⟨⟨2, ![R, C]⟩, x2⟩] : List ((s : Shape) × (s.Idx → α))).map (·.1)) ⟨2, ![R, T]⟩ 1)
    (J : (⟨2, ![R, T]⟩ : Shape).Idx) (k : Fin R) (j : Fin C) (h0 : (J 0).val = k.val) (h1 : (J 1).val = j.val) :
    concatenate ⟨2, ![R, T]⟩ 1 [⟨⟨2, ![R, C]⟩, x0⟩, ⟨⟨2, ![R, C]⟩, x1⟩, ⟨⟨2, ![R, C]⟩, x2⟩] h J = x0 (ix2 k j) :=
  concatenate_apply_piece 1 _ h J 0 (Nat.succ_le_succ (Nat.zero_le 2)) ⟨2, ![R, C]⟩ x0 rfl rfl 0 rfl (ix2 k j)
    (fun b hb => by
      match b with
      | ⟨0, _⟩ => exact h0.symm
      | ⟨1, _⟩ => exact absurd (Fin.ext rfl) hb)
    (by show 0 + j.val = (J 1).val; omega)

/-- A column in the SECOND piece's span: entry `(k, j)` of `x1`. -/
theorem cols_second {R C T : Nat} (x0 x1 x2 : (⟨2, ![R, C]⟩ : Shape).Idx → α)
    (h : Shape.Concatenates (([⟨⟨2, ![R, C]⟩, x0⟩, ⟨⟨2, ![R, C]⟩, x1⟩, ⟨⟨2, ![R, C]⟩, x2⟩] : List ((s : Shape) × (s.Idx → α))).map (·.1)) ⟨2, ![R, T]⟩ 1)
    (J : (⟨2, ![R, T]⟩ : Shape).Idx) (k : Fin R) (j : Fin C) (h0 : (J 0).val = k.val) (h1 : (J 1).val = C + j.val) :
    concatenate ⟨2, ![R, T]⟩ 1 [⟨⟨2, ![R, C]⟩, x0⟩, ⟨⟨2, ![R, C]⟩, x1⟩, ⟨⟨2, ![R, C]⟩, x2⟩] h J = x1 (ix2 k j) :=
  concatenate_apply_piece 1 _ h J 1 (Nat.succ_le_succ (Nat.succ_le_succ (Nat.zero_le 1))) ⟨2, ![R, C]⟩ x1 rfl rfl C (by show C + 0 = C; omega) (ix2 k j)
    (fun b hb => by
      match b with
      | ⟨0, _⟩ => exact h0.symm
      | ⟨1, _⟩ => exact absurd (Fin.ext rfl) hb)
    (by show C + j.val = (J 1).val; omega)

/-- A column in the THIRD piece's span: entry `(k, j)` of `x2`. -/
theorem cols_third {R C T : Nat} (x0 x1 x2 : (⟨2, ![R, C]⟩ : Shape).Idx → α)
    (h : Shape.Concatenates (([⟨⟨2, ![R, C]⟩, x0⟩, ⟨⟨2, ![R, C]⟩, x1⟩, ⟨⟨2, ![R, C]⟩, x2⟩] : List ((s : Shape) × (s.Idx → α))).map (·.1)) ⟨2, ![R, T]⟩ 1)
    (J : (⟨2, ![R, T]⟩ : Shape).Idx) (k : Fin R) (j : Fin C) (h0 : (J 0).val = k.val) (h1 : (J 1).val = C + C + j.val) :
    concatenate ⟨2, ![R, T]⟩ 1 [⟨⟨2, ![R, C]⟩, x0⟩, ⟨⟨2, ![R, C]⟩, x1⟩, ⟨⟨2, ![R, C]⟩, x2⟩] h J = x2 (ix2 k j) :=
  concatenate_apply_piece 1 _ h J 2 (Nat.succ_le_succ (Nat.succ_le_succ (Nat.succ_le_succ (Nat.zero_le 0)))) ⟨2, ![R, C]⟩ x2 rfl rfl (C + C) (by show C + (C + 0) = C + C; omega) (ix2 k j)
    (fun b hb => by
      match b with
      | ⟨0, _⟩ => exact h0.symm
      | ⟨1, _⟩ => exact absurd (Fin.ext rfl) hb)
    (by show C + C + j.val = (J 1).val; omega)

/-! ## Three vectors of length `C` joined end to end -/

/-- A position in the FIRST vector's span. -/
theorem vec_first {C T : Nat} (x0 x1 x2 : (⟨1, ![C]⟩ : Shape).Idx → α)
    (h : Shape.Concatenates (([⟨⟨1, ![C]⟩, x0⟩, ⟨⟨1, ![C]⟩, x1⟩, ⟨⟨1, ![C]⟩, x2⟩] : List ((s : Shape) × (s.Idx → α))).map (·.1)) ⟨1, ![T]⟩ 0)
    (J : (⟨1, ![T]⟩ : Shape).Idx) (j : Fin C) (h0 : (J 0).val = j.val) :
    concatenate ⟨1, ![T]⟩ 0 [⟨⟨1, ![C]⟩, x0⟩, ⟨⟨1, ![C]⟩, x1⟩, ⟨⟨1, ![C]⟩, x2⟩] h J = x0 (ix1 j) :=
  concatenate_apply_piece 0 _ h J 0 (Nat.succ_le_succ (Nat.zero_le 2)) ⟨1, ![C]⟩ x0 rfl rfl 0 rfl (ix1 j)
    (fun b hb => by
      match b with
      | ⟨0, _⟩ => exact absurd (Fin.ext rfl) hb)
    (by show 0 + j.val = (J 0).val; omega)

/-- A position in the SECOND vector's span. -/
theorem vec_second {C T : Nat} (x0 x1 x2 : (⟨1, ![C]⟩ : Shape).Idx → α)
    (h : Shape.Concatenates (([⟨⟨1, ![C]⟩, x0⟩, ⟨⟨1, ![C]⟩, x1⟩, ⟨⟨1, ![C]⟩, x2⟩] : List ((s : Shape) × (s.Idx → α))).map (·.1)) ⟨1, ![T]⟩ 0)
    (J : (⟨1, ![T]⟩ : Shape).Idx) (j : Fin C) (h0 : (J 0).val = C + j.val) :
    concatenate ⟨1, ![T]⟩ 0 [⟨⟨1, ![C]⟩, x0⟩, ⟨⟨1, ![C]⟩, x1⟩, ⟨⟨1, ![C]⟩, x2⟩] h J = x1 (ix1 j) :=
  concatenate_apply_piece 0 _ h J 1 (Nat.succ_le_succ (Nat.succ_le_succ (Nat.zero_le 1))) ⟨1, ![C]⟩ x1 rfl rfl C (by show C + 0 = C; omega) (ix1 j)
    (fun b hb => by
      match b with
      | ⟨0, _⟩ => exact absurd (Fin.ext rfl) hb)
    (by show C + j.val = (J 0).val; omega)

/-- A position in the THIRD vector's span. -/
theorem vec_third {C T : Nat} (x0 x1 x2 : (⟨1, ![C]⟩ : Shape).Idx → α)
    (h : Shape.Concatenates (([⟨⟨1, ![C]⟩, x0⟩, ⟨⟨1, ![C]⟩, x1⟩, ⟨⟨1, ![C]⟩, x2⟩] : List ((s : Shape) × (s.Idx → α))).map (·.1)) ⟨1, ![T]⟩ 0)
    (J : (⟨1, ![T]⟩ : Shape).Idx) (j : Fin C) (h0 : (J 0).val = C + C + j.val) :
    concatenate ⟨1, ![T]⟩ 0 [⟨⟨1, ![C]⟩, x0⟩, ⟨⟨1, ![C]⟩, x1⟩, ⟨⟨1, ![C]⟩, x2⟩] h J = x2 (ix1 j) :=
  concatenate_apply_piece 0 _ h J 2 (Nat.succ_le_succ (Nat.succ_le_succ (Nat.succ_le_succ (Nat.zero_le 0)))) ⟨1, ![C]⟩ x2 rfl rfl (C + C) (by show C + (C + 0) = C + C; omega) (ix1 j)
    (fun b hb => by
      match b with
      | ⟨0, _⟩ => exact absurd (Fin.ext rfl) hb)
    (by show C + C + j.val = (J 0).val; omega)

end Cert.Lib.Concat3
-- ==== Proof.KRefBridge.lean ====
/-
  The kernel's host values are the reference's stages.

  Before its grid region the kernel computes, for each relation, the same normalisation vectors and the same
  aggregate as the reference — the degree of an index list clamped below by one to the power -1/2; the rows of x
  scaled by the source normalisation, gathered along the sources, summed into the destination rows — except that it
  rounds the scaled rows and the aggregate to a narrower float format and widens the gathered rows back. Over the
  extended reals a change of float format is the identity, so the kernel's aggregate and normalisation ARE the
  reference's, as functions of the argument arrays: the gather, the sum into rows and the power are never opened,
  only met with equal operands.

  The kernel's three small operands are read at an index: the three destination normalisations laid side by side as
  the columns of one array, the three biases summed and made a row, the slope made a 1 × 1 array.
-/
import proofs.«144090_j74285754351670_2_alg».proof.Proof.KVals
import proofs.«144090_j74285754351670_2_alg».proof.Proof.RefValue
import proofs.«144090_j74285754351670_2_alg».proof.Proof.LibConcat3
import Idealize.ShloMosaic.Lib.ValueLayout
import Idealize.ShloMosaic.Lib.ValueIdx
import Idealize.ShloMosaic.Lib.Pipeline.Value
import Idealize.ShloMosaic.PureOps.Ideal.Laws

noncomputable section

namespace Cert.Bridge

open Idealize.ShloMosaic Idealize.ShloMosaic.ValueIdx Cert.KernelIdeal.KVals Cert.ReferenceIdeal.RefValue

/-! ## A change of float format is the identity on extended reals -/

/-- Narrowing the format leaves every entry as it is. -/
theorem truncf_id {s : Shape} {φ ψ : FTy} (v : FVec Ideal s φ) (h : ψ.bits < φ.bits) : (truncf ψ v h : FVec Ideal s ψ) = v := rfl

/-- Widening the format leaves every entry as it is. -/
theorem extf_id {s : Shape} {φ ψ : FTy} (v : FVec Ideal s φ) (h : φ.bits < ψ.bits) : (extf ψ v h : FVec Ideal s ψ) = v := rfl

/-! ## The two programs' normalisation and aggregation are the same functions -/

/-- The normalisation vector of an index list is the same function in both programs. -/
theorem norm_eq (i : IVec Cert.ReferenceIdeal.S1600000 32) : normK (F := Ideal) i = normR (F := Ideal) i := rfl

/-- The destination normalisation is the same function in both programs. -/
theorem normDst_eq (dst : IVec Cert.ReferenceIdeal.S1600000 32) : normDstK (F := Ideal) dst = normDstR (F := Ideal) dst := rfl

/-- The aggregate is the same function in both programs: the kernel's two roundings to the narrow format and its
    widening between them change nothing. -/
theorem agg_eq (x : FVec Ideal Cert.ReferenceIdeal.S100000x128 .f32) (src dst : IVec Cert.ReferenceIdeal.S1600000 32) :
    (aggK (F := Ideal) x src dst : Cert.KernelIdeal.S100000x128.Idx → EReal) = aggR (F := Ideal) x src dst := by
  unfold aggK aggOfK scaledK
  rw [truncf_id, extf_id, truncf_id, norm_eq]
  rfl

/-! ## The kernel's small operands read at an index -/

/-- A vector over the nodes made a column, at (p, 0): the vector's entry p. -/
theorem col_apply (n : FVec Ideal Cert.KernelIdeal.S100000 .f32) (p : Fin 100000) :
    broadcastInDim Cert.KernelIdeal.S100000x1 ![0] Cert.KernelIdeal.Gen.bcast_S100000_S100000x1_0 n (ix2 p (0 : Fin 1)) = n (ix1 p) :=
  broadcastInDim_apply ![0] Cert.KernelIdeal.Gen.bcast_S100000_S100000x1_0 n (ix2 p (0 : Fin 1)) (ix1 p) fun a => by
    match a with
    | ⟨0, _⟩ => rfl

/-- The three normalisation vectors side by side: column 0 is the first. -/
theorem norms_apply0 (n0 n1 n2 : FVec Ideal Cert.KernelIdeal.S100000 .f32) (p : Fin 100000) :
    normsK (F := Ideal) n0 n1 n2 (ix2 p (0 : Fin 3)) = n0 (ix1 p) := by
  unfold normsK
  rw [Cert.Lib.Concat3.cols_first (R := 100000) (C := 1) (T := 3) _ _ _ _ (ix2 p (0 : Fin 3)) p (0 : Fin 1) rfl rfl]
  exact col_apply n0 p

/-- The three normalisation vectors side by side: column 1 is the second. -/
theorem norms_apply1 (n0 n1 n2 : FVec Ideal Cert.KernelIdeal.S100000 .f32) (p : Fin 100000) :
    normsK (F := Ideal) n0 n1 n2 (ix2 p (1 : Fin 3)) = n1 (ix1 p) := by
  unfold normsK
  rw [Cert.Lib.Concat3.cols_second (R := 100000) (C := 1) (T := 3) _ _ _ _ (ix2 p (1 : Fin 3)) p (0 : Fin 1) rfl rfl]
  exact col_apply n1 p

/-- The three normalisation vectors side by side: column 2 is the third. -/
theorem norms_apply2 (n0 n1 n2 : FVec Ideal Cert.KernelIdeal.S100000 .f32) (p : Fin 100000) :
    normsK (F := Ideal) n0 n1 n2 (ix2 p (2 : Fin 3)) = n2 (ix1 p) := by
  unfold normsK
  rw [Cert.Lib.Concat3.cols_third (R := 100000) (C := 1) (T := 3) _ _ _ _ (ix2 p (2 : Fin 3)) p (0 : Fin 1) rfl rfl]
  exact col_apply n2 p

/-- The summed bias as a row, at (0, q): the three biases' entries q added left to right. -/
theorem bias_apply (b0 b1 b2 : FVec Ideal Cert.KernelIdeal.S128 .f32) (q : Fin 128) :
    biasK (F := Ideal) b0 b1 b2 (ix2 (0 : Fin 1) q) = (b0 (ix1 q) + b1 (ix1 q)) + b2 (ix1 q) := by
  unfold biasK
  rw [shapeCast_a_1a_apply (a := 128) _ _ (0 : Fin 1) q]
  rfl

/-- The slope as a 1×1 array, at (0, 0): the slope. -/
theorem slope_apply (a : FVec Ideal Cert.KernelIdeal.S1 .f32) :
    aK (F := Ideal) a (ix2 (0 : Fin 1) (0 : Fin 1)) = a (ix1 (0 : Fin 1)) := by
  unfold aK
  exact shapeCast_a_1a_apply (a := 1) _ _ (0 : Fin 1) (0 : Fin 1)

end Cert.Bridge

end
-- ==== Proof.RefSpec.lean ====
/-
  The reference's result is the slope-rectifier of the pre-activation, entry by entry.

  Read at node p and feature q, each stage of the reference's result is its mathematical meaning over the extended
  reals: a vector over the nodes repeated along every row is that vector's entry p; a bias repeated down every
  column is its entry q; the slope repeated over the whole array is the slope; the all-zero array is zero; a product
  with a weight matrix is the sum over k of the products of entries. So one convolution is
  Σ_k (A(p,k) · n(p)) · W(k,q) + b(q) with A the aggregation and n the destination normalisation, the sum of the
  three convolutions is the pre-activation in the reference's grouping, and the result is that number where it is
  positive and the slope times it elsewhere. The aggregation and the normalisation stay folded: nothing here reads
  inside a gather, a scatter or a power.
-/
import proofs.«144090_j74285754351670_2_alg».proof.Proof.RefValue
import proofs.«144090_j74285754351670_2_alg».proof.Proof.Spec
import proofs.«144090_j74285754351670_2_alg».proof.Proof.LibDotLists
import proofs.«144090_j74285754351670_2_alg».proof.Proof.LibMatProd
import Idealize.ShloMosaic.Lib.Pipeline.Value
import Idealize.ShloMosaic.Lib.ValueIdx

noncomputable section

namespace Cert.ReferenceIdeal.RefValue

open Cert.ReferenceIdeal Cert.ReferenceIdeal.Gen Idealize.ShloMosaic Idealize.ShloMosaic.ValueIdx Cert.Linear Cert.GraphConv

/-- A vector over the nodes repeated along every row, at (p, q): the vector's entry p. -/
theorem rowB_apply (v : FVec Ideal S100000 .f32) (p : Fin 100000) (q : Fin 128) :
    rowB (F := Ideal) v (ix2 p q) = v (ix1 p) := by
  unfold rowB
  have e2 : broadcastInDim S100000x128 ![0, 1] bcast_S100000x1_S100000x128_0_1
        (broadcastInDim S100000x1 ![0] bcast_S100000_S100000x1_0 v) (ix2 p q)
      = broadcastInDim S100000x1 ![0] bcast_S100000_S100000x1_0 v (ix2 p (0 : Fin 1)) :=
    broadcastInDim_apply ![0, 1] bcast_S100000x1_S100000x128_0_1 _ (ix2 p q) (ix2 p (0 : Fin 1)) fun a => by
      match a with
      | ⟨0, _⟩ => rfl
      | ⟨1, _⟩ => rfl
  have e1 : broadcastInDim S100000x1 ![0] bcast_S100000_S100000x1_0 v (ix2 p (0 : Fin 1)) = v (ix1 p) :=
    broadcastInDim_apply ![0] bcast_S100000_S100000x1_0 v (ix2 p (0 : Fin 1)) (ix1 p) fun a => by
      match a with
      | ⟨0, _⟩ => rfl
  rw [e2, e1]

/-- An array with each row p multiplied by the p-th entry of a vector over the nodes is `scaleRows`. -/
theorem mulf_rowB (A : FVec Ideal S100000x128 .f32) (v : FVec Ideal S100000 .f32) :
    mulf A (rowB (F := Ideal) v) = scaleRows (R := 100000) (K := 128) A (fun p => v (ix1 p)) := by
  funext i
  obtain ⟨p, q, rfl⟩ : ∃ (p : Fin 100000) (q : Fin 128), i = ix2 p q := ⟨i 0, i 1, eq_ix2 i⟩
  show A (ix2 p q) * rowB (F := Ideal) v (ix2 p q) = A (ix2 p q) * v (ix1 p)
  rw [rowB_apply]

/-- A bias vector repeated down every column, at (p, q): its entry q. -/
theorem bias_apply (b : FVec Ideal S128 .f32) (p : Fin 100000) (q : Fin 128) :
    broadcastInDim S100000x128 ![0, 1] bcast_S1x128_S100000x128_0_1 (broadcastInDim S1x128 ![1] bcast_S128_S1x128_1 b) (ix2 p q)
      = b (ix1 q) := by
  have e2 : broadcastInDim S100000x128 ![0, 1] bcast_S1x128_S100000x128_0_1 (broadcastInDim S1x128 ![1] bcast_S128_S1x128_1 b) (ix2 p q)
      = broadcastInDim S1x128 ![1] bcast_S128_S1x128_1 b (ix2 (0 : Fin 1) q) :=
    broadcastInDim_apply ![0, 1] bcast_S1x128_S100000x128_0_1 _ (ix2 p q) (ix2 (0 : Fin 1) q) fun a => by
      match a with
      | ⟨0, _⟩ => rfl
      | ⟨1, _⟩ => rfl
  have e1 : broadcastInDim S1x128 ![1] bcast_S128_S1x128_1 b (ix2 (0 : Fin 1) q) = b (ix1 q) :=
    broadcastInDim_apply ![1] bcast_S128_S1x128_1 b (ix2 (0 : Fin 1) q) (ix1 q) fun a => by
      match a with
      | ⟨0, _⟩ => rfl
  rw [e2, e1]

/-- The slope repeated over the whole array, at (p, q): the slope. -/
theorem slopeR_apply (a : FVec Ideal S1 .f32) (p : Fin 100000) (q : Fin 128) :
    slopeR (F := Ideal) a (ix2 p q) = a (ix1 (0 : Fin 1)) := by
  unfold slopeR
  have e2 : broadcastInDim S100000x128 ![0, 1] bcast_S1x1_S100000x128_0_1 (broadcastInDim S1x1 ![1] bcast_S1_S1x1_1 a) (ix2 p q)
      = broadcastInDim S1x1 ![1] bcast_S1_S1x1_1 a (ix2 (0 : Fin 1) (0 : Fin 1)) :=
    broadcastInDim_apply ![0, 1] bcast_S1x1_S100000x128_0_1 _ (ix2 p q) (ix2 (0 : Fin 1) (0 : Fin 1)) fun a => by
      match a with
      | ⟨0, _⟩ => rfl
      | ⟨1, _⟩ => rfl
  have e1 : broadcastInDim S1x1 ![1] bcast_S1_S1x1_1 a (ix2 (0 : Fin 1) (0 : Fin 1)) = a (ix1 (0 : Fin 1)) :=
    broadcastInDim_apply ![1] bcast_S1_S1x1_1 a (ix2 (0 : Fin 1) (0 : Fin 1)) (ix1 (0 : Fin 1)) fun a => by
      match a with
      | ⟨0, _⟩ => rfl
  rw [e2, e1]

/-- The all-zero array, at (p, q): the zero word's value. -/
theorem zerosR_apply (p : Fin 100000) (q : Fin 128) :
    zerosR (F := Ideal) (ix2 p q) = Ideal.ofBits .f32 0x00000000#32 := by
  unfold zerosR
  exact broadcastInDim_apply ![] bcast_S_S100000x128 _ (ix2 p q) ix0 fun a => a.elim0

/-- The reference's dimension record contracts the left operand's columns with the right operand's rows. -/
theorem dot_contracts : Contracts (R := 100000) (K := 128) (N := 128) dot_S100000x128_S128x128_S100000x128_1_0_0_1_n_n :=
  contracts_of_lists _ rfl rfl rfl rfl rfl rfl

/-- One convolution at (p, q): the product of the scaled aggregation with the weight, plus the bias's entry q. -/
theorem convR_apply (x : FVec Ideal S100000x128 .f32) (s d : Vec Ideal S1600000 .i32) (W : FVec Ideal S128x128 .f32)
    (b : FVec Ideal S128 .f32) (p : Fin 100000) (q : Fin 128) :
    convR (F := Ideal) x s d W b (ix2 p q)
      = matProd (R := 100000) (K := 128) (N := 128) (scaleRows (aggR x s d) (fun p => normDstR d (ix1 p))) W (ix2 p q)
        + b (ix1 q) := by
  unfold convR
  rw [addf_apply, bias_apply, mulf_rowB]
  simp only [Host.dotGeneral]
  rw [dotGeneral_eq dot_contracts]

/-- The sum of the three convolutions is the pre-activation in the reference's grouping. -/
theorem preR_spec (x : FVec Ideal S100000x128 .f32) (s0 d0 s1 d1 s2 d2 : Vec Ideal S1600000 .i32)
    (W0 : FVec Ideal S128x128 .f32) (b0 : FVec Ideal S128 .f32) (W1 : FVec Ideal S128x128 .f32) (b1 : FVec Ideal S128 .f32)
    (W2 : FVec Ideal S128x128 .f32) (b2 : FVec Ideal S128 .f32) :
    preR (F := Ideal) x s0 d0 s1 d1 s2 d2 W0 b0 W1 b1 W2 b2
      = preRef (R := 100000) (K := 128) (N := 128) (aggR x s0 d0) (aggR x s1 d1) (aggR x s2 d2)
          (fun p => normDstR d0 (ix1 p)) (fun p => normDstR d1 (ix1 p)) (fun p => normDstR d2 (ix1 p)) W0 W1 W2
          (fun q => b0 (ix1 q)) (fun q => b1 (ix1 q)) (fun q => b2 (ix1 q)) := by
  funext i
  obtain ⟨p, q, rfl⟩ : ∃ (p : Fin 100000) (q : Fin 128), i = ix2 p q := ⟨i 0, i 1, eq_ix2 i⟩
  unfold preR preRef
  rw [addf_apply, addf_apply, convR_apply, convR_apply, convR_apply]

/-- The reference's result is the slope-rectifier, with the slope's one entry, of the pre-activation. -/
theorem outR_spec (x : FVec Ideal S100000x128 .f32) (s0 d0 s1 d1 s2 d2 : Vec Ideal S1600000 .i32)
    (W0 : FVec Ideal S128x128 .f32) (b0 : FVec Ideal S128 .f32) (W1 : FVec Ideal S128x128 .f32) (b1 : FVec Ideal S128 .f32)
    (W2 : FVec Ideal S128x128 .f32) (b2 : FVec Ideal S128 .f32) (a : FVec Ideal S1 .f32) :
    outR (F := Ideal) x s0 d0 s1 d1 s2 d2 W0 b0 W1 b1 W2 b2 a
      = rectify (R := 100000) (N := 128) (a (ix1 (0 : Fin 1)))
          (preRef (R := 100000) (K := 128) (N := 128) (aggR x s0 d0) (aggR x s1 d1) (aggR x s2 d2)
            (fun p => normDstR d0 (ix1 p)) (fun p => normDstR d1 (ix1 p)) (fun p => normDstR d2 (ix1 p)) W0 W1 W2
            (fun q => b0 (ix1 q)) (fun q => b1 (ix1 q)) (fun q => b2 (ix1 q))) := by
  rw [← preR_spec]
  funext i
  obtain ⟨p, q, rfl⟩ : ∃ (p : Fin 100000) (q : Fin 128), i = ix2 p q := ⟨i 0, i 1, eq_ix2 i⟩
  unfold outR actR rectify
  rw [select_apply, cmpf_apply, mulf_apply, zerosR_apply, slopeR_apply]

end Cert.ReferenceIdeal.RefValue

end
-- ==== Proof.KRef.lean ====
/-
  The kernel's result array and the reference's result are one function of the launch arguments.

  The kernel's result array is the slope-rectifier of the pre-activation in the kernel's grouping — the three
  products summed first, one bias row added last — taken at the arrays the kernel's host prefix computes: the three
  aggregates, the three destination normalisations as the columns of one array, the summed bias as a row, the slope
  as a 1 × 1 array. The reference's result is the slope-rectifier of the pre-activation in the reference's grouping.
  The aggregates and the normalisations are the same functions in both programs; column c of the normalisation
  array is the c-th normalisation vector; the bias row's entry q is the sum of the three biases' entries q; the
  1 × 1 array's entry is the slope. With the kernel's bias the sum of the three, the two groupings are one function.
-/
import proofs.«144090_j74285754351670_2_alg».proof.Proof.KArray
import proofs.«144090_j74285754351670_2_alg».proof.Proof.KRefBridge
import proofs.«144090_j74285754351670_2_alg».proof.Proof.RefSpec

noncomputable section

namespace Cert.Bridge

open Idealize.ShloMosaic Idealize.ShloMosaic.ValueIdx Cert.KernelIdeal.KVals Cert.ReferenceIdeal.RefValue
open Cert.Linear Cert.GraphConv

/-- The kernel's result array at the host prefix's values is the reference's result. -/
theorem outArray_eq_outR (x : FVec Ideal Cert.ReferenceIdeal.S100000x128 .f32)
    (s0 d0 s1 d1 s2 d2 : IVec Cert.ReferenceIdeal.S1600000 32)
    (W0 : FVec Ideal Cert.ReferenceIdeal.S128x128 .f32) (b0 : FVec Ideal Cert.ReferenceIdeal.S128 .f32)
    (W1 : FVec Ideal Cert.ReferenceIdeal.S128x128 .f32) (b1 : FVec Ideal Cert.ReferenceIdeal.S128 .f32)
    (W2 : FVec Ideal Cert.ReferenceIdeal.S128x128 .f32) (b2 : FVec Ideal Cert.ReferenceIdeal.S128 .f32)
    (a : FVec Ideal Cert.ReferenceIdeal.S1 .f32) :
    Cert.KernelIdeal.KArray.outArray (aggK (F := Ideal) x s0 d0) (aggK (F := Ideal) x s1 d1) (aggK (F := Ideal) x s2 d2)
        (normsK (F := Ideal) (normDstK (F := Ideal) d0) (normDstK (F := Ideal) d1) (normDstK (F := Ideal) d2)) W0 W1 W2 (biasK (F := Ideal) b0 b1 b2) (aK (F := Ideal) a)
      = outR (F := Ideal) x s0 d0 s1 d1 s2 d2 W0 b0 W1 b1 W2 b2 a := by
  have h0 : (fun p : Fin 100000 => normsK (F := Ideal) (normDstK (F := Ideal) d0) (normDstK (F := Ideal) d1) (normDstK (F := Ideal) d2) (ix2 p (0 : Fin 3)))
      = fun p => normDstR (F := Ideal) d0 (ix1 p) := funext fun p => by rw [norms_apply0, normDst_eq]
  have h1 : (fun p : Fin 100000 => normsK (F := Ideal) (normDstK (F := Ideal) d0) (normDstK (F := Ideal) d1) (normDstK (F := Ideal) d2) (ix2 p (1 : Fin 3)))
      = fun p => normDstR (F := Ideal) d1 (ix1 p) := funext fun p => by rw [norms_apply1, normDst_eq]
  have h2 : (fun p : Fin 100000 => normsK (F := Ideal) (normDstK (F := Ideal) d0) (normDstK (F := Ideal) d1) (normDstK (F := Ideal) d2) (ix2 p (2 : Fin 3)))
      = fun p => normDstR (F := Ideal) d2 (ix1 p) := funext fun p => by rw [norms_apply2, normDst_eq]
  have hb : (fun q : Fin 128 => biasK (F := Ideal) b0 b1 b2 (ix2 (0 : Fin 1) q))
      = fun q => (b0 (ix1 q) + b1 (ix1 q)) + b2 (ix1 q) := funext fun q => bias_apply b0 b1 b2 q
  rw [outR_spec, ← preSum_eq_preRef]
  unfold Cert.KernelIdeal.KArray.outArray
  rw [slope_apply, agg_eq, agg_eq, agg_eq, h0, h1, h2, hb]

end Cert.Bridge

end
-- ==== Proof.RefRun.lean ====
/-
  The reference's run, with its result named.

  Every weakly fair execution of the reference terminates; on every device the result array ends at `outR` of the
  argument arrays as the launch found them (the sum of the three graph convolutions under the parametric ReLU:
  RefValue.lean), and the fourteen argument arrays end unchanged. The run's composed term of the arguments is `outR` of
  them by unfolding the stages' definitions. Dropping the result leaves the reference's frame.
-/
import proofs.«144090_j74285754351670_2_alg».proof.Proof.Gen.ReferenceIdeal.Run
import proofs.«144090_j74285754351670_2_alg».proof.Proof.Gen.Pre_finite_inputs
import proofs.«144090_j74285754351670_2_alg».proof.Proof.RefValue
import proofs.«144090_j74285754351670_2_alg».proof.Defs

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The result on device `c`: `outR` of the argument arrays of memory `m` there. -/
def resR (m : (ℓ : Loc nD τ sig) → Buf (Elt F) ℓ) (c : Dev nD) : Buf (Elt F) ((c.tc : Thread nD τ).loc main_v136) :=
  outR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))

/-- `resR` is `outR` of the argument arrays. -/
theorem resR_eq (m : (ℓ : Loc nD τ sig) → Buf (Elt F) ℓ) (c : Dev nD) :
    resR m c = outR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := rfl

set_option maxRecDepth 8192 in
/-- The run's composed term of the arguments is `outR` of them: the stages are that term's subterms. -/
theorem result_eq (m : (ℓ : Loc nD τ sig) → Buf (Elt F) ℓ) (c : Dev nD) :
    Cert.ReferenceIdeal.Value.res_main_v136 m c = resR m c := rfl

/-- On every device, from any memory with zero counters: every weakly fair execution of the reference terminates with
    the result at `resR` and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v136) = resR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c).1.trans (result_eq m c), (h c).2⟩) (Cert.ReferenceIdeal.Value.run m ρ)

/-- The reference's frame: its run with the result dropped. -/
theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2) (run (F := Ideal) m ρ)

end Cert.ReferenceIdeal.RefValue

end
-- ==== Proof.lean ====
/-
  The certificate's claims.

  Both programs compute one layer of a three-relation graph convolution with a slope-rectifier. The kernel program
  runs the gathers and scatter-adds of the three relations on the host, then one kernel region over 25 blocks of 4000
  rows that scales each aggregate by its destination norms, multiplies by the relation's weights, sums the three
  products, adds the summed bias and rectifies; the reference does the same with each relation's bias added to its
  own product. The frames: each program runs to the end and leaves its fourteen argument arrays unchanged (the
  kernel program's frame at the word level and at the extended reals; the reference's is its run with the result
  dropped). The idealisation rewrote no operation, so its conjunct is trivial. The algebraic claim: the kernel's
  result array is `outArray` of the arrays the region finds, those arrays are the same host terms of the arguments as
  the reference's (changes of float format being the identity on the extended reals), and the two groupings of the
  bias agree because addition of extended reals is commutative and associative.
-/
import proofs.«144090_j74285754351670_2_alg».proof.Defs
import proofs.«144090_j74285754351670_2_alg».proof.Proof.Gen.Kernel
import proofs.«144090_j74285754351670_2_alg».proof.Proof.Gen.KernelIdeal
import proofs.«144090_j74285754351670_2_alg».proof.Proof.Gen.ReferenceIdeal
import proofs.«144090_j74285754351670_2_alg».proof.Proof.Gen.Pre_finite_inputs
import proofs.«144090_j74285754351670_2_alg».proof.Proof.KFrameBits
import proofs.«144090_j74285754351670_2_alg».proof.Proof.KArray
import proofs.«144090_j74285754351670_2_alg».proof.Proof.KVals
import proofs.«144090_j74285754351670_2_alg».proof.Proof.KRef
import proofs.«144090_j74285754351670_2_alg».proof.Proof.RefRun
import Idealize.ShloMosaic.Adequacy
import Idealize.ShloMosaic.Init

noncomputable section

namespace Cert.Proof

open Idealize.ShloMosaic Idealize.ShloMosaic.TcCoe Idealize.SL.Sem
open Cert.KernelIdeal.KFrame Cert.KernelIdeal.KArray Cert.KernelIdeal.KVals Cert.ReferenceIdeal.RefValue

/-- The arrays the kernel region finds are host terms of the argument arrays, and with them the kernel's result
    array is the reference's result term of the same argument arrays. -/
theorem kernel_value (m : (ℓ : Loc Cert.KernelIdeal.nD Cert.KernelIdeal.τ Cert.KernelIdeal.sig) → Buf (Elt Ideal) ℓ) (c : Dev Cert.KernelIdeal.nD) :
    outArray (V m c Cert.KernelIdeal.main_v38) (V m c Cert.KernelIdeal.main_v77) (V m c Cert.KernelIdeal.main_v116) (V m c Cert.KernelIdeal.main_v120) (V m c Cert.KernelIdeal.main_arg7)
        (V m c Cert.KernelIdeal.main_arg9) (V m c Cert.KernelIdeal.main_arg11) (V m c Cert.KernelIdeal.main_v123) (V m c Cert.KernelIdeal.main_v124)
      = outR (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) := by
  rw [show V m c Cert.KernelIdeal.main_v38 = _ from after_main_v38 _, show V m c Cert.KernelIdeal.main_v77 = _ from after_main_v77 _,
    show V m c Cert.KernelIdeal.main_v116 = _ from after_main_v116 _, show V m c Cert.KernelIdeal.main_v120 = _ from after_main_v120 _,
    show V m c Cert.KernelIdeal.main_v123 = _ from after_main_v123 _, show V m c Cert.KernelIdeal.main_v124 = _ from after_main_v124 _,
    V_main_arg7, V_main_arg9, V_main_arg11]
  exact Cert.Bridge.outArray_eq_outR _ _ _ _ _ _ _ _ _ _ _ _ _ _

/-- Run from memories agreeing on the arguments, the two programs end with equal result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => outArray (V m c Cert.KernelIdeal.main_v38) (V m c Cert.KernelIdeal.main_v77) (V m c Cert.KernelIdeal.main_v116) (V m c Cert.KernelIdeal.main_v120)
    (V m c Cert.KernelIdeal.main_arg7) (V m c Cert.KernelIdeal.main_arg9) (V m c Cert.KernelIdeal.main_arg11) (V m c Cert.KernelIdeal.main_v123) (V m c Cert.KernelIdeal.main_v124),
    Cert.KernelIdeal.KArray.run m ρ, ?_⟩
  refine (θ_run Cert.ReferenceIdeal.defs _ _).mono (fun _ h c => ⟨(h c).1.trans ?_, (h c).2⟩) (Cert.ReferenceIdeal.RefValue.run (F := Ideal) m' ρ')
  rw [resR_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
  exact (kernel_value m c).symm

theorem claim : Cert.Claim :=
  ⟨Cert.Kernel.Gen.facts, Cert.KernelIdeal.Gen.facts, Cert.ReferenceIdeal.Gen.facts, Cert.Pre_finite_inputs.Gen.facts,
    fun m ρ _ => Cert.Kernel.KFrame.frame m ρ,
    fun m ρ _ => Cert.KernelIdeal.KFrame.frame m ρ,
    Cert.ReferenceIdeal.RefValue.frame_ri,
    trivial,
    algebraic⟩

end Cert.Proof

end
